-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x128 : Shape := ⟨3, ![1024, 64, 128]⟩
abbrev S128x1024 : Shape := ⟨2, ![128, 1024]⟩
abbrev S256x1024 : Shape := ⟨2, ![256, 1024]⟩
abbrev S1x1024 : Shape := ⟨2, ![1, 1024]⟩
abbrev S256x128 : Shape := ⟨2, ![256, 128]⟩
abbrev S1x128 : Shape := ⟨2, ![1, 128]⟩
abbrev S_ : Shape := ⟨0, ![]⟩

class Facts : Prop where
  bcast_S_S1024x64x128 : S_.BroadcastsInDim S1024x64x128 (![] : Fin 0 → Fin S1024x64x128.rank)
  reducesTo_S1024x64x128_S_d0_1_2 : S1024x64x128.ReducesTo [0, 1, 2] S_
  h_S_ : 0 < S_.numel
  bitsLt_bf16_f32 : FTy.bits .bf16 < FTy.bits .f32
  bcast_S_S128x1024 : S_.BroadcastsInDim S128x1024 (![] : Fin 0 → Fin S128x1024.rank)
  reducesTo_S128x1024_S_d0_1 : S128x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S256x128 .bf16) (main_arg5 : FVec F S1x128 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S256x128 .f32 := (extf .f32 · bitsLt_bf16_f32) main_arg4
  let main_v22 : FVec F S256x128 .f32 := Host.absf main_v21
  let main_cst_6 : FVec F S_ .f32 := constant S_ .f32 0x7F800000#32
  let main_v23 : FVec F S256x128 .f32 := broadcastInDim S256x128 ![] bcast_S_S256x128 main_cst_6
  let main_v24 : IVec S256x128 1 := cmpf .olt main_v22 main_v23
  let main_c_7 : IVec S_ 1 := constantI S_ 1 1#1
  let main_v25 : IVec S_ 1 := (fun x v => Host.reduce IntOp.andi x v reducesTo_S256x128_S_d0_1 h_S_) main_v24 main_c_7
  let main_v26 : IVec S_ 1 := andi main_v20 main_v25
  let main_v27 : FVec F S1x128 .f32 := Host.absf main_arg5
  let main_cst_8 : FVec F S_ .f32 := constant S_ .f32 0x7F800000#32
  let main_v28 : FVec F S1x128 .f32 := broadcastInDim S1x128 ![] bcast_S_S1x128 main_cst_8
  let main_v29 : IVec S1x128 1 := cmpf .olt main_v27 main_v28
  let main_c_9 : IVec S_ 1 := constantI S_ 1 1#1
  let main_v30 : IVec S_ 1 := (fun x v => Host.reduce IntOp.andi x v reducesTo_S1x128_S_d0_1 h_S_) main_v29 main_c_9
  let main_v31 : IVec S_ 1 := andi main_v26 main_v30
  main_v31

def fn {F : FTy → Type} [FloatOps F] (main_arg0 : FVec F S1024x64x128 .f32) (main_arg1 : FVec F S128x1024 .bf16) (main_arg2 : FVec F S256x1024 .bf16) (main_arg3 : FVec F S1x1024 .f32) (main_arg4 : FVec F S256x128 .bf16) (main_arg5 : FVec F S1x128 .f32) : IVec S_ 1 :=
  let main_v0 : FVec F S1024x64x128 .f32 := Host.absf main_arg0
  let main_cst : FVec F S_ .f32 := constant S_ .f32 0x7F800000#32
  let main_v1 : FVec F S1024x64x128 .f32 := broadcastInDim S1024x64x128 ![] bcast_S_S1024x64x128 main_cst
  let main_v2 : IVec S1024x64x128 1 := cmpf .olt main_v0 main_v1
  let main_c : IVec S_ 1 := constantI S_ 1 1#1
  let main_v3 : IVec S_ 1 := (fun x v => Host.reduce IntOp.andi x v reducesTo_S1024x64x128_S_d0_1_2 h_S_) main_v2 main_c
  let main_v4 : FVec F S128x1024 .f32 := (extf .f32 · bitsLt_bf16_f32) main_arg1
  let main_v5 : FVec F S128x1024 .f32 := Host.absf main_v4
  let main_cst_0 : FVec F S_ .f32 := constant S_ .f32 0x7F800000#32
  let main_v6 : FVec F S128x1024 .f32 := broadcastInDim S128x1024 ![] bcast_S_S128x1024 main_cst_0
  let main_v7 : IVec S128x1024 1 := cmpf .olt main_v5 main_v6
  let main_c_1 : IVec S_ 1 := constantI S_ 1 1#1
  let main_v8 : IVec S_ 1 := (fun x v => Host.reduce IntOp.andi x v reducesTo_S128x1024_S_d0_1 h_S_) main_v7 main_c_1
  let main_v9 : IVec S_ 1 := andi main_v3 main_v8
  let main_v10 : FVec F S256x1024 .f32 := (extf .f32 · bitsLt_bf16_f32) main_arg2
  let main_v11 : FVec F S256x1024 .f32 := Host.absf main_v10
  let main_cst_2 : FVec F S_ .f32 := constant S_ .f32 0x7F800000#32
  let main_v12 : FVec F S256x1024 .f32 := broadcastInDim S256x1024 ![] bcast_S_S256x1024 main_cst_2
  let main_v13 : IVec S256x1024 1 := cmpf .olt main_v11 main_v12
  let main_c_3 : IVec S_ 1 := constantI S_ 1 1#1
  let main_v14 : IVec S_ 1 := (fun x v => Host.reduce IntOp.andi x v reducesTo_S256x1024_S_d0_1 h_S_) main_v13 main_c_3
  let main_v15 : IVec S_ 1 := andi main_v9 main_v14
  let main_v16 : FVec F S1x1024 .f32 := Host.absf main_arg3
  let main_cst_4 : FVec F S_ .f32 := constant S_ .f32 0x7F800000#32
  fn_part1 (F := F) main_arg4 main_arg5 main_v15 main_v16 main_cst_4
-- ==== Kernel.lean ====
abbrev S1024x64x128 : Shape := ⟨3, ![1024, 64, 128]⟩
abbrev S128x1024 : Shape := ⟨2, ![128, 1024]⟩
abbrev S256x1024 : Shape := ⟨2, ![256, 1024]⟩
abbrev S1x1024 : Shape := ⟨2, ![1, 1024]⟩
abbrev S256x128 : Shape := ⟨2, ![256, 128]⟩
abbrev S1x128 : Shape := ⟨2, ![1, 128]⟩
abbrev S1024x128 : Shape := ⟨2, ![1024, 128]⟩
abbrev S512x16x128 : Shape := ⟨3, ![512, 16, 128]⟩
abbrev S512x128 : Shape := ⟨2, ![512, 128]⟩
abbrev S16x512x128 : Shape := ⟨3, ![16, 512, 128]⟩
abbrev S512x256 : Shape := ⟨2, ![512, 256]⟩
abbrev S256x256 : Shape := ⟨2, ![256, 256]⟩
abbrev S1x512x128 : Shape := ⟨3, ![1, 512, 128]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x64x128, .f32⟩
  | .hbm, ⟨1, _⟩ => ⟨S128x1024, .bf16⟩
  | .hbm, ⟨2, _⟩ => ⟨S256x1024, .bf16⟩
  | .hbm, ⟨3, _⟩ => ⟨S1x1024, .f32⟩
  | .hbm, ⟨4, _⟩ => ⟨S256x128, .bf16⟩
  | .hbm, ⟨5, _⟩ => ⟨S1x128, .f32⟩
  | .hbm, ⟨6, _⟩ => ⟨S1024x128, .f32⟩
  | .local _ .vmem, ⟨0, _⟩ => ⟨S512x16x128, .f32⟩
  | .local _ .vmem, ⟨1, _⟩ => ⟨S512x16x128, .f32⟩
  | .local _ .vmem, ⟨2, _⟩ => ⟨S128x1024, .bf16⟩
  | .local _ .vmem, ⟨3, _⟩ => ⟨S256x1024, .bf16⟩
  | .local _ .vmem, ⟨4, _⟩ => ⟨S1x1024, .f32⟩
  | .local _ .vmem, ⟨5, _⟩ => ⟨S256x128, .bf16⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S16x512x128, .bf16⟩
  | .local _ .vmem, ⟨10, _⟩ => ⟨S512x256, .f32⟩
  | .local _ .vmem, ⟨11, _⟩ => ⟨S512x256, .f32⟩
  | .local _ .vmem, ⟨12, _⟩ => ⟨S128x1024, .bf16⟩
  | .local _ .vmem, ⟨13, _⟩ => ⟨S256x1024, .bf16⟩
  | _, _ => ⟨S1024x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v803 : BitVec 1 := Scalar.cmpi .eq arg1 c3_i32
  let v804 : BitVec 32 := Scalar.extui v803
  let c0_i32_189 : BitVec 32 := 0#32
  let v805 : BitVec 1 := Scalar.cmpi .ne v804 c0_i32_189
  v805

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  iota_S1x1024_d1_w32 : S1x1024.Iotas .tc 32 [1]
  inb_S1x1024_S1x1024_0_0 : ∀ a, (![0, 0] : Fin 2 → Nat) a + S1x1024.size a ≤ S1x1024.size a
  h_S1x1024 : 0 < S1x1024.numel
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  broadcasts_S1x1024_S128x1024 : S1x1024.Broadcasts S128x1024
  shapeCasts_S128x1024_S128x1024 : S128x1024.ShapeCasts S128x1024
  packedbf16_S128x1024_S128x1024_0_0 : (Rect.unit (s := S128x1024) ![0, 0] S128x1024.size inb_S128x1024_S128x1024_0_0).PackedRows (EltTy.packing .bf16)
  inb_S256x1024_S256x1024_0_0 : ∀ a, (![0, 0] : Fin 2 → Nat) a + S256x1024.size a ≤ S256x1024.size a
  h_S256x1024 : 0 < S256x1024.numel
  broadcasts_S1x1024_S256x1024 : S1x1024.Broadcasts S256x1024
  shapeCasts_S256x1024_S256x1024 : S256x1024.ShapeCasts S256x1024
  packedbf16_S256x1024_S256x1024_0_0 : (Rect.unit (s := S256x1024) ![0, 0] S256x1024.size inb_S256x1024_S256x1024_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x16x128_S512x16x128_0_0_0 : ∀ a, (![0, 0, 0] : Fin 3 → Nat) a + S512x16x128.size a ≤ S512x16x128.size a
  h_S512x16x128 : 0 < S512x16x128.numel
  transposes_S512x16x128_p1_0_2_S16x512x128 : S512x16x128.Transposes [1, 0, 2] S16x512x128
  inb_S16x512x128_S16x512x128_0_0_0 : ∀ a, (![0, 0, 0] : Fin 3 → Nat) a + S16x512x128.size a ≤ S16x512x128.size a
  h_S16x512x128 : 0 < S16x512x128.numel
  shapeCasts_S16x512x128_S16x512x128 : S16x512x128.ShapeCasts S16x512x128
  packedbf16_S16x512x128_S16x512x128_0_0_0 : (Rect.unit (s := S16x512x128) ![0, 0, 0] S16x512x128.size inb_S16x512x128_S16x512x128_0_0_0).PackedRows (EltTy.packing .bf16)
  inb_S512x256_S256x256_0_0 : ∀ a, (![0, 0] : Fin 2 → Nat) a + S256x256.size a ≤ S512x256.size a
  h_S256x256 : 0 < S256x256.numel
  inb_S512x256_S256x256_256_0 : ∀ a, (![256, 0] : Fin 2 → Nat) a + S256x256.size a ≤ S512x256.size a
  inb_S16x512x128_S1x512x128_0_0_0 : ∀ a, (![0, 0, 0] : Fin 3 → Nat) a + S1x512x128.size a ≤ S16x512x128.size a
  h_S1x512x128 : 0 < S1x512x128.numel
  shapeCasts_S1x512x128_S512x128 : S1x512x128.ShapeCasts S512x128
  slices_S512x128_o0_0_S256x128 : S512x128.Slices ![0, 0] S256x128
  slices_S256x1024_o0_0_S256x768 : S256x1024.Slices ![0, 0] S256x768
  slices_S256x768_o0_0_S256x256 : S256x768.Slices ![0, 0] S256x256
  slices_S256x768_o0_256_S256x256 : S256x768.Slices ![0, 256] S256x256
  slices_S256x768_o0_512_S256x256 : S256x768.Slices ![0, 512] S256x256
  slices_S256x1024_o0_768_S256x256 : S256x1024.Slices ![0, 768] S256x256
  slices_S512x128_o256_0_S256x128 : S512x128.Slices ![256, 0] S256x128
  inb_S16x512x128_S1x512x128_1_0_0 : ∀ a, (![1, 0, 0] : Fin 3 → Nat) a + S1x512x128.size a ≤ S16x512x128.size a
  inb_S16x512x128_S1x512x128_2_0_0 : ∀ a, (![2, 0, 0] : Fin 3 → Nat) a + S1x512x128.size a ≤ S16x512x128.size a
  inb_S16x512x128_S1x512x128_3_0_0 : ∀ a, (![3, 0, 0] : Fin 3 → Nat) a + S1x512x128.size a ≤ S16x512x128.size a
  inb_S16x512x128_S1x512x128_4_0_0 : ∀ a, (![4, 0, 0] : Fin 3 → Nat) a + S1x512x128.size a ≤ S16x512x128.size a
  inb_S16x512x128_S1x512x128_5_0_0 : ∀ a, (![5, 0, 0] : Fin 3 → Nat) a + S1x512x128.size a ≤ S16x512x128.size a
  inb_S16x512x128_S1x512x128_6_0_0 : ∀ a, (![6, 0, 0] : Fin 3 → Nat) a + S1x512x128.size a ≤ S16x512x128.size a
  inb_S16x512x128_S1x512x128_7_0_0 : ∀ a, (![7, 0, 0] : Fin 3 → Nat) a + S1x512x128.size a ≤ S16x512x128.size a
  inb_S16x512x128_S1x512x128_8_0_0 : ∀ a, (![8, 0, 0] : Fin 3 → Nat) a + S1x512x128.size a ≤ S16x512x128.size a
  inb_S16x512x128_S1x512x128_9_0_0 : ∀ a, (![9, 0, 0] : Fin 3 → Nat) a + S1x512x128.size a ≤ S16x512x128.size a
  inb_S16x512x128_S1x512x128_10_0_0 : ∀ a, (![10, 0, 0] : Fin 3 → Nat) a + S1x512x128.size a ≤ S16x512x128.size a
  inb_S16x512x128_S1x512x128_11_0_0 : ∀ a, (![11, 0, 0] : Fin 3 → Nat) a + S1x512x128.size a ≤ S16x512x128.size a
  inb_S16x512x128_S1x512x128_12_0_0 : ∀ a, (![12, 0, 0] : Fin 3 → Nat) a + S1x512x128.size a ≤ S16x512x128.size a
  inb_S16x512x128_S1x512x128_13_0_0 : ∀ a, (![13, 0, 0] : Fin 3 → Nat) a + S1x512x128.size a ≤ S16x512x128.size a
  inb_S16x512x128_S1x512x128_14_0_0 : ∀ a, (![14, 0, 0] : Fin 3 → Nat) a + S1x512x128.size a ≤ S16x512x128.size a
  inb_S16x512x128_S1x512x128_15_0_0 : ∀ a, (![15, 0, 0] : Fin 3 → Nat) a + S1x512x128.size a ≤ S16x512x128.size a
  shapeCasts_S256x256_S256x256 : S256x256.ShapeCasts S256x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  inb_S512x128_S256x128_0_0 : ∀ a, (![0, 0] : Fin 2 → Nat) a + S256x128.size a ≤ S512x128.size a
  inb_S512x128_S256x128_256_0 : ∀ a, (![256, 0] : Fin 2 → Nat) a + S256x128.size a ≤ S512x128.size a
  dot_S256x128_S128x1024_S256x1024_1_0_0_1_n_n_wf : DotDims.WF S256x128 S128x1024 S256x1024 [1] [0] [0] [1] [] []
  dot_S256x256_S256x1024_S256x1024_1_0_0_1_n_n_wf : DotDims.WF S256x256 S256x1024 S256x1024 [1] [0] [0] [1] [] []
  dot_S256x256_S256x128_S256x128_1_0_0_1_n_n_wf : DotDims.WF S256x256 S256x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16x128.size a ≤ S1024x64x128.size a
  hwx0_0 : ∀ i : grid0.Coords, EltTy.bits .f32 = 32 ∨ (Rect.block (s := S1024x64x128) S512x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .bf16 = 32 ∨ (Rect.block (s := S128x1024) S128x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S1024x128.size a
  hwx0_6 : ∀ i : grid0.Coords, EltTy.bits .f32 = 32 ∨ (Rect.block (s := S1024x128) S512x128.size (cc0_transform_6 i) (hinb0_6 i)).WholeWords (EltTy.packing .f32)

variable [Facts₀]

def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_arg0) S512x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1024x64x128 : Shape := ⟨3, ![1024, 64, 128]⟩
abbrev S128x1024 : Shape := ⟨2, ![128, 1024]⟩
abbrev S256x1024 : Shape := ⟨2, ![256, 1024]⟩
abbrev S1x1024 : Shape := ⟨2, ![1, 1024]⟩
abbrev S256x128 : Shape := ⟨2, ![256, 128]⟩
abbrev S1x128 : Shape := ⟨2, ![1, 128]⟩
abbrev S1024x1x128 : Shape := ⟨3, ![1024, 1, 128]⟩
abbrev S1024x128 : Shape := ⟨2, ![1024, 128]⟩
abbrev S1x64x128 : Shape := ⟨3, ![1, 64, 128]⟩
abbrev S1x1x128 : Shape := ⟨3, ![1, 1, 128]⟩
abbrev S64x1024 : Shape := ⟨2, ![64, 1024]⟩
abbrev S64x128 : Shape := ⟨2, ![64, 128]⟩
abbrev S1x256 : Shape := ⟨2, ![1, 256]⟩
abbrev S1x768 : Shape := ⟨2, ![1, 768]⟩

abbrev nBuf : Space → Nat
  | .hbm => 8
  | .vmem => 10
  | .smem => 0
  | _ => 0

abbrev bufTy : (tb : Table) → Fin (tcTables nBuf tb) → BufTy
  | .hbm, ⟨0, _⟩ => ⟨S1024x64x128, .f32⟩
  | .hbm, ⟨1, _⟩ => ⟨S128x1024, .bf16⟩
  | .hbm, ⟨2, _⟩ => ⟨S256x1024, .bf16⟩
  | .hbm, ⟨3, _⟩ => ⟨S1x1024, .f32⟩
  | .hbm, ⟨4, _⟩ => ⟨S256x128, .bf16⟩
  | .hbm, ⟨5, _⟩ => ⟨S1x128, .f32⟩
  | .hbm, ⟨6, _⟩ => ⟨S1024x1x128, .f32⟩
  | .hbm, ⟨7, _⟩ => ⟨S1024x128, .f32⟩
  | .local _ .vmem, ⟨0, _⟩ => ⟨S1x64x128, .f32⟩
  | .local _ .vmem, ⟨1, _⟩ => ⟨S1x64x128, .f32⟩
  | .local _ .vmem, ⟨2, _⟩ => ⟨S128x1024, .bf16⟩
  | .local _ .vmem, ⟨3, _⟩ => ⟨S256x1024, .bf16⟩
  | .local _ .vmem, ⟨4, _⟩ => ⟨S1x1024, .f32⟩
  | .local _ .vmem, ⟨5, _⟩ => ⟨S256x128, .bf16⟩
  | .local _ .vmem, ⟨6, _⟩ => ⟨S1x128, .f32⟩
  | .local _ .vmem, ⟨7, _⟩ => ⟨S1x1x128, .f32⟩
  | .local _ .vmem, ⟨8, _⟩ => ⟨S1x1x128, .f32⟩
  | .local _ .vmem, ⟨9, _⟩ => ⟨S64x1024, .f32⟩
  | _, _ => ⟨S1024x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![1024], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1024x1x128_S1024x128 : S1024x1x128.ShapeCasts S1024x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1x1024_S1x1024_0_0 : ∀ a, (![0, 0] : Fin 2 → Nat) a + S1x1024.size a ≤ S1x1024.size a
  h_S1x1024 : 0 < S1x1024.numel
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S64x1024_S1x1024_0_0 : ∀ a, (![0, 0] : Fin 2 → Nat) a + S1x1024.size a ≤ S64x1024.size a
  inb_S256x1024_S256x1024_0_0 : ∀ a, (![0, 0] : Fin 2 → Nat) a + S256x1024.size a ≤ S256x1024.size a
  h_S256x1024 : 0 < S256x1024.numel
  slices_S1x1024_o0_0_S1x768 : S1x1024.Slices ![0, 0] S1x768
  slices_S1x768_o0_0_S1x256 : S1x768.Slices ![0, 0] S1x256
  slices_S1x768_o0_256_S1x256 : S1x768.Slices ![0, 256] S1x256
  slices_S1x768_o0_512_S1x256 : S1x768.Slices ![0, 512] S1x256
  slices_S1x1024_o0_768_S1x256 : S1x1024.Slices ![0, 768] S1x256
  inb_S64x1024_S1x1024_1_0 : ∀ a, (![1, 0] : Fin 2 → Nat) a + S1x1024.size a ≤ S64x1024.size a
  inb_S64x1024_S1x1024_2_0 : ∀ a, (![2, 0] : Fin 2 → Nat) a + S1x1024.size a ≤ S64x1024.size a
  inb_S64x1024_S1x1024_3_0 : ∀ a, (![3, 0] : Fin 2 → Nat) a + S1x1024.size a ≤ S64x1024.size a
  inb_S64x1024_S1x1024_4_0 : ∀ a, (![4, 0] : Fin 2 → Nat) a + S1x1024.size a ≤ S64x1024.size a
  inb_S64x1024_S1x1024_5_0 : ∀ a, (![5, 0] : Fin 2 → Nat) a + S1x1024.size a ≤ S64x1024.size a
  inb_S64x1024_S1x1024_6_0 : ∀ a, (![6, 0] : Fin 2 → Nat) a + S1x1024.size a ≤ S64x1024.size a
  inb_S64x1024_S1x1024_7_0 : ∀ a, (![7, 0] : Fin 2 → Nat) a + S1x1024.size a ≤ S64x1024.size a
  inb_S64x1024_S1x1024_8_0 : ∀ a, (![8, 0] : Fin 2 → Nat) a + S1x1024.size a ≤ S64x1024.size a
  inb_S64x1024_S1x1024_9_0 : ∀ a, (![9, 0] : Fin 2 → Nat) a + S1x1024.size a ≤ S64x1024.size a
  inb_S64x1024_S1x1024_10_0 : ∀ a, (![10, 0] : Fin 2 → Nat) a + S1x1024.size a ≤ S64x1024.size a
  inb_S64x1024_S1x1024_11_0 : ∀ a, (![11, 0] : Fin 2 → Nat) a + S1x1024.size a ≤ S64x1024.size a
  inb_S64x1024_S1x1024_12_0 : ∀ a, (![12, 0] : Fin 2 → Nat) a + S1x1024.size a ≤ S64x1024.size a
  inb_S64x1024_S1x1024_13_0 : ∀ a, (![13, 0] : Fin 2 → Nat) a + S1x1024.size a ≤ S64x1024.size a
  inb_S64x1024_S1x1024_14_0 : ∀ a, (![14, 0] : Fin 2 → Nat) a + S1x1024.size a ≤ S64x1024.size a
  inb_S64x1024_S1x1024_15_0 : ∀ a, (![15, 0] : Fin 2 → Nat) a + S1x1024.size a ≤ S64x1024.size a
  inb_S64x1024_S1x1024_16_0 : ∀ a, (![16, 0] : Fin 2 → Nat) a + S1x1024.size a ≤ S64x1024.size a
  inb_S64x1024_S1x1024_17_0 : ∀ a, (![17, 0] : Fin 2 → Nat) a + S1x1024.size a ≤ S64x1024.size a
  inb_S64x1024_S1x1024_18_0 : ∀ a, (![18, 0] : Fin 2 → Nat) a + S1x1024.size a ≤ S64x1024.size a
  inb_S64x1024_S1x1024_19_0 : ∀ a, (![19, 0] : Fin 2 → Nat) a + S1x1024.size a ≤ S64x1024.size a
  inb_S64x1024_S1x1024_20_0 : ∀ a, (![20, 0] : Fin 2 → Nat) a + S1x1024.size a ≤ S64x1024.size a
  inb_S64x1024_S1x1024_21_0 : ∀ a, (![21, 0] : Fin 2 → Nat) a + S1x1024.size a ≤ S64x1024.size a
  inb_S64x1024_S1x1024_22_0 : ∀ a, (![22, 0] : Fin 2 → Nat) a + S1x1024.size a ≤ S64x1024.size a
  inb_S64x1024_S1x1024_23_0 : ∀ a, (![23, 0] : Fin 2 → Nat) a + S1x1024.size a ≤ S64x1024.size a
  inb_S64x1024_S1x1024_24_0 : ∀ a, (![24, 0] : Fin 2 → Nat) a + S1x1024.size a ≤ S64x1024.size a
  inb_S64x1024_S1x1024_25_0 : ∀ a, (![25, 0] : Fin 2 → Nat) a + S1x1024.size a ≤ S64x1024.size a
  inb_S64x1024_S1x1024_26_0 : ∀ a, (![26, 0] : Fin 2 → Nat) a + S1x1024.size a ≤ S64x1024.size a
  inb_S64x1024_S1x1024_27_0 : ∀ a, (![27, 0] : Fin 2 → Nat) a + S1x1024.size a ≤ S64x1024.size a
  inb_S64x1024_S1x1024_28_0 : ∀ a, (![28, 0] : Fin 2 → Nat) a + S1x1024.size a ≤ S64x1024.size a
  inb_S64x1024_S1x1024_29_0 : ∀ a, (![29, 0] : Fin 2 → Nat) a + S1x1024.size a ≤ S64x1024.size a
  inb_S64x1024_S1x1024_30_0 : ∀ a, (![30, 0] : Fin 2 → Nat) a + S1x1024.size a ≤ S64x1024.size a
  inb_S64x1024_S1x1024_31_0 : ∀ a, (![31, 0] : Fin 2 → Nat) a + S1x1024.size a ≤ S64x1024.size a
  inb_S64x1024_S1x1024_32_0 : ∀ a, (![32, 0] : Fin 2 → Nat) a + S1x1024.size a ≤ S64x1024.size a
  inb_S64x1024_S1x1024_33_0 : ∀ a, (![33, 0] : Fin 2 → Nat) a + S1x1024.size a ≤ S64x1024.size a
  inb_S64x1024_S1x1024_34_0 : ∀ a, (![34, 0] : Fin 2 → Nat) a + S1x1024.size a ≤ S64x1024.size a
  inb_S64x1024_S1x1024_35_0 : ∀ a, (![35, 0] : Fin 2 → Nat) a + S1x1024.size a ≤ S64x1024.size a
  inb_S64x1024_S1x1024_36_0 : ∀ a, (![36, 0] : Fin 2 → Nat) a + S1x1024.size a ≤ S64x1024.size a
  inb_S64x1024_S1x1024_37_0 : ∀ a, (![37, 0] : Fin 2 → Nat) a + S1x1024.size a ≤ S64x1024.size a
  inb_S64x1024_S1x1024_38_0 : ∀ a, (![38, 0] : Fin 2 → Nat) a + S1x1024.size a ≤ S64x1024.size a
  inb_S64x1024_S1x1024_39_0 : ∀ a, (![39, 0] : Fin 2 → Nat) a + S1x1024.size a ≤ S64x1024.size a
  inb_S64x1024_S1x1024_40_0 : ∀ a, (![40, 0] : Fin 2 → Nat) a + S1x1024.size a ≤ S64x1024.size a
  inb_S64x1024_S1x1024_41_0 : ∀ a, (![41, 0] : Fin 2 → Nat) a + S1x1024.size a ≤ S64x1024.size a
  inb_S64x1024_S1x1024_42_0 : ∀ a, (![42, 0] : Fin 2 → Nat) a + S1x1024.size a ≤ S64x1024.size a
  inb_S64x1024_S1x1024_43_0 : ∀ a, (![43, 0] : Fin 2 → Nat) a + S1x1024.size a ≤ S64x1024.size a
  inb_S64x1024_S1x1024_44_0 : ∀ a, (![44, 0] : Fin 2 → Nat) a + S1x1024.size a ≤ S64x1024.size a
  inb_S64x1024_S1x1024_45_0 : ∀ a, (![45, 0] : Fin 2 → Nat) a + S1x1024.size a ≤ S64x1024.size a
  inb_S64x1024_S1x1024_46_0 : ∀ a, (![46, 0] : Fin 2 → Nat) a + S1x1024.size a ≤ S64x1024.size a
  inb_S64x1024_S1x1024_47_0 : ∀ a, (![47, 0] : Fin 2 → Nat) a + S1x1024.size a ≤ S64x1024.size a
  inb_S64x1024_S1x1024_48_0 : ∀ a, (![48, 0] : Fin 2 → Nat) a + S1x1024.size a ≤ S64x1024.size a
  inb_S64x1024_S1x1024_49_0 : ∀ a, (![49, 0] : Fin 2 → Nat) a + S1x1024.size a ≤ S64x1024.size a
  inb_S64x1024_S1x1024_50_0 : ∀ a, (![50, 0] : Fin 2 → Nat) a + S1x1024.size a ≤ S64x1024.size a
  inb_S64x1024_S1x1024_51_0 : ∀ a, (![51, 0] : Fin 2 → Nat) a + S1x1024.size a ≤ S64x1024.size a
  inb_S64x1024_S1x1024_52_0 : ∀ a, (![52, 0] : Fin 2 → Nat) a + S1x1024.size a ≤ S64x1024.size a
  inb_S64x1024_S1x1024_53_0 : ∀ a, (![53, 0] : Fin 2 → Nat) a + S1x1024.size a ≤ S64x1024.size a
  inb_S64x1024_S1x1024_54_0 : ∀ a, (![54, 0] : Fin 2 → Nat) a + S1x1024.size a ≤ S64x1024.size a
  inb_S64x1024_S1x1024_55_0 : ∀ a, (![55, 0] : Fin 2 → Nat) a + S1x1024.size a ≤ S64x1024.size a
  inb_S64x1024_S1x1024_56_0 : ∀ a, (![56, 0] : Fin 2 → Nat) a + S1x1024.size a ≤ S64x1024.size a
  inb_S64x1024_S1x1024_57_0 : ∀ a, (![57, 0] : Fin 2 → Nat) a + S1x1024.size a ≤ S64x1024.size a
  inb_S64x1024_S1x1024_58_0 : ∀ a, (![58, 0] : Fin 2 → Nat) a + S1x1024.size a ≤ S64x1024.size a
  inb_S64x1024_S1x1024_59_0 : ∀ a, (![59, 0] : Fin 2 → Nat) a + S1x1024.size a ≤ S64x1024.size a
  inb_S64x1024_S1x1024_60_0 : ∀ a, (![60, 0] : Fin 2 → Nat) a + S1x1024.size a ≤ S64x1024.size a
  inb_S64x1024_S1x1024_61_0 : ∀ a, (![61, 0] : Fin 2 → Nat) a + S1x1024.size a ≤ S64x1024.size a
  inb_S64x1024_S1x1024_62_0 : ∀ a, (![62, 0] : Fin 2 → Nat) a + S1x1024.size a ≤ S64x1024.size a
  inb_S64x1024_S1x1024_63_0 : ∀ a, (![63, 0] : Fin 2 → Nat) a + S1x1024.size a ≤ S64x1024.size a
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  dot_S64x128_S128x1024_S64x1024_1_0_0_1_n_n_wf : DotDims.WF S64x128 S128x1024 S64x1024 [1] [0] [0] [1] [] []
  dot_S1x256_S256x1024_S1x1024_1_0_0_1_n_n_wf : DotDims.WF S1x256 S256x1024 S1x1024 [1] [0] [0] [1] [] []
  dot_S1x256_S256x128_S1x128_1_0_0_1_n_n_wf : DotDims.WF S1x256 S256x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S1024x64x128.size a
  hwx0_0 : ∀ i : grid0.Coords, EltTy.bits .f32 = 32 ∨ (Rect.block (s := S1024x64x128) S1x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .bf16 = 32 ∨ (Rect.block (s := S128x1024) S128x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S1024x1x128.size a
  hwx0_6 : ∀ i : grid0.Coords, EltTy.bits .f32 = 32 ∨ (Rect.block (s := S1024x1x128) S1x1x128.size (cc0_transform_6 i) (hinb0_6 i)).WholeWords (EltTy.packing .f32)

variable [Facts₀]

def dot_S64x128_S128x1024_S64x1024_1_0_0_1_n_n : DotDims S64x128 S128x1024 S64x1024 where
  lhsContracting := [1]
  rhsContracting := [0]
  lhsNonContracting := [0]
  rhsNonContracting := [1]
  lhsBatch := []
  rhsBatch := []
  wf := dot_S64x128_S128x1024_S64x1024_1_0_0_1_n_n_wf
def dot_S1x256_S256x1024_S1x1024_1_0_0_1_n_n : DotDims S1x256 S256x1024 S1x1024 where
  lhsContracting := [1]
  rhsContracting := [0]
  lhsNonContracting := [0]
  rhsNonContracting := [1]
  lhsBatch := []
  rhsBatch := []
  wf := dot_S1x256_S256x1024_S1x1024_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v0) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== Proof.KCell.lean ====
/-
  One time step of the batched recurrence as the chunked kernel spells it, on one group of 256
  sequences: the pre-activation is the sum of the input projection, the hidden projection and the
  bias, all three with the columns of the input, forget and output gates already halved; the three
  gates are half the hyperbolic tangent of that plus one half; the candidate is the hyperbolic
  tangent of the last 256 columns; the new cell state is forget · cell + input · candidate and the
  new hidden state is output · tanh (new cell state). `steps` iterates it along the time steps of a
  chunk, and `head` is the final linear layer on the last hidden state.
-/
import proofs.«157242_g2000404025908667_pallasbulk_280_33_alg».proof.Proof.Gen.KernelIdeal

noncomputable section

namespace Cert.KernelIdeal.Cell

open Idealize.ShloMosaic Idealize.SL.Sem Cert.KernelIdeal Cert.KernelIdeal.Gen

variable {F : FTy → Type} [FloatOps F]

/-- A pair (hidden state, cell state) of one group of 256 sequences. -/
abbrev St (F : FTy → Type) [FloatOps F] := FVec F S256x256 .f32 × FVec F S256x256 .f32

/-- The rows of group `g` (rows 256·g … 256·g + 255) of the time-major slab of one time step. -/
def xGroup0 (xk : Vec F S1x512x128 .bf16) : FVec F S256x128 .bf16 :=
  extractStridedSlice S256x128 ![0, 0] (shapeCast S512x128 xk shapeCasts_S1x512x128_S512x128) slices_S512x128_o0_0_S256x128

def xGroup1 (xk : Vec F S1x512x128 .bf16) : FVec F S256x128 .bf16 :=
  extractStridedSlice S256x128 ![256, 0] (shapeCast S512x128 xk shapeCasts_S1x512x128_S512x128) slices_S512x128_o256_0_S256x128

/-- The pre-activation of one step: input projection + hidden projection + bias (all pre-scaled). -/
def pre (bs : FVec F S1x1024 .f32) (wi : Vec F S128x1024 .bf16) (wh : Vec F S256x1024 .bf16)
    (xt : FVec F S256x128 .bf16) (h : FVec F S256x256 .f32) : FVec F S256x1024 .f32 :=
  addf (addf (matmul dot_S256x128_S128x1024_S256x1024_1_0_0_1_n_n none xt wi (constant S256x1024 .f32 0x00000000#32))
      (matmul dot_S256x256_S256x1024_S256x1024_1_0_0_1_n_n none (truncf .bf16 h bitsLt_bf16_f32) wh (constant S256x1024 .f32 0x00000000#32)))
    (broadcastTo S256x1024 bs broadcasts_S1x1024_S256x1024)

/-- The three sigmoid gates from the pre-activation's first 768 columns, in the tanh form. -/
def sig (p : FVec F S256x1024 .f32) : FVec F S256x768 .f32 :=
  addf (mulf (tanh (extractStridedSlice S256x768 ![0, 0] p slices_S256x1024_o0_0_S256x768))
      (broadcast S256x768 (Scalar.ofBits .f32 0x3F000000#32)))
    (broadcast S256x768 (Scalar.ofBits .f32 0x3F000000#32))

/-- The new cell state. -/
def cellC (p : FVec F S256x1024 .f32) (c : FVec F S256x256 .f32) : FVec F S256x256 .f32 :=
  addf (mulf (extractStridedSlice S256x256 ![0, 256] (sig p) slices_S256x768_o0_256_S256x256) c)
    (mulf (extractStridedSlice S256x256 ![0, 0] (sig p) slices_S256x768_o0_0_S256x256)
      (tanh (extractStridedSlice S256x256 ![0, 768] p slices_S256x1024_o0_768_S256x256)))

/-- The new hidden state. -/
def cellH (p : FVec F S256x1024 .f32) (c : FVec F S256x256 .f32) : FVec F S256x256 .f32 :=
  mulf (extractStridedSlice S256x256 ![0, 512] (sig p) slices_S256x768_o0_512_S256x256) (tanh (cellC p c))

/-- One time step on one group. -/
def cell (bs : FVec F S1x1024 .f32) (wi : Vec F S128x1024 .bf16) (wh : Vec F S256x1024 .bf16)
    (xt : FVec F S256x128 .bf16) (s : St F) : St F :=
  (cellH (pre bs wi wh xt s.1) s.2, cellC (pre bs wi wh xt s.1) s.2)

/-- `k` time steps on one group, the step-`j` input rows given by `xt j`. -/
def steps (bs : FVec F S1x1024 .f32) (wi : Vec F S128x1024 .bf16) (wh : Vec F S256x1024 .bf16)
    (xt : ℕ → FVec F S256x128 .bf16) : ℕ → St F → St F
  | 0, s => s
  | k + 1, s => cell bs wi wh (xt k) (steps bs wi wh xt k s)

/-- The final linear layer on a group's last hidden state. -/
def head (wl : Vec F S256x128 .bf16) (bl : Vec F S1x128 .f32) (h : FVec F S256x256 .f32) : FVec F S256x128 .f32 :=
  addf (matmul dot_S256x256_S256x128_S256x128_1_0_0_1_n_n none (truncf .bf16 h bitsLt_bf16_f32) wl (constant S256x128 .f32 0x00000000#32))
    (broadcastTo S256x128 bl broadcasts_S1x128_S256x128)

end Cert.KernelIdeal.Cell

end
-- ==== Proof.KPieces.lean ====
/-
  What one grid point of the chunked kernel leaves in the buffers it carries, as the pieces its run
  found, stated against the one-step function of the cell module: at a point that is not the first of
  its block (cases B and C) each of the two row groups of the hidden-state and cell-state scratch is
  sixteen steps of the cell from what the scratch held, on the sixteen time-major slabs of the point's
  input block; at the last point of a block (case C) the output block is the linear head on those
  hidden states. Each statement is the definitional unfolding of the run's piece list.
-/
import proofs.«157242_g2000404025908667_pallasbulk_280_33_alg».proof.Proof.Gen.KernelIdeal.Frame
import proofs.«157242_g2000404025908667_pallasbulk_280_33_alg».proof.Proof.KCell

set_option maxRecDepth 16384

noncomputable section

namespace Cert.KernelIdeal.KValue

open Idealize.ShloMosaic Idealize.ShloMosaic.TcCoe Idealize.ShloMosaic.Tactic Idealize.SL.Sem
open Cert.KernelIdeal Cert.KernelIdeal.Gen

variable {F : FTy → Type} [FloatOps F]

/-- The time-major slab of time step `k` of the point's input block, as the body reads it back from
    the scratch it has just filled with the whole relaid block. -/
def xkRaw (arg2 : Memref sig .tc .vmem S512x16x128 .f32) (harg2 : arg2.IsWhole) (arg9 : Memref sig .tc .vmem S16x512x128 .bf16) (x0 : Vec F S512x16x128 .f32) : ℕ → Vec F S1x512x128 .bf16
  | 0 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![0, 0, 0] S1x512x128.size inb_S16x512x128_S1x512x128_0_0_0).toLoadRect
  | 1 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![1, 0, 0] S1x512x128.size inb_S16x512x128_S1x512x128_1_0_0).toLoadRect
  | 2 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![2, 0, 0] S1x512x128.size inb_S16x512x128_S1x512x128_2_0_0).toLoadRect
  | 3 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![3, 0, 0] S1x512x128.size inb_S16x512x128_S1x512x128_3_0_0).toLoadRect
  | 4 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![4, 0, 0] S1x512x128.size inb_S16x512x128_S1x512x128_4_0_0).toLoadRect
  | 5 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![5, 0, 0] S1x512x128.size inb_S16x512x128_S1x512x128_5_0_0).toLoadRect
  | 6 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![6, 0, 0] S1x512x128.size inb_S16x512x128_S1x512x128_6_0_0).toLoadRect
  | 7 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![7, 0, 0] S1x512x128.size inb_S16x512x128_S1x512x128_7_0_0).toLoadRect
  | 8 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![8, 0, 0] S1x512x128.size inb_S16x512x128_S1x512x128_8_0_0).toLoadRect
  | 9 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![9, 0, 0] S1x512x128.size inb_S16x512x128_S1x512x128_9_0_0).toLoadRect
  | 10 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![10, 0, 0] S1x512x128.size inb_S16x512x128_S1x512x128_10_0_0).toLoadRect
  | 11 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![11, 0, 0] S1x512x128.size inb_S16x512x128_S1x512x128_11_0_0).toLoadRect
  | 12 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![12, 0, 0] S1x512x128.size inb_S16x512x128_S1x512x128_12_0_0).toLoadRect
  | 13 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![13, 0, 0] S1x512x128.size inb_S16x512x128_S1x512x128_13_0_0).toLoadRect
  | 14 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![14, 0, 0] S1x512x128.size inb_S16x512x128_S1x512x128_14_0_0).toLoadRect
  | 15 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![15, 0, 0] S1x512x128.size inb_S16x512x128_S1x512x128_15_0_0).toLoadRect
  | _ + 16 => arg9.view.readCov [⟨Rect.unit (s := S16x512x128) ![0, 0, 0] S16x512x128.size inb_S16x512x128_S16x512x128_0_0_0, k0_pay9 (View.readAt (Elt F) arg2.view (Rect.unit (s := S512x16x128) ![0, 0, 0] S512x16x128.size inb_S512x16x128_S512x16x128_0_0_0).toLoadRect (harg2.unread x0))⟩] (Rect.unit (s := S16x512x128) ![0, 0, 0] S1x512x128.size inb_S16x512x128_S1x512x128_0_0_0).toLoadRect

/-- Case B, the hidden-state scratch: both groups advanced sixteen steps. -/
theorem hidden_B (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : ¬cond0_0 i) (hc1 : ¬cond0_1 i) (x0 : Vec F S512x16x128 .f32) (x1 : Vec F S128x1024 .bf16) (x2 : Vec F S256x1024 .bf16) (x3 : Vec F S1x1024 .f32) (x4 : Vec F S256x128 .bf16) (x5 : Vec F S1x128 .f32) (xs1 : Vec F S512x256 .f32) (xs2 : Vec F S512x256 .f32) (xs3 : Vec F S128x1024 .bf16) (xs4 : Vec F S256x1024 .bf16) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4 = View.canon
      [⟨Rect.unit (s := S512x256) ![256, 0] S256x256.size inb_S512x256_S256x256_256_0, shapeCast S256x256 (Cell.steps (k0_pay4 (View.readAt (Elt F) arg5.view (Rect.unit (s := S1x1024) ![0, 0] S1x1024.size inb_S1x1024_S1x1024_0_0).toLoadRect (harg5.unread x3))) (View.readAt (Elt F) arg12.view (Rect.unit (s := S128x1024) ![0, 0] S128x1024.size inb_S128x1024_S128x1024_0_0).toLoadRect (harg12.unread xs3)) (View.readAt (Elt F) arg13.view (Rect.unit (s := S256x1024) ![0, 0] S256x1024.size inb_S256x1024_S256x1024_0_0).toLoadRect (harg13.unread xs4)) (fun k => Cell.xGroup1 (xkRaw arg2 harg2 arg9 x0 k)) 16 ((View.readAt (Elt F) arg10.view (Rect.unit (s := S512x256) ![256, 0] S256x256.size inb_S512x256_S256x256_256_0).toLoadRect (harg10.unread xs1)), (View.readAt (Elt F) arg11.view (Rect.unit (s := S512x256) ![256, 0] S256x256.size inb_S512x256_S256x256_256_0).toLoadRect (harg11.unread xs2)))).1 shapeCasts_S256x256_S256x256⟩,
       ⟨Rect.unit (s := S512x256) ![0, 0] S256x256.size inb_S512x256_S256x256_0_0, shapeCast S256x256 (Cell.steps (k0_pay4 (View.readAt (Elt F) arg5.view (Rect.unit (s := S1x1024) ![0, 0] S1x1024.size inb_S1x1024_S1x1024_0_0).toLoadRect (harg5.unread x3))) (View.readAt (Elt F) arg12.view (Rect.unit (s := S128x1024) ![0, 0] S128x1024.size inb_S128x1024_S128x1024_0_0).toLoadRect (harg12.unread xs3)) (View.readAt (Elt F) arg13.view (Rect.unit (s := S256x1024) ![0, 0] S256x1024.size inb_S256x1024_S256x1024_0_0).toLoadRect (harg13.unread xs4)) (fun k => Cell.xGroup0 (xkRaw arg2 harg2 arg9 x0 k)) 16 ((View.readAt (Elt F) arg10.view (Rect.unit (s := S512x256) ![0, 0] S256x256.size inb_S512x256_S256x256_0_0).toLoadRect (harg10.unread xs1)), (View.readAt (Elt F) arg11.view (Rect.unit (s := S512x256) ![0, 0] S256x256.size inb_S512x256_S256x256_0_0).toLoadRect (harg11.unread xs2)))).1 shapeCasts_S256x256_S256x256⟩] := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4)]
  sl_kernel_rfl

/-- Case B, the cell-state scratch: both groups advanced sixteen steps. -/
theorem cellst_B (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : ¬cond0_0 i) (hc1 : ¬cond0_1 i) (x0 : Vec F S512x16x128 .f32) (x1 : Vec F S128x1024 .bf16) (x2 : Vec F S256x1024 .bf16) (x3 : Vec F S1x1024 .f32) (x4 : Vec F S256x128 .bf16) (x5 : Vec F S1x128 .f32) (xs1 : Vec F S512x256 .f32) (xs2 : Vec F S512x256 .f32) (xs3 : Vec F S128x1024 .bf16) (xs4 : Vec F S256x1024 .bf16) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4 = View.canon
      [⟨Rect.unit (s := S512x256) ![256, 0] S256x256.size inb_S512x256_S256x256_256_0, shapeCast S256x256 (Cell.steps (k0_pay4 (View.readAt (Elt F) arg5.view (Rect.unit (s := S1x1024) ![0, 0] S1x1024.size inb_S1x1024_S1x1024_0_0).toLoadRect (harg5.unread x3))) (View.readAt (Elt F) arg12.view (Rect.unit (s := S128x1024) ![0, 0] S128x1024.size inb_S128x1024_S128x1024_0_0).toLoadRect (harg12.unread xs3)) (View.readAt (Elt F) arg13.view (Rect.unit (s := S256x1024) ![0, 0] S256x1024.size inb_S256x1024_S256x1024_0_0).toLoadRect (harg13.unread xs4)) (fun k => Cell.xGroup1 (xkRaw arg2 harg2 arg9 x0 k)) 16 ((View.readAt (Elt F) arg10.view (Rect.unit (s := S512x256) ![256, 0] S256x256.size inb_S512x256_S256x256_256_0).toLoadRect (harg10.unread xs1)), (View.readAt (Elt F) arg11.view (Rect.unit (s := S512x256) ![256, 0] S256x256.size inb_S512x256_S256x256_256_0).toLoadRect (harg11.unread xs2)))).2 shapeCasts_S256x256_S256x256⟩,
       ⟨Rect.unit (s := S512x256) ![0, 0] S256x256.size inb_S512x256_S256x256_0_0, shapeCast S256x256 (Cell.steps (k0_pay4 (View.readAt (Elt F) arg5.view (Rect.unit (s := S1x1024) ![0, 0] S1x1024.size inb_S1x1024_S1x1024_0_0).toLoadRect (harg5.unread x3))) (View.readAt (Elt F) arg12.view (Rect.unit (s := S128x1024) ![0, 0] S128x1024.size inb_S128x1024_S128x1024_0_0).toLoadRect (harg12.unread xs3)) (View.readAt (Elt F) arg13.view (Rect.unit (s := S256x1024) ![0, 0] S256x1024.size inb_S256x1024_S256x1024_0_0).toLoadRect (harg13.unread xs4)) (fun k => Cell.xGroup0 (xkRaw arg2 harg2 arg9 x0 k)) 16 ((View.readAt (Elt F) arg10.view (Rect.unit (s := S512x256) ![0, 0] S256x256.size inb_S512x256_S256x256_0_0).toLoadRect (harg10.unread xs1)), (View.readAt (Elt F) arg11.view (Rect.unit (s := S512x256) ![0, 0] S256x256.size inb_S512x256_S256x256_0_0).toLoadRect (harg11.unread xs2)))).2 shapeCasts_S256x256_S256x256⟩] := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4)]
  sl_kernel_rfl

/-- Case C, the hidden-state scratch: both groups advanced sixteen steps. -/
theorem hidden_C (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : ¬cond0_0 i) (hc1 : cond0_1 i) (x0 : Vec F S512x16x128 .f32) (x1 : Vec F S128x1024 .bf16) (x2 : Vec F S256x1024 .bf16) (x3 : Vec F S1x1024 .f32) (x4 : Vec F S256x128 .bf16) (x5 : Vec F S1x128 .f32) (xs1 : Vec F S512x256 .f32) (xs2 : Vec F S512x256 .f32) (xs3 : Vec F S128x1024 .bf16) (xs4 : Vec F S256x1024 .bf16) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4 = View.canon
      [⟨Rect.unit (s := S512x256) ![256, 0] S256x256.size inb_S512x256_S256x256_256_0, shapeCast S256x256 (Cell.steps (k0_pay4 (View.readAt (Elt F) arg5.view (Rect.unit (s := S1x1024) ![0, 0] S1x1024.size inb_S1x1024_S1x1024_0_0).toLoadRect (harg5.unread x3))) (View.readAt (Elt F) arg12.view (Rect.unit (s := S128x1024) ![0, 0] S128x1024.size inb_S128x1024_S128x1024_0_0).toLoadRect (harg12.unread xs3)) (View.readAt (Elt F) arg13.view (Rect.unit (s := S256x1024) ![0, 0] S256x1024.size inb_S256x1024_S256x1024_0_0).toLoadRect (harg13.unread xs4)) (fun k => Cell.xGroup1 (xkRaw arg2 harg2 arg9 x0 k)) 16 ((View.readAt (Elt F) arg10.view (Rect.unit (s := S512x256) ![256, 0] S256x256.size inb_S512x256_S256x256_256_0).toLoadRect (harg10.unread xs1)), (View.readAt (Elt F) arg11.view (Rect.unit (s := S512x256) ![256, 0] S256x256.size inb_S512x256_S256x256_256_0).toLoadRect (harg11.unread xs2)))).1 shapeCasts_S256x256_S256x256⟩,
       ⟨Rect.unit (s := S512x256) ![0, 0] S256x256.size inb_S512x256_S256x256_0_0, shapeCast S256x256 (Cell.steps (k0_pay4 (View.readAt (Elt F) arg5.view (Rect.unit (s := S1x1024) ![0, 0] S1x1024.size inb_S1x1024_S1x1024_0_0).toLoadRect (harg5.unread x3))) (View.readAt (Elt F) arg12.view (Rect.unit (s := S128x1024) ![0, 0] S128x1024.size inb_S128x1024_S128x1024_0_0).toLoadRect (harg12.unread xs3)) (View.readAt (Elt F) arg13.view (Rect.unit (s := S256x1024) ![0, 0] S256x1024.size inb_S256x1024_S256x1024_0_0).toLoadRect (harg13.unread xs4)) (fun k => Cell.xGroup0 (xkRaw arg2 harg2 arg9 x0 k)) 16 ((View.readAt (Elt F) arg10.view (Rect.unit (s := S512x256) ![0, 0] S256x256.size inb_S512x256_S256x256_0_0).toLoadRect (harg10.unread xs1)), (View.readAt (Elt F) arg11.view (Rect.unit (s := S512x256) ![0, 0] S256x256.size inb_S512x256_S256x256_0_0).toLoadRect (harg11.unread xs2)))).1 shapeCasts_S256x256_S256x256⟩] := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4)]
  sl_kernel_rfl

/-- Case C, the cell-state scratch: both groups advanced sixteen steps. -/
theorem cellst_C (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : ¬cond0_0 i) (hc1 : cond0_1 i) (x0 : Vec F S512x16x128 .f32) (x1 : Vec F S128x1024 .bf16) (x2 : Vec F S256x1024 .bf16) (x3 : Vec F S1x1024 .f32) (x4 : Vec F S256x128 .bf16) (x5 : Vec F S1x128 .f32) (xs1 : Vec F S512x256 .f32) (xs2 : Vec F S512x256 .f32) (xs3 : Vec F S128x1024 .bf16) (xs4 : Vec F S256x1024 .bf16) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4 = View.canon
      [⟨Rect.unit (s := S512x256) ![256, 0] S256x256.size inb_S512x256_S256x256_256_0, shapeCast S256x256 (Cell.steps (k0_pay4 (View.readAt (Elt F) arg5.view (Rect.unit (s := S1x1024) ![0, 0] S1x1024.size inb_S1x1024_S1x1024_0_0).toLoadRect (harg5.unread x3))) (View.readAt (Elt F) arg12.view (Rect.unit (s := S128x1024) ![0, 0] S128x1024.size inb_S128x1024_S128x1024_0_0).toLoadRect (harg12.unread xs3)) (View.readAt (Elt F) arg13.view (Rect.unit (s := S256x1024) ![0, 0] S256x1024.size inb_S256x1024_S256x1024_0_0).toLoadRect (harg13.unread xs4)) (fun k => Cell.xGroup1 (xkRaw arg2 harg2 arg9 x0 k)) 16 ((View.readAt (Elt F) arg10.view (Rect.unit (s := S512x256) ![256, 0] S256x256.size inb_S512x256_S256x256_256_0).toLoadRect (harg10.unread xs1)), (View.readAt (Elt F) arg11.view (Rect.unit (s := S512x256) ![256, 0] S256x256.size inb_S512x256_S256x256_256_0).toLoadRect (harg11.unread xs2)))).2 shapeCasts_S256x256_S256x256⟩,
       ⟨Rect.unit (s := S512x256) ![0, 0] S256x256.size inb_S512x256_S256x256_0_0, shapeCast S256x256 (Cell.steps (k0_pay4 (View.readAt (Elt F) arg5.view (Rect.unit (s := S1x1024) ![0, 0] S1x1024.size inb_S1x1024_S1x1024_0_0).toLoadRect (harg5.unread x3))) (View.readAt (Elt F) arg12.view (Rect.unit (s := S128x1024) ![0, 0] S128x1024.size inb_S128x1024_S128x1024_0_0).toLoadRect (harg12.unread xs3)) (View.readAt (Elt F) arg13.view (Rect.unit (s := S256x1024) ![0, 0] S256x1024.size inb_S256x1024_S256x1024_0_0).toLoadRect (harg13.unread xs4)) (fun k => Cell.xGroup0 (xkRaw arg2 harg2 arg9 x0 k)) 16 ((View.readAt (Elt F) arg10.view (Rect.unit (s := S512x256) ![0, 0] S256x256.size inb_S512x256_S256x256_0_0).toLoadRect (harg10.unread xs1)), (View.readAt (Elt F) arg11.view (Rect.unit (s := S512x256) ![0, 0] S256x256.size inb_S512x256_S256x256_0_0).toLoadRect (harg11.unread xs2)))).2 shapeCasts_S256x256_S256x256⟩] := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4)]
  sl_kernel_rfl

/-- Case C, the output block: the linear head on both groups' last hidden states. -/
theorem output_C (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : ¬cond0_0 i) (hc1 : cond0_1 i) (x0 : Vec F S512x16x128 .f32) (x1 : Vec F S128x1024 .bf16) (x2 : Vec F S256x1024 .bf16) (x3 : Vec F S1x1024 .f32) (x4 : Vec F S256x128 .bf16) (x5 : Vec F S1x128 .f32) (xs1 : Vec F S512x256 .f32) (xs2 : Vec F S512x256 .f32) (xs3 : Vec F S128x1024 .bf16) (xs4 : Vec F S256x1024 .bf16) :
    out0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4 = View.canon
      [⟨Rect.unit (s := S512x128) ![256, 0] S256x128.size inb_S512x128_S256x128_256_0, Cell.head (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5)) (Cell.steps (k0_pay4 (View.readAt (Elt F) arg5.view (Rect.unit (s := S1x1024) ![0, 0] S1x1024.size inb_S1x1024_S1x1024_0_0).toLoadRect (harg5.unread x3))) (View.readAt (Elt F) arg12.view (Rect.unit (s := S128x1024) ![0, 0] S128x1024.size inb_S128x1024_S128x1024_0_0).toLoadRect (harg12.unread xs3)) (View.readAt (Elt F) arg13.view (Rect.unit (s := S256x1024) ![0, 0] S256x1024.size inb_S256x1024_S256x1024_0_0).toLoadRect (harg13.unread xs4)) (fun k => Cell.xGroup1 (xkRaw arg2 harg2 arg9 x0 k)) 16 ((View.readAt (Elt F) arg10.view (Rect.unit (s := S512x256) ![256, 0] S256x256.size inb_S512x256_S256x256_256_0).toLoadRect (harg10.unread xs1)), (View.readAt (Elt F) arg11.view (Rect.unit (s := S512x256) ![256, 0] S256x256.size inb_S512x256_S256x256_256_0).toLoadRect (harg11.unread xs2)))).1⟩,
       ⟨Rect.unit (s := S512x128) ![0, 0] S256x128.size inb_S512x128_S256x128_0_0, Cell.head (View.readAt (Elt F) arg6.view (Rect.unit (s := S256x128) ![0, 0] S256x128.size inb_S256x128_S256x128_0_0).toLoadRect (harg6.unread x4)) (View.readAt (Elt F) arg7.view (Rect.unit (s := S1x128) ![0, 0] S1x128.size inb_S1x128_S1x128_0_0).toLoadRect (harg7.unread x5)) (Cell.steps (k0_pay4 (View.readAt (Elt F) arg5.view (Rect.unit (s := S1x1024) ![0, 0] S1x1024.size inb_S1x1024_S1x1024_0_0).toLoadRect (harg5.unread x3))) (View.readAt (Elt F) arg12.view (Rect.unit (s := S128x1024) ![0, 0] S128x1024.size inb_S128x1024_S128x1024_0_0).toLoadRect (harg12.unread xs3)) (View.readAt (Elt F) arg13.view (Rect.unit (s := S256x1024) ![0, 0] S256x1024.size inb_S256x1024_S256x1024_0_0).toLoadRect (harg13.unread xs4)) (fun k => Cell.xGroup0 (xkRaw arg2 harg2 arg9 x0 k)) 16 ((View.readAt (Elt F) arg10.view (Rect.unit (s := S512x256) ![0, 0] S256x256.size inb_S512x256_S256x256_0_0).toLoadRect (harg10.unread xs1)), (View.readAt (Elt F) arg11.view (Rect.unit (s := S512x256) ![0, 0] S256x256.size inb_S512x256_S256x256_0_0).toLoadRect (harg11.unread xs2)))).1⟩] := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4)]
  sl_kernel_rfl

/-! ## The first point of a block (case A): the scaled weights are stored, the state starts at zero -/

/-- Case A, the hidden-state scratch: both groups advanced sixteen steps from the all-zero store (which the two group pieces then cover). -/
theorem hidden_A (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : cond0_0 i) (hc1 : ¬cond0_1 i) (x0 : Vec F S512x16x128 .f32) (x1 : Vec F S128x1024 .bf16) (x2 : Vec F S256x1024 .bf16) (x3 : Vec F S1x1024 .f32) (x4 : Vec F S256x128 .bf16) (x5 : Vec F S1x128 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = View.canon
      [⟨Rect.unit (s := S512x256) ![256, 0] S256x256.size inb_S512x256_S256x256_256_0, shapeCast S256x256 (Cell.steps (k0_pay4 (View.readAt (Elt F) arg5.view (Rect.unit (s := S1x1024) ![0, 0] S1x1024.size inb_S1x1024_S1x1024_0_0).toLoadRect (harg5.unread x3))) (arg12.view.readCov [⟨Rect.unit (s := S128x1024) ![0, 0] S128x1024.size inb_S128x1024_S128x1024_0_0, k0_pay5 (View.readAt (Elt F) arg3.view (Rect.unit (s := S128x1024) ![0, 0] S128x1024.size inb_S128x1024_S128x1024_0_0).toLoadRect (harg3.unread x1))⟩] (Rect.unit (s := S128x1024) ![0, 0] S128x1024.size inb_S128x1024_S128x1024_0_0).toLoadRect) (arg13.view.readCov [⟨Rect.unit (s := S256x1024) ![0, 0] S256x1024.size inb_S256x1024_S256x1024_0_0, k0_pay6 (View.readAt (Elt F) arg4.view (Rect.unit (s := S256x1024) ![0, 0] S256x1024.size inb_S256x1024_S256x1024_0_0).toLoadRect (harg4.unread x2))⟩] (Rect.unit (s := S256x1024) ![0, 0] S256x1024.size inb_S256x1024_S256x1024_0_0).toLoadRect) (fun k => Cell.xGroup1 (xkRaw arg2 harg2 arg9 x0 k)) 16 (((arg10.view.readCov (Val := Elt F) [⟨Rect.unit (s := S512x256) ![0, 0] S512x256.size inb_S512x256_S512x256_0_0, k0_pay7 (F := F)⟩] (Rect.unit (s := S512x256) ![256, 0] S256x256.size inb_S512x256_S256x256_256_0).toLoadRect : FVec F S256x256 .f32)), ((arg11.view.readCov (Val := Elt F) [⟨Rect.unit (s := S512x256) ![0, 0] S512x256.size inb_S512x256_S512x256_0_0, k0_pay8 (F := F)⟩] (Rect.unit (s := S512x256) ![256, 0] S256x256.size inb_S512x256_S256x256_256_0).toLoadRect : FVec F S256x256 .f32)))).1 shapeCasts_S256x256_S256x256⟩,
       ⟨Rect.unit (s := S512x256) ![0, 0] S256x256.size inb_S512x256_S256x256_0_0, shapeCast S256x256 (Cell.steps (k0_pay4 (View.readAt (Elt F) arg5.view (Rect.unit (s := S1x1024) ![0, 0] S1x1024.size inb_S1x1024_S1x1024_0_0).toLoadRect (harg5.unread x3))) (arg12.view.readCov [⟨Rect.unit (s := S128x1024) ![0, 0] S128x1024.size inb_S128x1024_S128x1024_0_0, k0_pay5 (View.readAt (Elt F) arg3.view (Rect.unit (s := S128x1024) ![0, 0] S128x1024.size inb_S128x1024_S128x1024_0_0).toLoadRect (harg3.unread x1))⟩] (Rect.unit (s := S128x1024) ![0, 0] S128x1024.size inb_S128x1024_S128x1024_0_0).toLoadRect) (arg13.view.readCov [⟨Rect.unit (s := S256x1024) ![0, 0] S256x1024.size inb_S256x1024_S256x1024_0_0, k0_pay6 (View.readAt (Elt F) arg4.view (Rect.unit (s := S256x1024) ![0, 0] S256x1024.size inb_S256x1024_S256x1024_0_0).toLoadRect (harg4.unread x2))⟩] (Rect.unit (s := S256x1024) ![0, 0] S256x1024.size inb_S256x1024_S256x1024_0_0).toLoadRect) (fun k => Cell.xGroup0 (xkRaw arg2 harg2 arg9 x0 k)) 16 (((arg10.view.readCov (Val := Elt F) [⟨Rect.unit (s := S512x256) ![0, 0] S512x256.size inb_S512x256_S512x256_0_0, k0_pay7 (F := F)⟩] (Rect.unit (s := S512x256) ![0, 0] S256x256.size inb_S512x256_S256x256_0_0).toLoadRect : FVec F S256x256 .f32)), ((arg11.view.readCov (Val := Elt F) [⟨Rect.unit (s := S512x256) ![0, 0] S512x256.size inb_S512x256_S512x256_0_0, k0_pay8 (F := F)⟩] (Rect.unit (s := S512x256) ![0, 0] S256x256.size inb_S512x256_S256x256_0_0).toLoadRect : FVec F S256x256 .f32)))).1 shapeCasts_S256x256_S256x256⟩,
       ⟨Rect.unit (s := S512x256) ![0, 0] S512x256.size inb_S512x256_S512x256_0_0, k0_pay7⟩] := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  sl_kernel_rfl

/-- Case A, the cell-state scratch: both groups advanced sixteen steps from the all-zero store. -/
theorem cellst_A (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : cond0_0 i) (hc1 : ¬cond0_1 i) (x0 : Vec F S512x16x128 .f32) (x1 : Vec F S128x1024 .bf16) (x2 : Vec F S256x1024 .bf16) (x3 : Vec F S1x1024 .f32) (x4 : Vec F S256x128 .bf16) (x5 : Vec F S1x128 .f32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = View.canon
      [⟨Rect.unit (s := S512x256) ![256, 0] S256x256.size inb_S512x256_S256x256_256_0, shapeCast S256x256 (Cell.steps (k0_pay4 (View.readAt (Elt F) arg5.view (Rect.unit (s := S1x1024) ![0, 0] S1x1024.size inb_S1x1024_S1x1024_0_0).toLoadRect (harg5.unread x3))) (arg12.view.readCov [⟨Rect.unit (s := S128x1024) ![0, 0] S128x1024.size inb_S128x1024_S128x1024_0_0, k0_pay5 (View.readAt (Elt F) arg3.view (Rect.unit (s := S128x1024) ![0, 0] S128x1024.size inb_S128x1024_S128x1024_0_0).toLoadRect (harg3.unread x1))⟩] (Rect.unit (s := S128x1024) ![0, 0] S128x1024.size inb_S128x1024_S128x1024_0_0).toLoadRect) (arg13.view.readCov [⟨Rect.unit (s := S256x1024) ![0, 0] S256x1024.size inb_S256x1024_S256x1024_0_0, k0_pay6 (View.readAt (Elt F) arg4.view (Rect.unit (s := S256x1024) ![0, 0] S256x1024.size inb_S256x1024_S256x1024_0_0).toLoadRect (harg4.unread x2))⟩] (Rect.unit (s := S256x1024) ![0, 0] S256x1024.size inb_S256x1024_S256x1024_0_0).toLoadRect) (fun k => Cell.xGroup1 (xkRaw arg2 harg2 arg9 x0 k)) 16 (((arg10.view.readCov (Val := Elt F) [⟨Rect.unit (s := S512x256) ![0, 0] S512x256.size inb_S512x256_S512x256_0_0, k0_pay7 (F := F)⟩] (Rect.unit (s := S512x256) ![256, 0] S256x256.size inb_S512x256_S256x256_256_0).toLoadRect : FVec F S256x256 .f32)), ((arg11.view.readCov (Val := Elt F) [⟨Rect.unit (s := S512x256) ![0, 0] S512x256.size inb_S512x256_S512x256_0_0, k0_pay8 (F := F)⟩] (Rect.unit (s := S512x256) ![256, 0] S256x256.size inb_S512x256_S256x256_256_0).toLoadRect : FVec F S256x256 .f32)))).2 shapeCasts_S256x256_S256x256⟩,
       ⟨Rect.unit (s := S512x256) ![0, 0] S256x256.size inb_S512x256_S256x256_0_0, shapeCast S256x256 (Cell.steps (k0_pay4 (View.readAt (Elt F) arg5.view (Rect.unit (s := S1x1024) ![0, 0] S1x1024.size inb_S1x1024_S1x1024_0_0).toLoadRect (harg5.unread x3))) (arg12.view.readCov [⟨Rect.unit (s := S128x1024) ![0, 0] S128x1024.size inb_S128x1024_S128x1024_0_0, k0_pay5 (View.readAt (Elt F) arg3.view (Rect.unit (s := S128x1024) ![0, 0] S128x1024.size inb_S128x1024_S128x1024_0_0).toLoadRect (harg3.unread x1))⟩] (Rect.unit (s := S128x1024) ![0, 0] S128x1024.size inb_S128x1024_S128x1024_0_0).toLoadRect) (arg13.view.readCov [⟨Rect.unit (s := S256x1024) ![0, 0] S256x1024.size inb_S256x1024_S256x1024_0_0, k0_pay6 (View.readAt (Elt F) arg4.view (Rect.unit (s := S256x1024) ![0, 0] S256x1024.size inb_S256x1024_S256x1024_0_0).toLoadRect (harg4.unread x2))⟩] (Rect.unit (s := S256x1024) ![0, 0] S256x1024.size inb_S256x1024_S256x1024_0_0).toLoadRect) (fun k => Cell.xGroup0 (xkRaw arg2 harg2 arg9 x0 k)) 16 (((arg10.view.readCov (Val := Elt F) [⟨Rect.unit (s := S512x256) ![0, 0] S512x256.size inb_S512x256_S512x256_0_0, k0_pay7 (F := F)⟩] (Rect.unit (s := S512x256) ![0, 0] S256x256.size inb_S512x256_S256x256_0_0).toLoadRect : FVec F S256x256 .f32)), ((arg11.view.readCov (Val := Elt F) [⟨Rect.unit (s := S512x256) ![0, 0] S512x256.size inb_S512x256_S512x256_0_0, k0_pay8 (F := F)⟩] (Rect.unit (s := S512x256) ![0, 0] S256x256.size inb_S512x256_S256x256_0_0).toLoadRect : FVec F S256x256 .f32)))).2 shapeCasts_S256x256_S256x256⟩,
       ⟨Rect.unit (s := S512x256) ![0, 0] S512x256.size inb_S512x256_S512x256_0_0, k0_pay8⟩] := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  sl_kernel_rfl

/-- Case A, the scaled input projection's scratch: the weights times the column scale. -/
theorem wih_A (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : cond0_0 i) (hc1 : ¬cond0_1 i) (x0 : Vec F S512x16x128 .f32) (x1 : Vec F S128x1024 .bf16) (x2 : Vec F S256x1024 .bf16) (x3 : Vec F S1x1024 .f32) (x4 : Vec F S256x128 .bf16) (x5 : Vec F S1x128 .f32) :
    sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = View.canon
      [⟨Rect.unit (s := S128x1024) ![0, 0] S128x1024.size inb_S128x1024_S128x1024_0_0, k0_pay5 (View.readAt (Elt F) arg3.view (Rect.unit (s := S128x1024) ![0, 0] S128x1024.size inb_S128x1024_S128x1024_0_0).toLoadRect (harg3.unread x1))⟩] := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  sl_kernel_rfl

/-- Case A, the scaled hidden projection's scratch: the weights times the column scale. -/
theorem whh_A (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : cond0_0 i) (hc1 : ¬cond0_1 i) (x0 : Vec F S512x16x128 .f32) (x1 : Vec F S128x1024 .bf16) (x2 : Vec F S256x1024 .bf16) (x3 : Vec F S1x1024 .f32) (x4 : Vec F S256x128 .bf16) (x5 : Vec F S1x128 .f32) :
    sout0_A_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = View.canon
      [⟨Rect.unit (s := S256x1024) ![0, 0] S256x1024.size inb_S256x1024_S256x1024_0_0, k0_pay6 (View.readAt (Elt F) arg4.view (Rect.unit (s := S256x1024) ![0, 0] S256x1024.size inb_S256x1024_S256x1024_0_0).toLoadRect (harg4.unread x2))⟩] := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  sl_kernel_rfl

end Cert.KernelIdeal.KValue

end
-- ==== Proof.LibRowGroups.lean ====
/-
  A buffer of 512 rows written as two pieces of 256 rows each — the upper rows 256 … 511 last, the
  lower rows 0 … 255 before it, over whatever was written earlier — read at a row: a row of the upper
  piece reads the upper payload, a row of the lower piece the lower payload, whatever the earlier
  writes were. Also a unit-stride load of rows `o … o + 255` read at an index, and the congruence of a
  function iterated `n` times in inputs that agree below `n`.
-/
import Idealize.ShloMosaic.Lib.Pipeline.Value
import Idealize.ShloMosaic.Lib.ValueIdx

noncomputable section

namespace Cert.RowGroups

open Idealize.ShloMosaic Idealize.ShloMosaic.ValueIdx

variable {Val : EltTy → Type} [∀ e, Nonempty (Val e)] {e : EltTy} {C : ℕ}

/-- The buffer's shape: 512 rows of `C` columns; a piece's: 256 rows. -/
abbrev Big (C : ℕ) : Shape := ⟨2, ![512, C]⟩
abbrev Half (C : ℕ) : Shape := ⟨2, ![256, C]⟩

/-- Row `r` of the piece at row offset `o` is row `o + r` of the buffer. -/
theorem emb_rows (o : ℕ) (inb : ∀ a, (![o, 0] : Fin 2 → ℕ) a + (![256, C] : Fin 2 → ℕ) a ≤ (Big C).size a)
    (r : Fin 256) (j : Fin C) (h : o + r.val < 512) :
    (Rect.unit (s := Big C) ![o, 0] ![256, C] inb).emb (ix2 r j) = ix2 (⟨o + r.val, h⟩ : Fin 512) j := by
  funext a
  apply Fin.ext
  match a with
  | ⟨0, _⟩ => simp [Rect.emb_apply]
  | ⟨1, _⟩ => simp [Rect.emb_apply]

/-- A row of the upper piece reads the upper payload. -/
theorem canon_upper (inbH : ∀ a, (![256, 0] : Fin 2 → ℕ) a + (![256, C] : Fin 2 → ℕ) a ≤ (Big C).size a)
    (a1 : (Half C).Idx → Val e) (L : List (View.Piece Val (Big C) e)) (r : Fin 256) (j : Fin C) (h : 256 + r.val < 512) :
    View.canon (⟨Rect.unit (s := Big C) ![256, 0] ![256, C] inbH, a1⟩ :: L) (ix2 (⟨256 + r.val, h⟩ : Fin 512) j) = a1 (ix2 r j) := by
  rw [← emb_rows 256 inbH r j h]
  exact View.canon_cons_emb (Rect.unit (s := Big C) ![256, 0] ![256, C] inbH) a1 L (ix2 r j)

/-- A row of the lower piece reads the lower payload: the upper piece does not hold it. -/
theorem canon_lower (inbH : ∀ a, (![256, 0] : Fin 2 → ℕ) a + (![256, C] : Fin 2 → ℕ) a ≤ (Big C).size a)
    (inbL : ∀ a, (![0, 0] : Fin 2 → ℕ) a + (![256, C] : Fin 2 → ℕ) a ≤ (Big C).size a)
    (a1 a0 : (Half C).Idx → Val e) (L : List (View.Piece Val (Big C) e)) (r : Fin 256) (j : Fin C) (h : r.val < 512) :
    View.canon (⟨Rect.unit (s := Big C) ![256, 0] ![256, C] inbH, a1⟩ :: ⟨Rect.unit (s := Big C) ![0, 0] ![256, C] inbL, a0⟩ :: L)
      (ix2 (⟨r.val, h⟩ : Fin 512) j) = a0 (ix2 r j) := by
  rw [View.canon_cons_of_not_mem]
  · have e0 := emb_rows (C := C) 0 inbL r j (by omega)
    simp only [Nat.zero_add] at e0
    rw [← e0]
    exact View.canon_cons_emb (Rect.unit (s := Big C) ![0, 0] ![256, C] inbL) a0 L (ix2 r j)
  · intro hm
    have hm' : ix2 (⟨r.val, h⟩ : Fin 512) j ∈ (Rect.unit (s := Big C) ![256, 0] ![256, C] inbH).set := hm
    have h0 := (Rect.mem_set_unit.mp hm') (0 : Fin 2)
    have h1 : (256 : ℕ) ≤ r.val := h0.1
    omega

/-- A unit-stride load of the 256 rows from row `o` reads, at row `r`, row `o + r`. -/
theorem ld_rows (o : ℕ) (inb : ∀ a, (![o, 0] : Fin 2 → ℕ) a + (![256, C] : Fin 2 → ℕ) a ≤ (Big C).size a)
    (X : (Big C).Idx → Val e) (r : Fin 256) (j : Fin C) (h : o + r.val < 512) :
    View.ld X (Rect.unit (s := Big C) ![o, 0] ![256, C] inb) (ix2 r j) = X (ix2 (⟨o + r.val, h⟩ : Fin 512) j) := by
  show X ((Rect.unit (s := Big C) ![o, 0] ![256, C] inb).emb (ix2 r j)) = _
  rw [emb_rows o inb r j h]

/-- Iterating `n` times a step that takes its `k`-th input from `x k` depends on the inputs below `n` only. -/
theorem iterate_congr {σ ι : Type} (f : ι → σ → σ) (run : (ℕ → ι) → ℕ → σ → σ)
    (h0 : ∀ x s, run x 0 s = s) (hs : ∀ x k s, run x (k + 1) s = f (x k) (run x k s))
    (x x' : ℕ → ι) (n : ℕ) (hx : ∀ k, k < n → x k = x' k) (s : σ) : run x n s = run x' n s := by
  induction n with
  | zero => rw [h0, h0]
  | succ n ih => rw [hs, hs, ih (fun k hk => hx k (Nat.lt_succ_of_lt hk)), hx n (Nat.lt_succ_self n)]

end Cert.RowGroups

end
-- ==== Proof.Spec.lean ====
/-
  The recurrence both programs compute, written once over the extended reals, one sequence at a
  time. The weights are an input projection (128 × 1024), a hidden projection (256 × 1024), a bias
  (1024), and a final linear layer (256 × 128 and 128). The 1024 columns are four blocks of 256:
  input gate, forget gate, output gate, candidate. At each time step, with input row `x`, hidden
  state `h` and cell state `c`:
    pre   = (x · W_ih + b) + h · W_hh
    c'    = logistic (pre_f) · c + logistic (pre_i) · tanh (pre_g)
    h'    = logistic (pre_o) · tanh c'
  from h = c = 0, and the result is h_last · W_lin + b_lin.
-/
import Idealize.ShloMosaic.PureOps.Ideal

noncomputable section

namespace Cert.Lstm

open Idealize.ShloMosaic

/-- The weights, entry by entry, as extended reals. -/
structure Weights where
  wih : Fin 128 → Fin 1024 → EReal
  whh : Fin 256 → Fin 1024 → EReal
  b : Fin 1024 → EReal
  wlin : Fin 256 → Fin 128 → EReal
  blin : Fin 128 → EReal

/-- Column `j` of gate block `q` (0 input, 1 forget, 2 output, 3 candidate) among the 1024 columns. -/
def gate (q : Fin 4) (j : Fin 256) : Fin 1024 := ⟨256 * q.val + j.val, by omega⟩

/-- The pre-activation of one step at column `j`. -/
def pre (W : Weights) (x : Fin 128 → EReal) (h : Fin 256 → EReal) (j : Fin 1024) : EReal :=
  ((∑ k, x k * W.wih k j) + W.b j) + ∑ k, h k * W.whh k j

/-- The new cell state. -/
def cellC (W : Weights) (x : Fin 128 → EReal) (h c : Fin 256 → EReal) (j : Fin 256) : EReal :=
  Ideal.logistic (pre W x h (gate 1 j)) * c j + Ideal.logistic (pre W x h (gate 0 j)) * Ideal.tanh (pre W x h (gate 3 j))

/-- The new hidden state. -/
def cellH (W : Weights) (x : Fin 128 → EReal) (h c : Fin 256 → EReal) (j : Fin 256) : EReal :=
  Ideal.logistic (pre W x h (gate 2 j)) * Ideal.tanh (cellC W x h c j)

/-- A pair (hidden state, cell state) of one sequence. -/
abbrev St := (Fin 256 → EReal) × (Fin 256 → EReal)

/-- One time step. -/
def cell (W : Weights) (x : Fin 128 → EReal) (s : St) : St := (cellH W x s.1 s.2, cellC W x s.1 s.2)

/-- `k` time steps from the state `s`, the step-`t` input row given by `xs t`. -/
def run (W : Weights) (xs : ℕ → Fin 128 → EReal) : ℕ → St → St
  | 0, s => s
  | k + 1, s => cell W (xs k) (run W xs k s)

/-- The all-zero state. -/
def zero : St := (fun _ => 0, fun _ => 0)

/-- The final linear layer at output column `j`. -/
def headOut (W : Weights) (h : Fin 256 → EReal) (j : Fin 128) : EReal := (∑ k, h k * W.wlin k j) + W.blin j

/-- The whole network on one sequence of 64 steps. -/
def out (W : Weights) (xs : ℕ → Fin 128 → EReal) (j : Fin 128) : EReal := headOut W (run W xs 64 zero).1 j

/-- Running `a + b` steps is running `a` steps and then `b` more on the shifted inputs. -/
theorem run_add (W : Weights) (xs : ℕ → Fin 128 → EReal) (a b : ℕ) (s : St) :
    run W xs (a + b) s = run W (fun t => xs (a + t)) b (run W xs a s) := by
  induction b with
  | zero => rfl
  | succ b ih => rw [← Nat.add_assoc]; simp only [run]; rw [ih]

end Cert.Lstm

end
-- ==== Proof.SigmoidForms.lean ====
/-
  The two spellings of the logistic function met in this certificate, over the reals:
  half the hyperbolic tangent of half the argument, plus one half, is the reciprocal of one plus the
  exponential of the negated argument.
-/
import Mathlib.Analysis.SpecialFunctions.Trigonometric.Basic
import Mathlib.Analysis.SpecialFunctions.Exp

namespace Cert.Lstm

/-- `tanh (x / 2) / 2 + 1 / 2 = 1 / (1 + e^(-x))`: write `tanh` by exponentials and clear denominators. -/
theorem half_tanh_half (x : ℝ) : Real.tanh (x * (1 / 2)) * (1 / 2) + 1 / 2 = (1 + Real.exp (-x))⁻¹ := by
  have hpos : (0 : ℝ) < Real.exp (x * (1 / 2)) := Real.exp_pos _
  have hneg : (0 : ℝ) < Real.exp (-(x * (1 / 2))) := Real.exp_pos _
  have hsplit : Real.exp (-x) = Real.exp (-(x * (1 / 2))) * Real.exp (-(x * (1 / 2))) := by
    rw [← Real.exp_add]; congr 1; ring
  have hinv : Real.exp (x * (1 / 2)) * Real.exp (-(x * (1 / 2))) = 1 := by
    rw [← Real.exp_add]; simp
  rw [Real.tanh_eq_sinh_div_cosh, Real.sinh_eq, Real.cosh_eq, hsplit]
  set a := Real.exp (x * (1 / 2)) with ha
  set b := Real.exp (-(x * (1 / 2))) with hb
  have hab : a + b ≠ 0 := by positivity
  have h1 : 1 + b * b ≠ 0 := by positivity
  field_simp
  nlinarith [hinv]

end Cert.Lstm
-- ==== Proof.KCellValueSigmoid.lean ====
/-
  The sigmoid in its hyperbolic-tangent form, on every extended real: half the hyperbolic tangent of
  half the argument, plus one half, is the logistic function. On a real argument this is the identity
  tanh (x / 2) / 2 + 1 / 2 = 1 / (1 + e^(-x)); at +∞ both sides are 1 and at -∞ both are 0.
-/
import Idealize.ShloMosaic.PureOps.Ideal
import proofs.«157242_g2000404025908667_pallasbulk_280_33_alg».proof.Proof.SigmoidForms

noncomputable section

namespace Cert.KernelIdeal.CellValue

open Idealize.ShloMosaic

/-- tanh (p / 2) / 2 + 1 / 2 = logistic p for every extended real p. -/
theorem half_tanh_half_ereal (p : EReal) :
    Ideal.tanh (((1 / 2 : ℝ) : EReal) * p) * ((1 / 2 : ℝ) : EReal) + ((1 / 2 : ℝ) : EReal) = Ideal.logistic p := by
  have hpos : (0 : ℝ) < 1 / 2 := by norm_num
  induction p using EReal.rec with
  | bot =>
    rw [EReal.coe_mul_bot_of_pos hpos, Ideal.tanh_bot, Ideal.logistic_bot]
    rw [show (-1 : EReal) = ((-1 : ℝ) : EReal) from rfl, ← EReal.coe_mul, ← EReal.coe_add, ← EReal.coe_zero]
    congr 1; norm_num
  | coe x =>
    rw [← EReal.coe_mul, Ideal.tanh_coe, ← EReal.coe_mul, ← EReal.coe_add, Ideal.logistic_coe]
    congr 1
    rw [mul_comm (1 / 2 : ℝ) x]
    exact Cert.Lstm.half_tanh_half x
  | top =>
    rw [EReal.coe_mul_top_of_pos hpos, Ideal.tanh_top, Ideal.logistic_top]
    rw [show (1 : EReal) = ((1 : ℝ) : EReal) from rfl, ← EReal.coe_mul, ← EReal.coe_add]
    congr 1; norm_num

/-- The same with the half written on the right of the argument. -/
theorem half_tanh_half_ereal' (p : EReal) :
    Ideal.tanh (p * ((1 / 2 : ℝ) : EReal)) * ((1 / 2 : ℝ) : EReal) + ((1 / 2 : ℝ) : EReal) = Ideal.logistic p := by
  rw [mul_comm p]; exact half_tanh_half_ereal p

end Cert.KernelIdeal.CellValue

end
-- ==== Proof.KCellValueConsts.lean ====
/-
  The float literals the batched step meets, as extended reals: the word of one half, of one and of
  zero; and the column scale, one half on the first 768 columns (the input, forget and output gates)
  and one on the last 256 (the candidate).
-/
import Idealize.ShloMosaic.PureOps.Ideal

noncomputable section

namespace Cert.KernelIdeal.CellValue

open Idealize.ShloMosaic

/-- The column scale: one half below column 768, one from there on. -/
def sc (j : Fin 1024) : EReal := if j.val < 768 then ((1 / 2 : ℝ) : EReal) else 1

/-- One half as an extended real. -/
abbrev half : EReal := ((1 / 2 : ℝ) : EReal)

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_zero : Ideal.ofBits .f32 0x00000000#32 = 0 := by simp [Ideal.ofBits, Ideal.ieee]

theorem sc_lt {j : Fin 1024} (h : j.val < 768) : sc j = ((1 / 2 : ℝ) : EReal) := if_pos h

theorem sc_ge {j : Fin 1024} (h : ¬ j.val < 768) : sc j = 1 := if_neg h

end Cert.KernelIdeal.CellValue

end
-- ==== Proof.KCellValueScale.lean ====
/-
  Scaling the weights' columns scales the pre-activation. The scale of a column is a nonnegative real
  (one half or one), and multiplication by a nonnegative real distributes over sums of extended reals
  whatever their signs or infinities; so the sum of the input projection, the hidden projection and the
  bias, each taken with the scaled column, is the scale times the unscaled pre-activation.
-/
import proofs.«157242_g2000404025908667_pallasbulk_280_33_alg».proof.Proof.Spec
import proofs.«157242_g2000404025908667_pallasbulk_280_33_alg».proof.Proof.KCellValueConsts

noncomputable section

namespace Cert.KernelIdeal.CellValue

open Idealize.ShloMosaic

theorem sc_nonneg (j : Fin 1024) : 0 ≤ sc j := by
  unfold sc; split
  · exact EReal.coe_nonneg.mpr (by norm_num)
  · exact zero_le_one

theorem sc_ne_top (j : Fin 1024) : sc j ≠ ⊤ := by
  unfold sc; split
  · exact EReal.coe_ne_top _
  · exact EReal.coe_ne_top 1

/-- A common nonnegative finite factor on the right of every second factor comes out of a sum of products. -/
theorem sum_mul_scale {ι : Type} (s : Finset ι) (f g : ι → EReal) {c : EReal} (h0 : 0 ≤ c) (ht : c ≠ ⊤) :
    ∑ k ∈ s, f k * (g k * c) = (∑ k ∈ s, f k * g k) * c := by
  classical
  induction s using Finset.induction_on with
  | empty => simp
  | insert a s ha ih =>
    rw [Finset.sum_insert ha, Finset.sum_insert ha, ih, ← mul_assoc,
      EReal.right_distrib_of_nonneg_of_ne_top h0 ht]

/-- The pre-activation over the scaled columns, summed in the batched step's order, is the scale times
    the pre-activation. -/
theorem scaled_pre (W : Cert.Lstm.Weights) (x : Fin 128 → EReal) (h : Fin 256 → EReal) (j : Fin 1024) :
    ((∑ k, x k * (W.wih k j * sc j)) + ∑ k, h k * (W.whh k j * sc j)) + W.b j * sc j
      = Cert.Lstm.pre W x h j * sc j := by
  rw [sum_mul_scale _ _ _ (sc_nonneg j) (sc_ne_top j), sum_mul_scale _ _ _ (sc_nonneg j) (sc_ne_top j),
    Cert.Lstm.pre, EReal.right_distrib_of_nonneg_of_ne_top (sc_nonneg j) (sc_ne_top j),
    EReal.right_distrib_of_nonneg_of_ne_top (sc_nonneg j) (sc_ne_top j), add_right_comm]

end Cert.KernelIdeal.CellValue

end
-- ==== Proof.KCellValuePre.lean ====
/-
  The batched step's three matrix products and its pre-activation, read at one entry. A product into
  the zero accumulator is, at row r and column j, the sum over the contracted coordinate k of the left
  operand at (r, k) times the right operand at (k, j); the pre-activation at (r, j) is the input
  product plus the hidden product plus the bias row at j.
-/
import proofs.«157242_g2000404025908667_pallasbulk_280_33_alg».proof.Proof.KCell
import Idealize.ShloMosaic.Lib.ValueIdx
import Idealize.ShloMosaic.Lib.ValueLayout
import Idealize.ShloMosaic.PureOps.Ideal.Laws

noncomputable section

namespace Cert.KernelIdeal.CellValue

open Idealize.ShloMosaic Idealize.ShloMosaic.ValueIdx Cert.KernelIdeal Cert.KernelIdeal.Gen

/-- The input product at (r, j): the contraction runs over the 128 input features. -/
theorem matmul_x_apply (a : FVec Ideal S256x128 .bf16) (w : FVec Ideal S128x1024 .bf16) (r : Fin 256) (j : Fin 1024) :
    matmul dot_S256x128_S128x1024_S256x1024_1_0_0_1_n_n none a w (constant (F := Ideal) S256x1024 .f32 0x00000000#32) (ix2 r j)
      = ∑ k : Fin 128, a (ix2 r k) * w (ix2 k j) := by
  refine (Ideal.matmul_constant_zero_apply dot_S256x128_S128x1024_S256x1024_1_0_0_1_n_n none a w (ix2 r j)).trans ?_
  rw [← Equiv.sum_comp (contrEquiv1 dot_S256x128_S128x1024_S256x1024_1_0_0_1_n_n 128 rfl rfl).symm]
  refine Finset.sum_congr rfl fun k _ => ?_
  congr 2
  · funext c
    match c with
    | ⟨0, _⟩ => rfl
    | ⟨1, _⟩ => exact Fin.ext ((DotDims.lhsIdx_val_of_single _ rfl _ _).trans (contrEquiv1_symm_val _ 128 rfl rfl k))
  · funext c
    match c with
    | ⟨0, _⟩ => exact Fin.ext ((DotDims.rhsIdx_val_of_single _ rfl _ _).trans (contrEquiv1_symm_val _ 128 rfl rfl k))
    | ⟨1, _⟩ => rfl

/-- The hidden product at (r, j): the contraction runs over the 256 hidden units. -/
theorem matmul_h_apply (a : FVec Ideal S256x256 .bf16) (w : FVec Ideal S256x1024 .bf16) (r : Fin 256) (j : Fin 1024) :
    matmul dot_S256x256_S256x1024_S256x1024_1_0_0_1_n_n none a w (constant (F := Ideal) S256x1024 .f32 0x00000000#32) (ix2 r j)
      = ∑ k : Fin 256, a (ix2 r k) * w (ix2 k j) := by
  refine (Ideal.matmul_constant_zero_apply dot_S256x256_S256x1024_S256x1024_1_0_0_1_n_n none a w (ix2 r j)).trans ?_
  rw [← Equiv.sum_comp (contrEquiv1 dot_S256x256_S256x1024_S256x1024_1_0_0_1_n_n 256 rfl rfl).symm]
  refine Finset.sum_congr rfl fun k _ => ?_
  congr 2
  · funext c
    match c with
    | ⟨0, _⟩ => rfl
    | ⟨1, _⟩ => exact Fin.ext ((DotDims.lhsIdx_val_of_single _ rfl _ _).trans (contrEquiv1_symm_val _ 256 rfl rfl k))
  · funext c
    match c with
    | ⟨0, _⟩ => exact Fin.ext ((DotDims.rhsIdx_val_of_single _ rfl _ _).trans (contrEquiv1_symm_val _ 256 rfl rfl k))
    | ⟨1, _⟩ => rfl

/-- The final layer's product at (r, j): the contraction runs over the 256 hidden units. -/
theorem matmul_head_apply (a : FVec Ideal S256x256 .bf16) (w : FVec Ideal S256x128 .bf16) (r : Fin 256) (j : Fin 128) :
    matmul dot_S256x256_S256x128_S256x128_1_0_0_1_n_n none a w (constant (F := Ideal) S256x128 .f32 0x00000000#32) (ix2 r j)
      = ∑ k : Fin 256, a (ix2 r k) * w (ix2 k j) := by
  refine (Ideal.matmul_constant_zero_apply dot_S256x256_S256x128_S256x128_1_0_0_1_n_n none a w (ix2 r j)).trans ?_
  rw [← Equiv.sum_comp (contrEquiv1 dot_S256x256_S256x128_S256x128_1_0_0_1_n_n 256 rfl rfl).symm]
  refine Finset.sum_congr rfl fun k _ => ?_
  congr 2
  · funext c
    match c with
    | ⟨0, _⟩ => rfl
    | ⟨1, _⟩ => exact Fin.ext ((DotDims.lhsIdx_val_of_single _ rfl _ _).trans (contrEquiv1_symm_val _ 256 rfl rfl k))
  · funext c
    match c with
    | ⟨0, _⟩ => exact Fin.ext ((DotDims.rhsIdx_val_of_single _ rfl _ _).trans (contrEquiv1_symm_val _ 256 rfl rfl k))
    | ⟨1, _⟩ => rfl

/-- The pre-activation at row r and column j. -/
theorem pre_apply (bs : FVec Ideal S1x1024 .f32) (wi : FVec Ideal S128x1024 .bf16) (wh : FVec Ideal S256x1024 .bf16)
    (xt : FVec Ideal S256x128 .bf16) (h : FVec Ideal S256x256 .f32) (r : Fin 256) (j : Fin 1024) :
    Cell.pre bs wi wh xt h (ix2 r j)
      = ((∑ k : Fin 128, xt (ix2 r k) * wi (ix2 k j)) + ∑ k : Fin 256, h (ix2 r k) * wh (ix2 k j)) + bs (ix2 (0 : Fin 1) j) := by
  unfold Cell.pre
  rw [addf_apply, addf_apply, matmul_x_apply, matmul_h_apply, broadcastTo_1b_ab_apply]
  rfl

/-- The final layer at row r and column j. -/
theorem head_apply_sum (wl : FVec Ideal S256x128 .bf16) (bl : FVec Ideal S1x128 .f32) (h : FVec Ideal S256x256 .f32)
    (r : Fin 256) (j : Fin 128) :
    Cell.head wl bl h (ix2 r j) = (∑ k : Fin 256, h (ix2 r k) * wl (ix2 k j)) + bl (ix2 (0 : Fin 1) j) := by
  unfold Cell.head
  rw [addf_apply, matmul_head_apply, broadcastTo_1b_ab_apply]
  rfl

end Cert.KernelIdeal.CellValue

end
-- ==== Proof.KCellValueGates.lean ====
/-
  The batched step's gates and its new cell and hidden states, read at one entry in terms of the
  pre-activation's entries: a sigmoid gate at (r, j') is half the hyperbolic tangent of the
  pre-activation at (r, j') plus one half; the new cell state at (r, j) takes the forget gate from
  column 256 + j, the input gate from column j and the candidate from column 768 + j; the new hidden
  state takes the output gate from column 512 + j.
-/
import proofs.«157242_g2000404025908667_pallasbulk_280_33_alg».proof.Proof.KCell
import proofs.«157242_g2000404025908667_pallasbulk_280_33_alg».proof.Proof.KCellValueConsts
import Idealize.ShloMosaic.Lib.ValueIdx
import Idealize.ShloMosaic.Lib.ValueLayout

noncomputable section

namespace Cert.KernelIdeal.CellValue

open Idealize.ShloMosaic Idealize.ShloMosaic.ValueIdx Cert.KernelIdeal Cert.KernelIdeal.Gen

/-- The hyperbolic tangent of a vector at an index is that of the entry. -/
theorem tanh_apply {s : Shape} {φ : FTy} (v : FVec Ideal s φ) (i : s.Idx) : tanh v i = Ideal.tanh (v i) := rfl

/-- A sigmoid gate at (r, j'), the pre-activation's column named by any k with the same value. -/
theorem sig_apply (p : FVec Ideal S256x1024 .f32) (r : Fin 256) (j' : Fin 768) (k : Fin 1024) (hk : k.val = j'.val) :
    Cell.sig p (ix2 r j') = Ideal.tanh (p (ix2 r k)) * ((1 / 2 : ℝ) : EReal) + ((1 / 2 : ℝ) : EReal) := by
  unfold Cell.sig
  rw [addf_apply, mulf_apply, broadcast_apply, tanh_apply,
    slice2_axis1_apply 0 p slices_S256x1024_o0_0_S256x768 r j' k (by omega)]
  show Ideal.tanh (p (ix2 r k)) * Ideal.ofBits .f32 0x3F000000#32 + Ideal.ofBits .f32 0x3F000000#32 = _
  rw [ofBits_half]

/-- The new cell state at (r, j): forget gate times the old cell state plus input gate times candidate. -/
theorem cellC_apply (p : FVec Ideal S256x1024 .f32) (c : FVec Ideal S256x256 .f32) (r : Fin 256) (j : Fin 256)
    (ki kf kg : Fin 1024) (hki : ki.val = j.val) (hkf : kf.val = 256 + j.val) (hkg : kg.val = 768 + j.val) :
    Cell.cellC p c (ix2 r j)
      = (Ideal.tanh (p (ix2 r kf)) * ((1 / 2 : ℝ) : EReal) + ((1 / 2 : ℝ) : EReal)) * c (ix2 r j)
        + (Ideal.tanh (p (ix2 r ki)) * ((1 / 2 : ℝ) : EReal) + ((1 / 2 : ℝ) : EReal)) * Ideal.tanh (p (ix2 r kg)) := by
  unfold Cell.cellC
  rw [addf_apply, mulf_apply, mulf_apply,
    slice2_axis1_apply 256 (Cell.sig p) slices_S256x768_o0_256_S256x256 r j ⟨256 + j.val, by omega⟩ rfl,
    slice2_axis1_apply 0 (Cell.sig p) slices_S256x768_o0_0_S256x256 r j ⟨j.val, by omega⟩ (by simp),
    sig_apply p r ⟨256 + j.val, by omega⟩ kf hkf, sig_apply p r ⟨j.val, by omega⟩ ki hki]
  rw [tanh_apply, slice2_axis1_apply 768 p slices_S256x1024_o0_768_S256x256 r j kg hkg]

/-- The new hidden state at (r, j): output gate times the hyperbolic tangent of the new cell state. -/
theorem cellH_apply (p : FVec Ideal S256x1024 .f32) (c : FVec Ideal S256x256 .f32) (r : Fin 256) (j : Fin 256)
    (ko : Fin 1024) (hko : ko.val = 512 + j.val) :
    Cell.cellH p c (ix2 r j)
      = (Ideal.tanh (p (ix2 r ko)) * ((1 / 2 : ℝ) : EReal) + ((1 / 2 : ℝ) : EReal)) * Ideal.tanh (Cell.cellC p c (ix2 r j)) := by
  unfold Cell.cellH
  rw [mulf_apply,
    slice2_axis1_apply 512 (Cell.sig p) slices_S256x768_o0_512_S256x256 r j ⟨512 + j.val, by omega⟩ rfl,
    sig_apply p r ⟨512 + j.val, by omega⟩ ko hko, tanh_apply]

end Cert.KernelIdeal.CellValue

end
-- ==== Proof.KCellValueStep.lean ====
/-
  One batched step, row by row, is one step of the recurrence. With the bias and the two weight
  matrices holding the weights' columns times the column scale, the pre-activation at row r and
  column k is the scale of k times the recurrence's pre-activation of row r. On the candidate's
  columns the scale is one. On a sigmoid gate's column it is one half, and half the hyperbolic tangent
  of half the pre-activation plus one half is the logistic function of the pre-activation. So the new
  cell state and the new hidden state at (r, j) are the recurrence's, computed from row r of the input,
  of the hidden state and of the cell state.
-/
import proofs.«157242_g2000404025908667_pallasbulk_280_33_alg».proof.Proof.Spec
import proofs.«157242_g2000404025908667_pallasbulk_280_33_alg».proof.Proof.KCellValueSigmoid
import proofs.«157242_g2000404025908667_pallasbulk_280_33_alg».proof.Proof.KCellValueScale
import proofs.«157242_g2000404025908667_pallasbulk_280_33_alg».proof.Proof.KCellValuePre
import proofs.«157242_g2000404025908667_pallasbulk_280_33_alg».proof.Proof.KCellValueGates

noncomputable section

namespace Cert.KernelIdeal.CellValue

open Idealize.ShloMosaic Idealize.ShloMosaic.ValueIdx Cert.KernelIdeal Cert.KernelIdeal.Gen

open Cert.Lstm (Weights gate)

section
variable (W : Weights) (bs : FVec Ideal S1x1024 .f32) (wi : FVec Ideal S128x1024 .bf16) (wh : FVec Ideal S256x1024 .bf16)
  (hbs : ∀ j : Fin 1024, bs (ix2 (0 : Fin 1) j) = W.b j * sc j)
  (hwi : ∀ (k : Fin 128) (j : Fin 1024), wi (ix2 k j) = W.wih k j * sc j)
  (hwh : ∀ (k : Fin 256) (j : Fin 1024), wh (ix2 k j) = W.whh k j * sc j)

include hbs hwi hwh

/-- The pre-activation at (r, k) is the scale of column k times the recurrence's pre-activation of row r. -/
theorem pre_row (xt : FVec Ideal S256x128 .bf16) (h : FVec Ideal S256x256 .f32) (r : Fin 256) (k : Fin 1024) :
    Cell.pre bs wi wh xt h (ix2 r k)
      = Cert.Lstm.pre W (fun q => xt (ix2 r q)) (fun q => h (ix2 r q)) k * sc k := by
  rw [pre_apply, hbs]
  simp only [hwi, hwh]
  exact scaled_pre W _ _ k

/-- The new cell state at (r, j) is the recurrence's. -/
theorem cellC_row (xt : FVec Ideal S256x128 .bf16) (h c : FVec Ideal S256x256 .f32) (r j : Fin 256) :
    Cell.cellC (Cell.pre bs wi wh xt h) c (ix2 r j)
      = Cert.Lstm.cellC W (fun q => xt (ix2 r q)) (fun q => h (ix2 r q)) (fun q => c (ix2 r q)) j := by
  have h0 : (gate 0 j).val = j.val := by show 256 * 0 + j.val = j.val; omega
  have s0 : sc (gate 0 j) = ((1 / 2 : ℝ) : EReal) := sc_lt (by rw [h0]; omega)
  have s1 : sc (gate 1 j) = ((1 / 2 : ℝ) : EReal) := sc_lt (by show 256 * 1 + j.val < 768; omega)
  have s3 : sc (gate 3 j) = 1 := sc_ge (by show ¬ 256 * 3 + j.val < 768; omega)
  rw [cellC_apply _ _ r j (gate 0 j) (gate 1 j) (gate 3 j) h0 rfl rfl,
    pre_row W bs wi wh hbs hwi hwh xt h r (gate 1 j), pre_row W bs wi wh hbs hwi hwh xt h r (gate 0 j),
    pre_row W bs wi wh hbs hwi hwh xt h r (gate 3 j), s0, s1, s3, mul_one,
    half_tanh_half_ereal', half_tanh_half_ereal']
  rfl

/-- The new hidden state at (r, j) is the recurrence's. -/
theorem cellH_row (xt : FVec Ideal S256x128 .bf16) (h c : FVec Ideal S256x256 .f32) (r j : Fin 256) :
    Cell.cellH (Cell.pre bs wi wh xt h) c (ix2 r j)
      = Cert.Lstm.cellH W (fun q => xt (ix2 r q)) (fun q => h (ix2 r q)) (fun q => c (ix2 r q)) j := by
  have s2 : sc (gate 2 j) = ((1 / 2 : ℝ) : EReal) := sc_lt (by show 256 * 2 + j.val < 768; omega)
  rw [cellH_apply _ _ r j (gate 2 j) rfl, cellC_row W bs wi wh hbs hwi hwh xt h c r j,
    pre_row W bs wi wh hbs hwi hwh xt h r (gate 2 j), s2, half_tanh_half_ereal']
  rfl

/-- One batched step's new hidden state at (r, j). -/
theorem cell_fst (xt : FVec Ideal S256x128 .bf16) (s : Cell.St Ideal) (r j : Fin 256) :
    (Cell.cell bs wi wh xt s).1 (ix2 r j)
      = Cert.Lstm.cellH W (fun q => xt (ix2 r q)) (fun q => s.1 (ix2 r q)) (fun q => s.2 (ix2 r q)) j :=
  cellH_row W bs wi wh hbs hwi hwh xt s.1 s.2 r j

/-- One batched step's new cell state at (r, j). -/
theorem cell_snd (xt : FVec Ideal S256x128 .bf16) (s : Cell.St Ideal) (r j : Fin 256) :
    (Cell.cell bs wi wh xt s).2 (ix2 r j)
      = Cert.Lstm.cellC W (fun q => xt (ix2 r q)) (fun q => s.1 (ix2 r q)) (fun q => s.2 (ix2 r q)) j :=
  cellC_row W bs wi wh hbs hwi hwh xt s.1 s.2 r j

end

end Cert.KernelIdeal.CellValue

end
-- ==== Proof.KCellValueRun.lean ====
/-
  A run of batched steps, row by row, is a run of the recurrence; and the final linear layer on a
  group's hidden state is, row by row, the recurrence's final layer. Row r of a group's state is the
  pair of row r of its hidden state and row r of its cell state; one batched step acts on it as one
  step of the recurrence, so k steps act as k steps, by induction on k.
-/
import proofs.«157242_g2000404025908667_pallasbulk_280_33_alg».proof.Proof.KCellValueStep

noncomputable section

namespace Cert.KernelIdeal.CellValue

open Idealize.ShloMosaic Idealize.ShloMosaic.ValueIdx Cert.KernelIdeal Cert.KernelIdeal.Gen

open Cert.Lstm (Weights)

/-- Row r of a group's state: row r of the hidden state and row r of the cell state. -/
def rowSt (s : Cell.St Ideal) (r : Fin 256) : Cert.Lstm.St :=
  (fun q => s.1 (ix2 r q), fun q => s.2 (ix2 r q))

section
variable (W : Weights) (bs : FVec Ideal S1x1024 .f32) (wi : FVec Ideal S128x1024 .bf16) (wh : FVec Ideal S256x1024 .bf16)
  (hbs : ∀ j : Fin 1024, bs (ix2 (0 : Fin 1) j) = W.b j * sc j)
  (hwi : ∀ (k : Fin 128) (j : Fin 1024), wi (ix2 k j) = W.wih k j * sc j)
  (hwh : ∀ (k : Fin 256) (j : Fin 1024), wh (ix2 k j) = W.whh k j * sc j)

include hbs hwi hwh

/-- One batched step on row r is one step of the recurrence. -/
theorem cell_row (xt : FVec Ideal S256x128 .bf16) (s : Cell.St Ideal) (r : Fin 256) :
    rowSt (Cell.cell bs wi wh xt s) r = Cert.Lstm.cell W (fun q => xt (ix2 r q)) (rowSt s r) :=
  Prod.ext (funext fun j => cell_fst W bs wi wh hbs hwi hwh xt s r j)
    (funext fun j => cell_snd W bs wi wh hbs hwi hwh xt s r j)

/-- k batched steps on row r are k steps of the recurrence on row r of the inputs. -/
theorem steps_row (xt : ℕ → FVec Ideal S256x128 .bf16) (k : ℕ) (s : Cell.St Ideal) (r : Fin 256) :
    rowSt (Cell.steps bs wi wh xt k s) r = Cert.Lstm.run W (fun t q => xt t (ix2 r q)) k (rowSt s r) := by
  induction k with
  | zero => rfl
  | succ k ih =>
    show rowSt (Cell.cell bs wi wh (xt k) (Cell.steps bs wi wh xt k s)) r
      = Cert.Lstm.cell W (fun q => xt k (ix2 r q)) (Cert.Lstm.run W (fun t q => xt t (ix2 r q)) k (rowSt s r))
    rw [cell_row W bs wi wh hbs hwi hwh, ih]

end

/-- The final linear layer at (r, j) is the recurrence's final layer on row r of the hidden state. -/
theorem head_apply (W : Weights) (wl : FVec Ideal S256x128 .bf16) (bl : FVec Ideal S1x128 .f32)
    (hwl : ∀ (k : Fin 256) (j : Fin 128), wl (ix2 k j) = W.wlin k j)
    (hbl : ∀ j : Fin 128, bl (ix2 (0 : Fin 1) j) = W.blin j)
    (h : FVec Ideal S256x256 .f32) (r : Fin 256) (j : Fin 128) :
    Cell.head wl bl h (ix2 r j) = Cert.Lstm.headOut W (fun q => h (ix2 r q)) j := by
  rw [head_apply_sum, hbl]
  simp only [hwl]
  rfl

end Cert.KernelIdeal.CellValue

end
-- ==== Proof.KRowClean.lean ====
/-
  Rows of the carried state after one grid point. The hidden-state and cell-state scratch hold 512
  rows in two groups of 256; row `o + r` (`o` the group's first row, 0 or 256) of the pair after the
  point is sixteen steps of the recurrence from row `o + r` of the pair before it, on rows `o + r` of
  the point's sixteen time slabs — once the three pre-scaled operands are known to hold the weights'
  columns times the column scale. At the first point of a block the state before is zero and the
  scaled operands are computed there from the weights themselves.
-/
import proofs.«157242_g2000404025908667_pallasbulk_280_33_alg».proof.Proof.KPieces
import proofs.«157242_g2000404025908667_pallasbulk_280_33_alg».proof.Proof.LibRowGroups
import proofs.«157242_g2000404025908667_pallasbulk_280_33_alg».proof.Proof.KCellValueRun

set_option maxRecDepth 16384

noncomputable section

namespace Cert.Lstm

/-- A run of `n` steps depends on the inputs of the steps below `n` only. -/
theorem run_congr (W : Weights) (xs xs' : ℕ → Fin 128 → EReal) (n : ℕ) (h : ∀ t, t < n → xs t = xs' t) (s : St) :
    run W xs n s = run W xs' n s := by
  induction n with
  | zero => rfl
  | succ n ih =>
    show cell W (xs n) (run W xs n s) = cell W (xs' n) (run W xs' n s)
    rw [ih (fun t ht => h t (Nat.lt_succ_of_lt ht)), h n (Nat.lt_succ_self n)]

end Cert.Lstm

namespace Cert.KernelIdeal.KValue

open Idealize.ShloMosaic Idealize.ShloMosaic.TcCoe Idealize.ShloMosaic.ValueIdx Idealize.SL.Sem
open Cert.KernelIdeal Cert.KernelIdeal.Gen Cert.KernelIdeal.CellValue

variable {F : FTy → Type} [FloatOps F]

theorem zero2 : (![0, 0] : Fin 2 → ℕ) = fun _ => 0 := by funext a; fin_cases a <;> rfl
theorem zero3 : (![0, 0, 0] : Fin 3 → ℕ) = fun _ => 0 := by funext a; fin_cases a <;> rfl

/-- A load of a whole buffer through the whole-shape rectangle reads its contents. -/
theorem load_whole {S : Shape} {e : EltTy} (arg : Memref sig .tc .vmem S e) (harg : arg.IsWhole)
    {off : Fin S.rank → ℕ} (hoff : off = fun _ => 0) (inb : ∀ a, off a + S.size a ≤ S.size a) (x : S.Idx → Elt F e) :
    View.readAt (Elt F) arg.view (Rect.unit off S.size inb).toLoadRect (harg.unread x) = x := by
  rw [View.readAt_eq_ld, harg.read_unread]
  exact View.ld_unit_zero hoff inb x

/-- A load of the 256 rows from row `o` of a 512-row buffer reads, at row `r`, row `o + r`. -/
theorem load_rows (arg : Memref sig .tc .vmem S512x256 .f32) (harg : arg.IsWhole) (o : ℕ)
    (inb : ∀ a, (![o, 0] : Fin 2 → ℕ) a + S256x256.size a ≤ S512x256.size a) (x : Vec F S512x256 .f32)
    (r : Fin 256) (j : Fin 256) (h : o + r.val < 512) :
    View.readAt (Elt F) arg.view (Rect.unit (s := S512x256) ![o, 0] S256x256.size inb).toLoadRect (harg.unread x) (ix2 r j)
      = x (ix2 (⟨o + r.val, h⟩ : Fin 512) j) := by
  rw [View.readAt_eq_ld, harg.read_unread]
  exact Cert.RowGroups.ld_rows (C := 256) o inb x r j h

/-- A load of the 256 rows from row `o` of a 512-row buffer that one whole store filled reads that store's payload there. -/
theorem load_rows_filled (arg : Memref sig .tc .vmem S512x256 .f32) (o : ℕ)
    (inb0 : ∀ a, (![0, 0] : Fin 2 → ℕ) a + S512x256.size a ≤ S512x256.size a)
    (inb : ∀ a, (![o, 0] : Fin 2 → ℕ) a + S256x256.size a ≤ S512x256.size a) (w : Vec F S512x256 .f32)
    (r : Fin 256) (j : Fin 256) (h : o + r.val < 512) :
    arg.view.readCov (Val := Elt F) [⟨Rect.unit (s := S512x256) ![0, 0] S512x256.size inb0, w⟩]
        (Rect.unit (s := S512x256) ![o, 0] S256x256.size inb).toLoadRect (ix2 r j)
      = w (ix2 (⟨o + r.val, h⟩ : Fin 512) j) := by
  rw [View.readCov_eq_canon_ld _ _ _ (fun y => ⟨_, List.mem_singleton_self _, View.mem_set_unit_zero zero2 inb0 y⟩),
    View.canon_unit_zero zero2]
  exact Cert.RowGroups.ld_rows (C := 256) o inb w r j h

end Cert.KernelIdeal.KValue

end
-- ==== Proof.KCellValuePay.lean ====
/-
  The values the batched program prepares before its steps, read at one entry: the column scale (one
  half on the columns below 768, one on the others), the bias and the two weight matrices times that
  scale, the block of inputs laid out time-major, and one time step's slab without its unit axis.
-/
import proofs.«157242_g2000404025908667_pallasbulk_280_33_alg».proof.Proof.Gen.KernelIdeal.Skeleton
import proofs.«157242_g2000404025908667_pallasbulk_280_33_alg».proof.Proof.KCellValueConsts
import Idealize.ShloMosaic.Lib.ValueIdx
import Idealize.ShloMosaic.Lib.ValueLayout
import Idealize.ShloMosaic.Lib.WordArith

noncomputable section

namespace Cert.KernelIdeal.CellValue

open Idealize.ShloMosaic Idealize.ShloMosaic.ValueIdx Cert.KernelIdeal Cert.KernelIdeal.Gen

/-- The column scale at column j: the column number, read as a signed 32-bit word, is below 768 exactly
    when j is. -/
theorem pay3_apply (j : Fin 1024) : k0_pay3 (F := Ideal) (ix2 (0 : Fin 1) j) = sc j := by
  have hj := j.isLt
  unfold k0_pay3
  show Scalar.select (IntOp.cmpi .slt (iota .tc S1x1024 32 [1] iota_S1x1024_d1_w32 (ix2 (0 : Fin 1) j)) 768#32)
    (Ideal.ofBits .f32 0x3F000000#32) (Ideal.ofBits .f32 0x3F800000#32) = sc j
  rw [iota_single_apply, ofBits_half, ofBits_one]
  show Scalar.select (IntOp.cmpi .slt (BitVec.ofNat 32 j.val) 768#32) _ _ = _
  have hc : IntOp.cmpi .slt (BitVec.ofNat 32 j.val) 768#32 = 1#1 ↔ j.val < 768 := by
    rw [IntOp.cmpi_slt, WordArith.toInt_ofNat_small j.val (by omega),
      show (768#32 : BitVec 32) = BitVec.ofNat 32 768 from rfl, WordArith.toInt_ofNat_small 768 (by omega)]
    omega
  unfold sc
  by_cases h : j.val < 768
  · rw [if_pos h, hc.mpr h, select_one]
  · rw [if_neg h, eq_zero_of_ne_one (fun hh => h (hc.mp hh)), select_zero]

/-- The scaled bias at column j: the bias times the column scale. -/
theorem pay4_apply (b : FVec Ideal S1x1024 .f32) (j : Fin 1024) :
    k0_pay4 b (ix2 (0 : Fin 1) j) = b (ix2 (0 : Fin 1) j) * sc j := by
  unfold k0_pay4
  rw [mulf_apply, pay3_apply]

/-- The scaled input weights at (k, j): the weight times the scale of column j; the two changes of float
    format and the cast to the same shape are identities. -/
theorem pay5_apply (w : FVec Ideal S128x1024 .bf16) (k : Fin 128) (j : Fin 1024) :
    k0_pay5 w (ix2 k j) = w (ix2 k j) * sc j := by
  unfold k0_pay5
  rw [shapeCast_self, truncf_apply, mulf_apply, extf_apply, broadcastTo_1b_ab_apply, pay3_apply]

/-- The scaled hidden weights at (k, j): the weight times the scale of column j. -/
theorem pay6_apply (w : FVec Ideal S256x1024 .bf16) (k : Fin 256) (j : Fin 1024) :
    k0_pay6 w (ix2 k j) = w (ix2 k j) * sc j := by
  unfold k0_pay6
  rw [shapeCast_self, truncf_apply, mulf_apply, extf_apply, broadcastTo_1b_ab_apply, pay3_apply]

/-- The time-major copy of a block of inputs: step k of sequence r is entry (r, k) of the block. -/
theorem pay9_apply (x0 : FVec Ideal S512x16x128 .f32) (k : Fin 16) (r : Fin 512) (q : Fin 128) :
    (k0_pay9 (F := Ideal) x0 (ix3 k r q) : EReal) = x0 (ix3 r k q) := by
  unfold k0_pay9
  rw [shapeCast_self]
  exact transpose_apply _ _ _ (ix3 k r q) (ix3 r k q) fun c => match c with | ⟨0, _⟩ => rfl | ⟨1, _⟩ => rfl | ⟨2, _⟩ => rfl

/-- The slab of one time step with its leading unit axis dropped. -/
theorem pay10_apply (xk : FVec Ideal S1x512x128 .bf16) (r : Fin 512) (q : Fin 128) :
    k0_pay10 xk (ix2 r q) = xk (ix3 (0 : Fin 1) r q) := by
  unfold k0_pay10
  exact shapeCast_1ab_ab_apply xk _ r q

end Cert.KernelIdeal.CellValue

end
-- ==== Proof.KCellValueGroups.lean ====
/-
  The two groups of 256 rows of one time step's slab of 512 rows, read at one entry.
-/
import proofs.«157242_g2000404025908667_pallasbulk_280_33_alg».proof.Proof.KCell
import Idealize.ShloMosaic.Lib.ValueIdx
import Idealize.ShloMosaic.Lib.ValueLayout

noncomputable section

namespace Cert.KernelIdeal.CellValue

open Idealize.ShloMosaic Idealize.ShloMosaic.ValueIdx Cert.KernelIdeal Cert.KernelIdeal.Gen

/-- Row r of the first group is row r of the slab. -/
theorem xGroup0_apply (xk : FVec Ideal S1x512x128 .bf16) (r : Fin 256) (q : Fin 128) :
    Cell.xGroup0 xk (ix2 r q) = xk (ix3 (0 : Fin 1) ⟨r.val, by omega⟩ q) := by
  unfold Cell.xGroup0
  rw [slice2_axis0_apply 0 _ slices_S512x128_o0_0_S256x128 r q ⟨r.val, by omega⟩ (by simp)]
  exact shapeCast_1ab_ab_apply xk _ _ q

/-- Row r of the second group is row 256 + r of the slab. -/
theorem xGroup1_apply (xk : FVec Ideal S1x512x128 .bf16) (r : Fin 256) (q : Fin 128) :
    Cell.xGroup1 xk (ix2 r q) = xk (ix3 (0 : Fin 1) ⟨256 + r.val, by omega⟩ q) := by
  unfold Cell.xGroup1
  rw [slice2_axis0_apply 256 _ slices_S512x128_o256_0_S256x128 r q ⟨256 + r.val, by omega⟩ rfl]
  exact shapeCast_1ab_ab_apply xk _ _ q

end Cert.KernelIdeal.CellValue

end
-- ==== Proof.KRowBC.lean ====
/-
  Rows of the carried state, and of the output block, after a grid point that is not the first of its
  block: with the scaled operands holding the weights' columns times the column scale, row r of each
  256-row group of the (hidden, cell) pair is sixteen steps of the recurrence from row r of the pair
  the point found, on row r of the sixteen time slabs of its input block; and at the last point of a
  block row r of the output is the final layer on that row's hidden state.
-/
import proofs.«157242_g2000404025908667_pallasbulk_280_33_alg».proof.Proof.KRowClean
import proofs.«157242_g2000404025908667_pallasbulk_280_33_alg».proof.Proof.KCellValuePay
import proofs.«157242_g2000404025908667_pallasbulk_280_33_alg».proof.Proof.KCellValueGroups

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.CellValue

/-- What a load of time slab `k` reads of the scratch one whole store of the relaid block filled: that block at step `k`. -/
theorem slab_apply {F : FTy → Type} [FloatOps F] (arg9 : Memref sig .tc .vmem S16x512x128 .bf16) (w : Vec F S16x512x128 .bf16) (k : ℕ) (hk : k < 16)
    (inb0 : ∀ a, (![0, 0, 0] : Fin 3 → ℕ) a + S16x512x128.size a ≤ S16x512x128.size a)
    (inb : ∀ a, (![k, 0, 0] : Fin 3 → ℕ) a + S1x512x128.size a ≤ S16x512x128.size a) (b : Fin 512) (q : Fin 128) :
    arg9.view.readCov (Val := Elt F) [⟨Rect.unit (s := S16x512x128) ![0, 0, 0] S16x512x128.size inb0, w⟩]
        (Rect.unit (s := S16x512x128) ![k, 0, 0] S1x512x128.size inb).toLoadRect (ix3 (0 : Fin 1) b q)
      = w (ix3 (⟨k, hk⟩ : Fin 16) b q) := by
  rw [View.readCov_eq_canon_ld _ _ _ (fun y => ⟨_, List.mem_singleton_self _, View.mem_set_unit_zero zero3 inb0 y⟩),
    View.canon_unit_zero zero3]
  show w ((Rect.unit (s := S16x512x128) ![k, 0, 0] S1x512x128.size inb).emb (ix3 (0 : Fin 1) b q)) = _
  refine congrArg w ?_
  funext a
  apply Fin.ext
  match a with
  | ⟨0, _⟩ => simp [Rect.emb_apply]
  | ⟨1, _⟩ => simp [Rect.emb_apply]
  | ⟨2, _⟩ => simp [Rect.emb_apply]

/-- The step-`k` slab the body reads back is the relaid input block at step `k`. -/
theorem xkRaw_apply (arg2 : Memref sig .tc .vmem S512x16x128 .f32) (harg2 : arg2.IsWhole) (arg9 : Memref sig .tc .vmem S16x512x128 .bf16)
    (x0 : Vec Ideal S512x16x128 .f32) (k : ℕ) (hk : k < 16) (b : Fin 512) (q : Fin 128) :
    xkRaw (F := Ideal) arg2 harg2 arg9 x0 k (ix3 (0 : Fin 1) b q) = k0_pay9 (F := Ideal) x0 (ix3 (⟨k, hk⟩ : Fin 16) b q) := by
  have hl := load_whole (F := Ideal) arg2 harg2 zero3 inb_S512x16x128_S512x16x128_0_0_0 x0
  interval_cases k <;> (unfold xkRaw; rw [hl]; exact slab_apply arg9 _ _ _ _ _ b q)

/-- Case B, lower group: row r of the state pair after the point is sixteen steps from row r of the pair before it. -/
theorem rows_B_lower (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : ¬cond0_0 i) (hc1 : ¬cond0_1 i) (x0 : Vec Ideal S512x16x128 .f32) (x1 : Vec Ideal S128x1024 .bf16) (x2 : Vec Ideal S256x1024 .bf16) (x3 : Vec Ideal S1x1024 .f32) (x4 : Vec Ideal S256x128 .bf16) (x5 : Vec Ideal S1x128 .f32) (xs1 : Vec Ideal S512x256 .f32) (xs2 : Vec Ideal S512x256 .f32) (xs3 : Vec Ideal S128x1024 .bf16) (xs4 : Vec Ideal S256x1024 .bf16) (W : Cert.Lstm.Weights)
    (hb : ∀ j : Fin 1024, x3 (ix2 (0 : Fin 1) j) = W.b j)
    (hwi : ∀ (k : Fin 128) (j : Fin 1024), xs3 (ix2 k j) = W.wih k j * sc j)
    (hwh : ∀ (k : Fin 256) (j : Fin 1024), xs4 (ix2 k j) = W.whh k j * sc j) (r : Fin 256) :
    ((fun q => sout0_B_1 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4 (ix2 (⟨r.val, by omega⟩ : Fin 512) q), fun q => sout0_B_2 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4 (ix2 (⟨r.val, by omega⟩ : Fin 512) q)) : Cert.Lstm.St)
      = Cert.Lstm.run W (fun k q => x0 (ix3 (⟨r.val, by omega⟩ : Fin 512) (⟨k % 16, Nat.mod_lt _ (by norm_num)⟩ : Fin 16) q)) 16 ((fun q => xs1 (ix2 (⟨r.val, by omega⟩ : Fin 512) q), fun q => xs2 (ix2 (⟨r.val, by omega⟩ : Fin 512) q)) : Cert.Lstm.St) := by
  have hbs : ∀ j : Fin 1024, (k0_pay4 (View.readAt (Elt Ideal) arg5.view (Rect.unit (s := S1x1024) ![0, 0] S1x1024.size inb_S1x1024_S1x1024_0_0).toLoadRect (harg5.unread x3))) (ix2 (0 : Fin 1) j) = W.b j * sc j := fun j => by
    rw [pay4_apply, load_whole arg5 harg5 zero2 inb_S1x1024_S1x1024_0_0 x3, hb]
  have hwi' : ∀ (k : Fin 128) (j : Fin 1024), (View.readAt (Elt Ideal) arg12.view (Rect.unit (s := S128x1024) ![0, 0] S128x1024.size inb_S128x1024_S128x1024_0_0).toLoadRect (harg12.unread xs3)) (ix2 k j) = W.wih k j * sc j := fun k j => by
    rw [load_whole arg12 harg12 zero2 inb_S128x1024_S128x1024_0_0 xs3]; exact hwi k j
  have hwh' : ∀ (k : Fin 256) (j : Fin 1024), (View.readAt (Elt Ideal) arg13.view (Rect.unit (s := S256x1024) ![0, 0] S256x1024.size inb_S256x1024_S256x1024_0_0).toLoadRect (harg13.unread xs4)) (ix2 k j) = W.whh k j * sc j := fun k j => by
    rw [load_whole arg13 harg13 zero2 inb_S256x1024_S256x1024_0_0 xs4]; exact hwh k j
  have key := steps_row W (k0_pay4 (View.readAt (Elt Ideal) arg5.view (Rect.unit (s := S1x1024) ![0, 0] S1x1024.size inb_S1x1024_S1x1024_0_0).toLoadRect (harg5.unread x3))) (View.readAt (Elt Ideal) arg12.view (Rect.unit (s := S128x1024) ![0, 0] S128x1024.size inb_S128x1024_S128x1024_0_0).toLoadRect (harg12.unread xs3)) (View.readAt (Elt Ideal) arg13.view (Rect.unit (s := S256x1024) ![0, 0] S256x1024.size inb_S256x1024_S256x1024_0_0).toLoadRect (harg13.unread xs4)) hbs hwi' hwh'
    (fun k => Cell.xGroup0 (xkRaw (F := Ideal) arg2 harg2 arg9 x0 k)) 16 ((View.readAt (Elt Ideal) arg10.view (Rect.unit (s := S512x256) ![0, 0] S256x256.size inb_S512x256_S256x256_0_0).toLoadRect (harg10.unread xs1)), (View.readAt (Elt Ideal) arg11.view (Rect.unit (s := S512x256) ![0, 0] S256x256.size inb_S512x256_S256x256_0_0).toLoadRect (harg11.unread xs2))) r
  have hin : ∀ t, t < 16 → (fun q => Cell.xGroup0 (xkRaw (F := Ideal) arg2 harg2 arg9 x0 t) (ix2 r q)) = (fun k q => x0 (ix3 (⟨r.val, by omega⟩ : Fin 512) (⟨k % 16, Nat.mod_lt _ (by norm_num)⟩ : Fin 16) q)) t := fun t ht => funext fun q => by
    rw [xGroup0_apply, xkRaw_apply arg2 harg2 arg9 x0 t ht, pay9_apply]
    have e : (⟨t, ht⟩ : Fin 16) = ⟨t % 16, Nat.mod_lt _ (by norm_num)⟩ := Fin.ext (Nat.mod_eq_of_lt ht).symm
    rw [e]
  have hs : rowSt ((View.readAt (Elt Ideal) arg10.view (Rect.unit (s := S512x256) ![0, 0] S256x256.size inb_S512x256_S256x256_0_0).toLoadRect (harg10.unread xs1)), (View.readAt (Elt Ideal) arg11.view (Rect.unit (s := S512x256) ![0, 0] S256x256.size inb_S512x256_S256x256_0_0).toLoadRect (harg11.unread xs2))) r = ((fun q => xs1 (ix2 (⟨r.val, by omega⟩ : Fin 512) q), fun q => xs2 (ix2 (⟨r.val, by omega⟩ : Fin 512) q)) : Cert.Lstm.St) :=
    Prod.ext (funext fun q => (load_rows arg10 harg10 0 inb_S512x256_S256x256_0_0 xs1 r q (by omega)).trans (by simp only [Nat.zero_add]))
      (funext fun q => (load_rows arg11 harg11 0 inb_S512x256_S256x256_0_0 xs2 r q (by omega)).trans (by simp only [Nat.zero_add]))
  rw [Cert.Lstm.run_congr W _ (fun k q => x0 (ix3 (⟨r.val, by omega⟩ : Fin 512) (⟨k % 16, Nat.mod_lt _ (by norm_num)⟩ : Fin 16) q)) 16 hin, hs] at key
  rw [← key, hidden_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4, cellst_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4]
  refine Prod.ext (funext fun q => ?_) (funext fun q => ?_)
  · refine (Cert.RowGroups.canon_lower (C := 256) _ _ _ _ _ r q (by omega)).trans ?_
    exact congrFun (shapeCast_self _ _) _
  · refine (Cert.RowGroups.canon_lower (C := 256) _ _ _ _ _ r q (by omega)).trans ?_
    exact congrFun (shapeCast_self _ _) _

/-- Case B, upper group: row r of the state pair after the point is sixteen steps from row r of the pair before it. -/
theorem rows_B_upper (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : ¬cond0_0 i) (hc1 : ¬cond0_1 i) (x0 : Vec Ideal S512x16x128 .f32) (x1 : Vec Ideal S128x1024 .bf16) (x2 : Vec Ideal S256x1024 .bf16) (x3 : Vec Ideal S1x1024 .f32) (x4 : Vec Ideal S256x128 .bf16) (x5 : Vec Ideal S1x128 .f32) (xs1 : Vec Ideal S512x256 .f32) (xs2 : Vec Ideal S512x256 .f32) (xs3 : Vec Ideal S128x1024 .bf16) (xs4 : Vec Ideal S256x1024 .bf16) (W : Cert.Lstm.Weights)
    (hb : ∀ j : Fin 1024, x3 (ix2 (0 : Fin 1) j) = W.b j)
    (hwi : ∀ (k : Fin 128) (j : Fin 1024), xs3 (ix2 k j) = W.wih k j * sc j)
    (hwh : ∀ (k : Fin 256) (j : Fin 1024), xs4 (ix2 k j) = W.whh k j * sc j) (r : Fin 256) :
    ((fun q => sout0_B_1 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4 (ix2 (⟨256 + r.val, by omega⟩ : Fin 512) q), fun q => sout0_B_2 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4 (ix2 (⟨256 + r.val, by omega⟩ : Fin 512) q)) : Cert.Lstm.St)
      = Cert.Lstm.run W (fun k q => x0 (ix3 (⟨256 + r.val, by omega⟩ : Fin 512) (⟨k % 16, Nat.mod_lt _ (by norm_num)⟩ : Fin 16) q)) 16 ((fun q => xs1 (ix2 (⟨256 + r.val, by omega⟩ : Fin 512) q), fun q => xs2 (ix2 (⟨256 + r.val, by omega⟩ : Fin 512) q)) : Cert.Lstm.St) := by
  have hbs : ∀ j : Fin 1024, (k0_pay4 (View.readAt (Elt Ideal) arg5.view (Rect.unit (s := S1x1024) ![0, 0] S1x1024.size inb_S1x1024_S1x1024_0_0).toLoadRect (harg5.unread x3))) (ix2 (0 : Fin 1) j) = W.b j * sc j := fun j => by
    rw [pay4_apply, load_whole arg5 harg5 zero2 inb_S1x1024_S1x1024_0_0 x3, hb]
  have hwi' : ∀ (k : Fin 128) (j : Fin 1024), (View.readAt (Elt Ideal) arg12.view (Rect.unit (s := S128x1024) ![0, 0] S128x1024.size inb_S128x1024_S128x1024_0_0).toLoadRect (harg12.unread xs3)) (ix2 k j) = W.wih k j * sc j := fun k j => by
    rw [load_whole arg12 harg12 zero2 inb_S128x1024_S128x1024_0_0 xs3]; exact hwi k j
  have hwh' : ∀ (k : Fin 256) (j : Fin 1024), (View.readAt (Elt Ideal) arg13.view (Rect.unit (s := S256x1024) ![0, 0] S256x1024.size inb_S256x1024_S256x1024_0_0).toLoadRect (harg13.unread xs4)) (ix2 k j) = W.whh k j * sc j := fun k j => by
    rw [load_whole arg13 harg13 zero2 inb_S256x1024_S256x1024_0_0 xs4]; exact hwh k j
  have key := steps_row W (k0_pay4 (View.readAt (Elt Ideal) arg5.view (Rect.unit (s := S1x1024) ![0, 0] S1x1024.size inb_S1x1024_S1x1024_0_0).toLoadRect (harg5.unread x3))) (View.readAt (Elt Ideal) arg12.view (Rect.unit (s := S128x1024) ![0, 0] S128x1024.size inb_S128x1024_S128x1024_0_0).toLoadRect (harg12.unread xs3)) (View.readAt (Elt Ideal) arg13.view (Rect.unit (s := S256x1024) ![0, 0] S256x1024.size inb_S256x1024_S256x1024_0_0).toLoadRect (harg13.unread xs4)) hbs hwi' hwh'
    (fun k => Cell.xGroup1 (xkRaw (F := Ideal) arg2 harg2 arg9 x0 k)) 16 ((View.readAt (Elt Ideal) arg10.view (Rect.unit (s := S512x256) ![256, 0] S256x256.size inb_S512x256_S256x256_256_0).toLoadRect (harg10.unread xs1)), (View.readAt (Elt Ideal) arg11.view (Rect.unit (s := S512x256) ![256, 0] S256x256.size inb_S512x256_S256x256_256_0).toLoadRect (harg11.unread xs2))) r
  have hin : ∀ t, t < 16 → (fun q => Cell.xGroup1 (xkRaw (F := Ideal) arg2 harg2 arg9 x0 t) (ix2 r q)) = (fun k q => x0 (ix3 (⟨256 + r.val, by omega⟩ : Fin 512) (⟨k % 16, Nat.mod_lt _ (by norm_num)⟩ : Fin 16) q)) t := fun t ht => funext fun q => by
    rw [xGroup1_apply, xkRaw_apply arg2 harg2 arg9 x0 t ht, pay9_apply]
    have e : (⟨t, ht⟩ : Fin 16) = ⟨t % 16, Nat.mod_lt _ (by norm_num)⟩ := Fin.ext (Nat.mod_eq_of_lt ht).symm
    rw [e]
  have hs : rowSt ((View.readAt (Elt Ideal) arg10.view (Rect.unit (s := S512x256) ![256, 0] S256x256.size inb_S512x256_S256x256_256_0).toLoadRect (harg10.unread xs1)), (View.readAt (Elt Ideal) arg11.view (Rect.unit (s := S512x256) ![256, 0] S256x256.size inb_S512x256_S256x256_256_0).toLoadRect (harg11.unread xs2))) r = ((fun q => xs1 (ix2 (⟨256 + r.val, by omega⟩ : Fin 512) q), fun q => xs2 (ix2 (⟨256 + r.val, by omega⟩ : Fin 512) q)) : Cert.Lstm.St) :=
    Prod.ext (funext fun q => load_rows arg10 harg10 256 inb_S512x256_S256x256_256_0 xs1 r q (by omega))
      (funext fun q => load_rows arg11 harg11 256 inb_S512x256_S256x256_256_0 xs2 r q (by omega))
  rw [Cert.Lstm.run_congr W _ (fun k q => x0 (ix3 (⟨256 + r.val, by omega⟩ : Fin 512) (⟨k % 16, Nat.mod_lt _ (by norm_num)⟩ : Fin 16) q)) 16 hin, hs] at key
  rw [← key, hidden_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4, cellst_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4]
  refine Prod.ext (funext fun q => ?_) (funext fun q => ?_)
  · refine (Cert.RowGroups.canon_upper (C := 256) _ _ _ r q (by omega)).trans ?_
    exact congrFun (shapeCast_self _ _) _
  · refine (Cert.RowGroups.canon_upper (C := 256) _ _ _ r q (by omega)).trans ?_
    exact congrFun (shapeCast_self _ _) _

/-- Case C, lower group: row r of the state pair after the point is sixteen steps from row r of the pair before it. -/
theorem rows_C_lower (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : ¬cond0_0 i) (hc1 : cond0_1 i) (x0 : Vec Ideal S512x16x128 .f32) (x1 : Vec Ideal S128x1024 .bf16) (x2 : Vec Ideal S256x1024 .bf16) (x3 : Vec Ideal S1x1024 .f32) (x4 : Vec Ideal S256x128 .bf16) (x5 : Vec Ideal S1x128 .f32) (xs1 : Vec Ideal S512x256 .f32) (xs2 : Vec Ideal S512x256 .f32) (xs3 : Vec Ideal S128x1024 .bf16) (xs4 : Vec Ideal S256x1024 .bf16) (W : Cert.Lstm.Weights)
    (hb : ∀ j : Fin 1024, x3 (ix2 (0 : Fin 1) j) = W.b j)
    (hwi : ∀ (k : Fin 128) (j : Fin 1024), xs3 (ix2 k j) = W.wih k j * sc j)
    (hwh : ∀ (k : Fin 256) (j : Fin 1024), xs4 (ix2 k j) = W.whh k j * sc j) (r : Fin 256) :
    ((fun q => sout0_C_1 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4 (ix2 (⟨r.val, by omega⟩ : Fin 512) q), fun q => sout0_C_2 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4 (ix2 (⟨r.val, by omega⟩ : Fin 512) q)) : Cert.Lstm.St)
      = Cert.Lstm.run W (fun k q => x0 (ix3 (⟨r.val, by omega⟩ : Fin 512) (⟨k % 16, Nat.mod_lt _ (by norm_num)⟩ : Fin 16) q)) 16 ((fun q => xs1 (ix2 (⟨r.val, by omega⟩ : Fin 512) q), fun q => xs2 (ix2 (⟨r.val, by omega⟩ : Fin 512) q)) : Cert.Lstm.St) := by
  have hbs : ∀ j : Fin 1024, (k0_pay4 (View.readAt (Elt Ideal) arg5.view (Rect.unit (s := S1x1024) ![0, 0] S1x1024.size inb_S1x1024_S1x1024_0_0).toLoadRect (harg5.unread x3))) (ix2 (0 : Fin 1) j) = W.b j * sc j := fun j => by
    rw [pay4_apply, load_whole arg5 harg5 zero2 inb_S1x1024_S1x1024_0_0 x3, hb]
  have hwi' : ∀ (k : Fin 128) (j : Fin 1024), (View.readAt (Elt Ideal) arg12.view (Rect.unit (s := S128x1024) ![0, 0] S128x1024.size inb_S128x1024_S128x1024_0_0).toLoadRect (harg12.unread xs3)) (ix2 k j) = W.wih k j * sc j := fun k j => by
    rw [load_whole arg12 harg12 zero2 inb_S128x1024_S128x1024_0_0 xs3]; exact hwi k j
  have hwh' : ∀ (k : Fin 256) (j : Fin 1024), (View.readAt (Elt Ideal) arg13.view (Rect.unit (s := S256x1024) ![0, 0] S256x1024.size inb_S256x1024_S256x1024_0_0).toLoadRect (harg13.unread xs4)) (ix2 k j) = W.whh k j * sc j := fun k j => by
    rw [load_whole arg13 harg13 zero2 inb_S256x1024_S256x1024_0_0 xs4]; exact hwh k j
  have key := steps_row W (k0_pay4 (View.readAt (Elt Ideal) arg5.view (Rect.unit (s := S1x1024) ![0, 0] S1x1024.size inb_S1x1024_S1x1024_0_0).toLoadRect (harg5.unread x3))) (View.readAt (Elt Ideal) arg12.view (Rect.unit (s := S128x1024) ![0, 0] S128x1024.size inb_S128x1024_S128x1024_0_0).toLoadRect (harg12.unread xs3)) (View.readAt (Elt Ideal) arg13.view (Rect.unit (s := S256x1024) ![0, 0] S256x1024.size inb_S256x1024_S256x1024_0_0).toLoadRect (harg13.unread xs4)) hbs hwi' hwh'
    (fun k => Cell.xGroup0 (xkRaw (F := Ideal) arg2 harg2 arg9 x0 k)) 16 ((View.readAt (Elt Ideal) arg10.view (Rect.unit (s := S512x256) ![0, 0] S256x256.size inb_S512x256_S256x256_0_0).toLoadRect (harg10.unread xs1)), (View.readAt (Elt Ideal) arg11.view (Rect.unit (s := S512x256) ![0, 0] S256x256.size inb_S512x256_S256x256_0_0).toLoadRect (harg11.unread xs2))) r
  have hin : ∀ t, t < 16 → (fun q => Cell.xGroup0 (xkRaw (F := Ideal) arg2 harg2 arg9 x0 t) (ix2 r q)) = (fun k q => x0 (ix3 (⟨r.val, by omega⟩ : Fin 512) (⟨k % 16, Nat.mod_lt _ (by norm_num)⟩ : Fin 16) q)) t := fun t ht => funext fun q => by
    rw [xGroup0_apply, xkRaw_apply arg2 harg2 arg9 x0 t ht, pay9_apply]
    have e : (⟨t, ht⟩ : Fin 16) = ⟨t % 16, Nat.mod_lt _ (by norm_num)⟩ := Fin.ext (Nat.mod_eq_of_lt ht).symm
    rw [e]
  have hs : rowSt ((View.readAt (Elt Ideal) arg10.view (Rect.unit (s := S512x256) ![0, 0] S256x256.size inb_S512x256_S256x256_0_0).toLoadRect (harg10.unread xs1)), (View.readAt (Elt Ideal) arg11.view (Rect.unit (s := S512x256) ![0, 0] S256x256.size inb_S512x256_S256x256_0_0).toLoadRect (harg11.unread xs2))) r = ((fun q => xs1 (ix2 (⟨r.val, by omega⟩ : Fin 512) q), fun q => xs2 (ix2 (⟨r.val, by omega⟩ : Fin 512) q)) : Cert.Lstm.St) :=
    Prod.ext (funext fun q => (load_rows arg10 harg10 0 inb_S512x256_S256x256_0_0 xs1 r q (by omega)).trans (by simp only [Nat.zero_add]))
      (funext fun q => (load_rows arg11 harg11 0 inb_S512x256_S256x256_0_0 xs2 r q (by omega)).trans (by simp only [Nat.zero_add]))
  rw [Cert.Lstm.run_congr W _ (fun k q => x0 (ix3 (⟨r.val, by omega⟩ : Fin 512) (⟨k % 16, Nat.mod_lt _ (by norm_num)⟩ : Fin 16) q)) 16 hin, hs] at key
  rw [← key, hidden_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4, cellst_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4]
  refine Prod.ext (funext fun q => ?_) (funext fun q => ?_)
  · refine (Cert.RowGroups.canon_lower (C := 256) _ _ _ _ _ r q (by omega)).trans ?_
    exact congrFun (shapeCast_self _ _) _
  · refine (Cert.RowGroups.canon_lower (C := 256) _ _ _ _ _ r q (by omega)).trans ?_
    exact congrFun (shapeCast_self _ _) _

/-- Case C, upper group: row r of the state pair after the point is sixteen steps from row r of the pair before it. -/
theorem rows_C_upper (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : ¬cond0_0 i) (hc1 : cond0_1 i) (x0 : Vec Ideal S512x16x128 .f32) (x1 : Vec Ideal S128x1024 .bf16) (x2 : Vec Ideal S256x1024 .bf16) (x3 : Vec Ideal S1x1024 .f32) (x4 : Vec Ideal S256x128 .bf16) (x5 : Vec Ideal S1x128 .f32) (xs1 : Vec Ideal S512x256 .f32) (xs2 : Vec Ideal S512x256 .f32) (xs3 : Vec Ideal S128x1024 .bf16) (xs4 : Vec Ideal S256x1024 .bf16) (W : Cert.Lstm.Weights)
    (hb : ∀ j : Fin 1024, x3 (ix2 (0 : Fin 1) j) = W.b j)
    (hwi : ∀ (k : Fin 128) (j : Fin 1024), xs3 (ix2 k j) = W.wih k j * sc j)
    (hwh : ∀ (k : Fin 256) (j : Fin 1024), xs4 (ix2 k j) = W.whh k j * sc j) (r : Fin 256) :
    ((fun q => sout0_C_1 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4 (ix2 (⟨256 + r.val, by omega⟩ : Fin 512) q), fun q => sout0_C_2 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4 (ix2 (⟨256 + r.val, by omega⟩ : Fin 512) q)) : Cert.Lstm.St)
      = Cert.Lstm.run W (fun k q => x0 (ix3 (⟨256 + r.val, by omega⟩ : Fin 512) (⟨k % 16, Nat.mod_lt _ (by norm_num)⟩ : Fin 16) q)) 16 ((fun q => xs1 (ix2 (⟨256 + r.val, by omega⟩ : Fin 512) q), fun q => xs2 (ix2 (⟨256 + r.val, by omega⟩ : Fin 512) q)) : Cert.Lstm.St) := by
  have hbs : ∀ j : Fin 1024, (k0_pay4 (View.readAt (Elt Ideal) arg5.view (Rect.unit (s := S1x1024) ![0, 0] S1x1024.size inb_S1x1024_S1x1024_0_0).toLoadRect (harg5.unread x3))) (ix2 (0 : Fin 1) j) = W.b j * sc j := fun j => by
    rw [pay4_apply, load_whole arg5 harg5 zero2 inb_S1x1024_S1x1024_0_0 x3, hb]
  have hwi' : ∀ (k : Fin 128) (j : Fin 1024), (View.readAt (Elt Ideal) arg12.view (Rect.unit (s := S128x1024) ![0, 0] S128x1024.size inb_S128x1024_S128x1024_0_0).toLoadRect (harg12.unread xs3)) (ix2 k j) = W.wih k j * sc j := fun k j => by
    rw [load_whole arg12 harg12 zero2 inb_S128x1024_S128x1024_0_0 xs3]; exact hwi k j
  have hwh' : ∀ (k : Fin 256) (j : Fin 1024), (View.readAt (Elt Ideal) arg13.view (Rect.unit (s := S256x1024) ![0, 0] S256x1024.size inb_S256x1024_S256x1024_0_0).toLoadRect (harg13.unread xs4)) (ix2 k j) = W.whh k j * sc j := fun k j => by
    rw [load_whole arg13 harg13 zero2 inb_S256x1024_S256x1024_0_0 xs4]; exact hwh k j
  have key := steps_row W (k0_pay4 (View.readAt (Elt Ideal) arg5.view (Rect.unit (s := S1x1024) ![0, 0] S1x1024.size inb_S1x1024_S1x1024_0_0).toLoadRect (harg5.unread x3))) (View.readAt (Elt Ideal) arg12.view (Rect.unit (s := S128x1024) ![0, 0] S128x1024.size inb_S128x1024_S128x1024_0_0).toLoadRect (harg12.unread xs3)) (View.readAt (Elt Ideal) arg13.view (Rect.unit (s := S256x1024) ![0, 0] S256x1024.size inb_S256x1024_S256x1024_0_0).toLoadRect (harg13.unread xs4)) hbs hwi' hwh'
    (fun k => Cell.xGroup1 (xkRaw (F := Ideal) arg2 harg2 arg9 x0 k)) 16 ((View.readAt (Elt Ideal) arg10.view (Rect.unit (s := S512x256) ![256, 0] S256x256.size inb_S512x256_S256x256_256_0).toLoadRect (harg10.unread xs1)), (View.readAt (Elt Ideal) arg11.view (Rect.unit (s := S512x256) ![256, 0] S256x256.size inb_S512x256_S256x256_256_0).toLoadRect (harg11.unread xs2))) r
  have hin : ∀ t, t < 16 → (fun q => Cell.xGroup1 (xkRaw (F := Ideal) arg2 harg2 arg9 x0 t) (ix2 r q)) = (fun k q => x0 (ix3 (⟨256 + r.val, by omega⟩ : Fin 512) (⟨k % 16, Nat.mod_lt _ (by norm_num)⟩ : Fin 16) q)) t := fun t ht => funext fun q => by
    rw [xGroup1_apply, xkRaw_apply arg2 harg2 arg9 x0 t ht, pay9_apply]
    have e : (⟨t, ht⟩ : Fin 16) = ⟨t % 16, Nat.mod_lt _ (by norm_num)⟩ := Fin.ext (Nat.mod_eq_of_lt ht).symm
    rw [e]
  have hs : rowSt ((View.readAt (Elt Ideal) arg10.view (Rect.unit (s := S512x256) ![256, 0] S256x256.size inb_S512x256_S256x256_256_0).toLoadRect (harg10.unread xs1)), (View.readAt (Elt Ideal) arg11.view (Rect.unit (s := S512x256) ![256, 0] S256x256.size inb_S512x256_S256x256_256_0).toLoadRect (harg11.unread xs2))) r = ((fun q => xs1 (ix2 (⟨256 + r.val, by omega⟩ : Fin 512) q), fun q => xs2 (ix2 (⟨256 + r.val, by omega⟩ : Fin 512) q)) : Cert.Lstm.St) :=
    Prod.ext (funext fun q => load_rows arg10 harg10 256 inb_S512x256_S256x256_256_0 xs1 r q (by omega))
      (funext fun q => load_rows arg11 harg11 256 inb_S512x256_S256x256_256_0 xs2 r q (by omega))
  rw [Cert.Lstm.run_congr W _ (fun k q => x0 (ix3 (⟨256 + r.val, by omega⟩ : Fin 512) (⟨k % 16, Nat.mod_lt _ (by norm_num)⟩ : Fin 16) q)) 16 hin, hs] at key
  rw [← key, hidden_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4, cellst_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4]
  refine Prod.ext (funext fun q => ?_) (funext fun q => ?_)
  · refine (Cert.RowGroups.canon_upper (C := 256) _ _ _ r q (by omega)).trans ?_
    exact congrFun (shapeCast_self _ _) _
  · refine (Cert.RowGroups.canon_upper (C := 256) _ _ _ r q (by omega)).trans ?_
    exact congrFun (shapeCast_self _ _) _

/-- Case C, lower group: row r of the output block is the final layer on row r's hidden state after the point's sixteen steps. -/
theorem out_C_lower (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : ¬cond0_0 i) (hc1 : cond0_1 i) (x0 : Vec Ideal S512x16x128 .f32) (x1 : Vec Ideal S128x1024 .bf16) (x2 : Vec Ideal S256x1024 .bf16) (x3 : Vec Ideal S1x1024 .f32) (x4 : Vec Ideal S256x128 .bf16) (x5 : Vec Ideal S1x128 .f32) (xs1 : Vec Ideal S512x256 .f32) (xs2 : Vec Ideal S512x256 .f32) (xs3 : Vec Ideal S128x1024 .bf16) (xs4 : Vec Ideal S256x1024 .bf16) (W : Cert.Lstm.Weights)
    (hb : ∀ j : Fin 1024, x3 (ix2 (0 : Fin 1) j) = W.b j)
    (hwi : ∀ (k : Fin 128) (j : Fin 1024), xs3 (ix2 k j) = W.wih k j * sc j)
    (hwh : ∀ (k : Fin 256) (j : Fin 1024), xs4 (ix2 k j) = W.whh k j * sc j)
    (hwl : ∀ (k : Fin 256) (j : Fin 128), x4 (ix2 k j) = W.wlin k j) (hbl : ∀ j : Fin 128, x5 (ix2 (0 : Fin 1) j) = W.blin j)
    (r : Fin 256) (q : Fin 128) :
    out0_C_6 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4 (ix2 (⟨r.val, by omega⟩ : Fin 512) q)
      = Cert.Lstm.headOut W (Cert.Lstm.run W (fun k q => x0 (ix3 (⟨r.val, by omega⟩ : Fin 512) (⟨k % 16, Nat.mod_lt _ (by norm_num)⟩ : Fin 16) q)) 16 ((fun q => xs1 (ix2 (⟨r.val, by omega⟩ : Fin 512) q), fun q => xs2 (ix2 (⟨r.val, by omega⟩ : Fin 512) q)) : Cert.Lstm.St)).1 q := by
  have hbs : ∀ j : Fin 1024, (k0_pay4 (View.readAt (Elt Ideal) arg5.view (Rect.unit (s := S1x1024) ![0, 0] S1x1024.size inb_S1x1024_S1x1024_0_0).toLoadRect (harg5.unread x3))) (ix2 (0 : Fin 1) j) = W.b j * sc j := fun j => by
    rw [pay4_apply, load_whole arg5 harg5 zero2 inb_S1x1024_S1x1024_0_0 x3, hb]
  have hwi' : ∀ (k : Fin 128) (j : Fin 1024), (View.readAt (Elt Ideal) arg12.view (Rect.unit (s := S128x1024) ![0, 0] S128x1024.size inb_S128x1024_S128x1024_0_0).toLoadRect (harg12.unread xs3)) (ix2 k j) = W.wih k j * sc j := fun k j => by
    rw [load_whole arg12 harg12 zero2 inb_S128x1024_S128x1024_0_0 xs3]; exact hwi k j
  have hwh' : ∀ (k : Fin 256) (j : Fin 1024), (View.readAt (Elt Ideal) arg13.view (Rect.unit (s := S256x1024) ![0, 0] S256x1024.size inb_S256x1024_S256x1024_0_0).toLoadRect (harg13.unread xs4)) (ix2 k j) = W.whh k j * sc j := fun k j => by
    rw [load_whole arg13 harg13 zero2 inb_S256x1024_S256x1024_0_0 xs4]; exact hwh k j
  have key := steps_row W (k0_pay4 (View.readAt (Elt Ideal) arg5.view (Rect.unit (s := S1x1024) ![0, 0] S1x1024.size inb_S1x1024_S1x1024_0_0).toLoadRect (harg5.unread x3))) (View.readAt (Elt Ideal) arg12.view (Rect.unit (s := S128x1024) ![0, 0] S128x1024.size inb_S128x1024_S128x1024_0_0).toLoadRect (harg12.unread xs3)) (View.readAt (Elt Ideal) arg13.view (Rect.unit (s := S256x1024) ![0, 0] S256x1024.size inb_S256x1024_S256x1024_0_0).toLoadRect (harg13.unread xs4)) hbs hwi' hwh'
    (fun k => Cell.xGroup0 (xkRaw (F := Ideal) arg2 harg2 arg9 x0 k)) 16 ((View.readAt (Elt Ideal) arg10.view (Rect.unit (s := S512x256) ![0, 0] S256x256.size inb_S512x256_S256x256_0_0).toLoadRect (harg10.unread xs1)), (View.readAt (Elt Ideal) arg11.view (Rect.unit (s := S512x256) ![0, 0] S256x256.size inb_S512x256_S256x256_0_0).toLoadRect (harg11.unread xs2))) r
  have hin : ∀ t, t < 16 → (fun q => Cell.xGroup0 (xkRaw (F := Ideal) arg2 harg2 arg9 x0 t) (ix2 r q)) = (fun k q => x0 (ix3 (⟨r.val, by omega⟩ : Fin 512) (⟨k % 16, Nat.mod_lt _ (by norm_num)⟩ : Fin 16) q)) t := fun t ht => funext fun q => by
    rw [xGroup0_apply, xkRaw_apply arg2 harg2 arg9 x0 t ht, pay9_apply]
    have e : (⟨t, ht⟩ : Fin 16) = ⟨t % 16, Nat.mod_lt _ (by norm_num)⟩ := Fin.ext (Nat.mod_eq_of_lt ht).symm
    rw [e]
  have hs : rowSt ((View.readAt (Elt Ideal) arg10.view (Rect.unit (s := S512x256) ![0, 0] S256x256.size inb_S512x256_S256x256_0_0).toLoadRect (harg10.unread xs1)), (View.readAt (Elt Ideal) arg11.view (Rect.unit (s := S512x256) ![0, 0] S256x256.size inb_S512x256_S256x256_0_0).toLoadRect (harg11.unread xs2))) r = ((fun q => xs1 (ix2 (⟨r.val, by omega⟩ : Fin 512) q), fun q => xs2 (ix2 (⟨r.val, by omega⟩ : Fin 512) q)) : Cert.Lstm.St) :=
    Prod.ext (funext fun q => (load_rows arg10 harg10 0 inb_S512x256_S256x256_0_0 xs1 r q (by omega)).trans (by simp only [Nat.zero_add]))
      (funext fun q => (load_rows arg11 harg11 0 inb_S512x256_S256x256_0_0 xs2 r q (by omega)).trans (by simp only [Nat.zero_add]))
  rw [Cert.Lstm.run_congr W _ (fun k q => x0 (ix3 (⟨r.val, by omega⟩ : Fin 512) (⟨k % 16, Nat.mod_lt _ (by norm_num)⟩ : Fin 16) q)) 16 hin, hs] at key
  rw [← key, output_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4]
  refine (Cert.RowGroups.canon_lower (C := 128) _ _ _ _ _ r q (by omega)).trans ?_
  refine (head_apply W (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5)) (fun k j => by rw [load_whole arg6 harg6 zero2 inb_S256x128_S256x128_0_0 x4]; exact hwl k j)
    (fun j => by rw [load_whole arg7 harg7 zero2 inb_S1x128_S1x128_0_0 x5]; exact hbl j) _ r q).trans ?_
  rfl

/-- Case C, upper group: row r of the output block is the final layer on row r's hidden state after the point's sixteen steps. -/
theorem out_C_upper (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : ¬cond0_0 i) (hc1 : cond0_1 i) (x0 : Vec Ideal S512x16x128 .f32) (x1 : Vec Ideal S128x1024 .bf16) (x2 : Vec Ideal S256x1024 .bf16) (x3 : Vec Ideal S1x1024 .f32) (x4 : Vec Ideal S256x128 .bf16) (x5 : Vec Ideal S1x128 .f32) (xs1 : Vec Ideal S512x256 .f32) (xs2 : Vec Ideal S512x256 .f32) (xs3 : Vec Ideal S128x1024 .bf16) (xs4 : Vec Ideal S256x1024 .bf16) (W : Cert.Lstm.Weights)
    (hb : ∀ j : Fin 1024, x3 (ix2 (0 : Fin 1) j) = W.b j)
    (hwi : ∀ (k : Fin 128) (j : Fin 1024), xs3 (ix2 k j) = W.wih k j * sc j)
    (hwh : ∀ (k : Fin 256) (j : Fin 1024), xs4 (ix2 k j) = W.whh k j * sc j)
    (hwl : ∀ (k : Fin 256) (j : Fin 128), x4 (ix2 k j) = W.wlin k j) (hbl : ∀ j : Fin 128, x5 (ix2 (0 : Fin 1) j) = W.blin j)
    (r : Fin 256) (q : Fin 128) :
    out0_C_6 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4 (ix2 (⟨256 + r.val, by omega⟩ : Fin 512) q)
      = Cert.Lstm.headOut W (Cert.Lstm.run W (fun k q => x0 (ix3 (⟨256 + r.val, by omega⟩ : Fin 512) (⟨k % 16, Nat.mod_lt _ (by norm_num)⟩ : Fin 16) q)) 16 ((fun q => xs1 (ix2 (⟨256 + r.val, by omega⟩ : Fin 512) q), fun q => xs2 (ix2 (⟨256 + r.val, by omega⟩ : Fin 512) q)) : Cert.Lstm.St)).1 q := by
  have hbs : ∀ j : Fin 1024, (k0_pay4 (View.readAt (Elt Ideal) arg5.view (Rect.unit (s := S1x1024) ![0, 0] S1x1024.size inb_S1x1024_S1x1024_0_0).toLoadRect (harg5.unread x3))) (ix2 (0 : Fin 1) j) = W.b j * sc j := fun j => by
    rw [pay4_apply, load_whole arg5 harg5 zero2 inb_S1x1024_S1x1024_0_0 x3, hb]
  have hwi' : ∀ (k : Fin 128) (j : Fin 1024), (View.readAt (Elt Ideal) arg12.view (Rect.unit (s := S128x1024) ![0, 0] S128x1024.size inb_S128x1024_S128x1024_0_0).toLoadRect (harg12.unread xs3)) (ix2 k j) = W.wih k j * sc j := fun k j => by
    rw [load_whole arg12 harg12 zero2 inb_S128x1024_S128x1024_0_0 xs3]; exact hwi k j
  have hwh' : ∀ (k : Fin 256) (j : Fin 1024), (View.readAt (Elt Ideal) arg13.view (Rect.unit (s := S256x1024) ![0, 0] S256x1024.size inb_S256x1024_S256x1024_0_0).toLoadRect (harg13.unread xs4)) (ix2 k j) = W.whh k j * sc j := fun k j => by
    rw [load_whole arg13 harg13 zero2 inb_S256x1024_S256x1024_0_0 xs4]; exact hwh k j
  have key := steps_row W (k0_pay4 (View.readAt (Elt Ideal) arg5.view (Rect.unit (s := S1x1024) ![0, 0] S1x1024.size inb_S1x1024_S1x1024_0_0).toLoadRect (harg5.unread x3))) (View.readAt (Elt Ideal) arg12.view (Rect.unit (s := S128x1024) ![0, 0] S128x1024.size inb_S128x1024_S128x1024_0_0).toLoadRect (harg12.unread xs3)) (View.readAt (Elt Ideal) arg13.view (Rect.unit (s := S256x1024) ![0, 0] S256x1024.size inb_S256x1024_S256x1024_0_0).toLoadRect (harg13.unread xs4)) hbs hwi' hwh'
    (fun k => Cell.xGroup1 (xkRaw (F := Ideal) arg2 harg2 arg9 x0 k)) 16 ((View.readAt (Elt Ideal) arg10.view (Rect.unit (s := S512x256) ![256, 0] S256x256.size inb_S512x256_S256x256_256_0).toLoadRect (harg10.unread xs1)), (View.readAt (Elt Ideal) arg11.view (Rect.unit (s := S512x256) ![256, 0] S256x256.size inb_S512x256_S256x256_256_0).toLoadRect (harg11.unread xs2))) r
  have hin : ∀ t, t < 16 → (fun q => Cell.xGroup1 (xkRaw (F := Ideal) arg2 harg2 arg9 x0 t) (ix2 r q)) = (fun k q => x0 (ix3 (⟨256 + r.val, by omega⟩ : Fin 512) (⟨k % 16, Nat.mod_lt _ (by norm_num)⟩ : Fin 16) q)) t := fun t ht => funext fun q => by
    rw [xGroup1_apply, xkRaw_apply arg2 harg2 arg9 x0 t ht, pay9_apply]
    have e : (⟨t, ht⟩ : Fin 16) = ⟨t % 16, Nat.mod_lt _ (by norm_num)⟩ := Fin.ext (Nat.mod_eq_of_lt ht).symm
    rw [e]
  have hs : rowSt ((View.readAt (Elt Ideal) arg10.view (Rect.unit (s := S512x256) ![256, 0] S256x256.size inb_S512x256_S256x256_256_0).toLoadRect (harg10.unread xs1)), (View.readAt (Elt Ideal) arg11.view (Rect.unit (s := S512x256) ![256, 0] S256x256.size inb_S512x256_S256x256_256_0).toLoadRect (harg11.unread xs2))) r = ((fun q => xs1 (ix2 (⟨256 + r.val, by omega⟩ : Fin 512) q), fun q => xs2 (ix2 (⟨256 + r.val, by omega⟩ : Fin 512) q)) : Cert.Lstm.St) :=
    Prod.ext (funext fun q => load_rows arg10 harg10 256 inb_S512x256_S256x256_256_0 xs1 r q (by omega))
      (funext fun q => load_rows arg11 harg11 256 inb_S512x256_S256x256_256_0 xs2 r q (by omega))
  rw [Cert.Lstm.run_congr W _ (fun k q => x0 (ix3 (⟨256 + r.val, by omega⟩ : Fin 512) (⟨k % 16, Nat.mod_lt _ (by norm_num)⟩ : Fin 16) q)) 16 hin, hs] at key
  rw [← key, output_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs1 xs2 xs3 xs4]
  refine (Cert.RowGroups.canon_upper (C := 128) _ _ _ r q (by omega)).trans ?_
  refine (head_apply W (View.readAt (Elt Ideal) arg6.view (Rect.unit (s := S256x128) ![0, 0] S256x128.size inb_S256x128_S256x128_0_0).toLoadRect (harg6.unread x4)) (View.readAt (Elt Ideal) arg7.view (Rect.unit (s := S1x128) ![0, 0] S1x128.size inb_S1x128_S1x128_0_0).toLoadRect (harg7.unread x5)) (fun k j => by rw [load_whole arg6 harg6 zero2 inb_S256x128_S256x128_0_0 x4]; exact hwl k j)
    (fun j => by rw [load_whole arg7 harg7 zero2 inb_S1x128_S1x128_0_0 x5]; exact hbl j) _ r q).trans ?_
  rfl

end Cert.KernelIdeal.KValue

end
-- ==== Proof.KRowA.lean ====
/-
  Rows of the carried state after the first grid point of a block: the (hidden, cell) pair starts at
  zero, the two scaled weight operands are computed at this point from the weights themselves (each
  column times the column scale) and kept for the block's later points; row r of each 256-row group
  of the pair is then sixteen steps of the recurrence from the zero state on row r of the sixteen
  time slabs of the point's input block.
-/
import proofs.«157242_g2000404025908667_pallasbulk_280_33_alg».proof.Proof.KRowBC

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.CellValue

/-- The hidden state's initial fill is zero everywhere. -/
theorem pay7_apply (y : S512x256.Idx) : k0_pay7 (F := Ideal) y = 0 := by
  unfold k0_pay7
  rw [shapeCast_self]
  exact ofBits_zero

/-- The cell state's initial fill is zero everywhere. -/
theorem pay8_apply (y : S512x256.Idx) : k0_pay8 (F := Ideal) y = 0 := by
  unfold k0_pay8
  rw [shapeCast_self]
  exact ofBits_zero

/-- Case A, lower group: row r of the state pair after the block's first point is sixteen steps from zero. -/
theorem rows_A_lower (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : cond0_0 i) (hc1 : ¬cond0_1 i) (x0 : Vec Ideal S512x16x128 .f32) (x1 : Vec Ideal S128x1024 .bf16) (x2 : Vec Ideal S256x1024 .bf16) (x3 : Vec Ideal S1x1024 .f32) (x4 : Vec Ideal S256x128 .bf16) (x5 : Vec Ideal S1x128 .f32) (W : Cert.Lstm.Weights)
    (hb : ∀ j : Fin 1024, x3 (ix2 (0 : Fin 1) j) = W.b j)
    (hx1 : ∀ (k : Fin 128) (j : Fin 1024), x1 (ix2 k j) = W.wih k j)
    (hx2 : ∀ (k : Fin 256) (j : Fin 1024), x2 (ix2 k j) = W.whh k j) (r : Fin 256) :
    ((fun q => sout0_A_1 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 (ix2 (⟨r.val, by omega⟩ : Fin 512) q), fun q => sout0_A_2 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 (ix2 (⟨r.val, by omega⟩ : Fin 512) q)) : Cert.Lstm.St)
      = Cert.Lstm.run W (fun k q => x0 (ix3 (⟨r.val, by omega⟩ : Fin 512) (⟨k % 16, Nat.mod_lt _ (by norm_num)⟩ : Fin 16) q)) 16 Cert.Lstm.zero := by
  have hbs : ∀ j : Fin 1024, (k0_pay4 (View.readAt (Elt Ideal) arg5.view (Rect.unit (s := S1x1024) ![0, 0] S1x1024.size inb_S1x1024_S1x1024_0_0).toLoadRect (harg5.unread x3))) (ix2 (0 : Fin 1) j) = W.b j * sc j := fun j => by
    rw [pay4_apply, load_whole arg5 harg5 zero2 inb_S1x1024_S1x1024_0_0 x3, hb]
  have hwi' : ∀ (k : Fin 128) (j : Fin 1024), ((arg12.view.readCov (Val := Elt Ideal) [⟨Rect.unit (s := S128x1024) ![0, 0] S128x1024.size inb_S128x1024_S128x1024_0_0, k0_pay5 (F := Ideal) (View.readAt (Elt Ideal) arg3.view (Rect.unit (s := S128x1024) ![0, 0] S128x1024.size inb_S128x1024_S128x1024_0_0).toLoadRect (harg3.unread x1))⟩] (Rect.unit (s := S128x1024) ![0, 0] S128x1024.size inb_S128x1024_S128x1024_0_0).toLoadRect : FVec Ideal S128x1024 .bf16)) (ix2 k j) = W.wih k j * sc j := fun k j => by
    rw [View.readCov_unit_zero _ zero2 inb_S128x1024_S128x1024_0_0, pay5_apply, load_whole arg3 harg3 zero2 inb_S128x1024_S128x1024_0_0 x1, hx1]
  have hwh' : ∀ (k : Fin 256) (j : Fin 1024), ((arg13.view.readCov (Val := Elt Ideal) [⟨Rect.unit (s := S256x1024) ![0, 0] S256x1024.size inb_S256x1024_S256x1024_0_0, k0_pay6 (F := Ideal) (View.readAt (Elt Ideal) arg4.view (Rect.unit (s := S256x1024) ![0, 0] S256x1024.size inb_S256x1024_S256x1024_0_0).toLoadRect (harg4.unread x2))⟩] (Rect.unit (s := S256x1024) ![0, 0] S256x1024.size inb_S256x1024_S256x1024_0_0).toLoadRect : FVec Ideal S256x1024 .bf16)) (ix2 k j) = W.whh k j * sc j := fun k j => by
    rw [View.readCov_unit_zero _ zero2 inb_S256x1024_S256x1024_0_0, pay6_apply, load_whole arg4 harg4 zero2 inb_S256x1024_S256x1024_0_0 x2, hx2]
  have key := steps_row W (k0_pay4 (View.readAt (Elt Ideal) arg5.view (Rect.unit (s := S1x1024) ![0, 0] S1x1024.size inb_S1x1024_S1x1024_0_0).toLoadRect (harg5.unread x3))) ((arg12.view.readCov (Val := Elt Ideal) [⟨Rect.unit (s := S128x1024) ![0, 0] S128x1024.size inb_S128x1024_S128x1024_0_0, k0_pay5 (F := Ideal) (View.readAt (Elt Ideal) arg3.view (Rect.unit (s := S128x1024) ![0, 0] S128x1024.size inb_S128x1024_S128x1024_0_0).toLoadRect (harg3.unread x1))⟩] (Rect.unit (s := S128x1024) ![0, 0] S128x1024.size inb_S128x1024_S128x1024_0_0).toLoadRect : FVec Ideal S128x1024 .bf16)) ((arg13.view.readCov (Val := Elt Ideal) [⟨Rect.unit (s := S256x1024) ![0, 0] S256x1024.size inb_S256x1024_S256x1024_0_0, k0_pay6 (F := Ideal) (View.readAt (Elt Ideal) arg4.view (Rect.unit (s := S256x1024) ![0, 0] S256x1024.size inb_S256x1024_S256x1024_0_0).toLoadRect (harg4.unread x2))⟩] (Rect.unit (s := S256x1024) ![0, 0] S256x1024.size inb_S256x1024_S256x1024_0_0).toLoadRect : FVec Ideal S256x1024 .bf16)) hbs hwi' hwh'
    (fun k => Cell.xGroup0 (xkRaw (F := Ideal) arg2 harg2 arg9 x0 k)) 16 (((arg10.view.readCov (Val := Elt Ideal) [⟨Rect.unit (s := S512x256) ![0, 0] S512x256.size inb_S512x256_S512x256_0_0, k0_pay7 (F := Ideal)⟩] (Rect.unit (s := S512x256) ![0, 0] S256x256.size inb_S512x256_S256x256_0_0).toLoadRect : FVec Ideal S256x256 .f32)), ((arg11.view.readCov (Val := Elt Ideal) [⟨Rect.unit (s := S512x256) ![0, 0] S512x256.size inb_S512x256_S512x256_0_0, k0_pay8 (F := Ideal)⟩] (Rect.unit (s := S512x256) ![0, 0] S256x256.size inb_S512x256_S256x256_0_0).toLoadRect : FVec Ideal S256x256 .f32))) r
  have hin : ∀ t, t < 16 → (fun q => Cell.xGroup0 (xkRaw (F := Ideal) arg2 harg2 arg9 x0 t) (ix2 r q)) = (fun k q => x0 (ix3 (⟨r.val, by omega⟩ : Fin 512) (⟨k % 16, Nat.mod_lt _ (by norm_num)⟩ : Fin 16) q)) t := fun t ht => funext fun q => by
    rw [xGroup0_apply, xkRaw_apply arg2 harg2 arg9 x0 t ht, pay9_apply]
    have e : (⟨t, ht⟩ : Fin 16) = ⟨t % 16, Nat.mod_lt _ (by norm_num)⟩ := Fin.ext (Nat.mod_eq_of_lt ht).symm
    rw [e]
  have hs : rowSt (((arg10.view.readCov (Val := Elt Ideal) [⟨Rect.unit (s := S512x256) ![0, 0] S512x256.size inb_S512x256_S512x256_0_0, k0_pay7 (F := Ideal)⟩] (Rect.unit (s := S512x256) ![0, 0] S256x256.size inb_S512x256_S256x256_0_0).toLoadRect : FVec Ideal S256x256 .f32)), ((arg11.view.readCov (Val := Elt Ideal) [⟨Rect.unit (s := S512x256) ![0, 0] S512x256.size inb_S512x256_S512x256_0_0, k0_pay8 (F := Ideal)⟩] (Rect.unit (s := S512x256) ![0, 0] S256x256.size inb_S512x256_S256x256_0_0).toLoadRect : FVec Ideal S256x256 .f32))) r = Cert.Lstm.zero := by
    refine Prod.ext (funext fun q => ?_) (funext fun q => ?_)
    · show ((arg10.view.readCov (Val := Elt Ideal) [⟨Rect.unit (s := S512x256) ![0, 0] S512x256.size inb_S512x256_S512x256_0_0, k0_pay7 (F := Ideal)⟩] (Rect.unit (s := S512x256) ![0, 0] S256x256.size inb_S512x256_S256x256_0_0).toLoadRect : FVec Ideal S256x256 .f32)) (ix2 r q) = (0 : EReal)
      rw [load_rows_filled (F := Ideal) arg10 0 inb_S512x256_S512x256_0_0 inb_S512x256_S256x256_0_0 (k0_pay7 (F := Ideal)) r q (by omega)]
      exact pay7_apply _
    · show ((arg11.view.readCov (Val := Elt Ideal) [⟨Rect.unit (s := S512x256) ![0, 0] S512x256.size inb_S512x256_S512x256_0_0, k0_pay8 (F := Ideal)⟩] (Rect.unit (s := S512x256) ![0, 0] S256x256.size inb_S512x256_S256x256_0_0).toLoadRect : FVec Ideal S256x256 .f32)) (ix2 r q) = (0 : EReal)
      rw [load_rows_filled (F := Ideal) arg11 0 inb_S512x256_S512x256_0_0 inb_S512x256_S256x256_0_0 (k0_pay8 (F := Ideal)) r q (by omega)]
      exact pay8_apply _
  rw [Cert.Lstm.run_congr W _ (fun k q => x0 (ix3 (⟨r.val, by omega⟩ : Fin 512) (⟨k % 16, Nat.mod_lt _ (by norm_num)⟩ : Fin 16) q)) 16 hin, hs] at key
  rw [← key, hidden_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5, cellst_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5]
  refine Prod.ext (funext fun q => ?_) (funext fun q => ?_)
  · refine (Cert.RowGroups.canon_lower (C := 256) _ _ _ _ _ r q (by omega)).trans ?_
    exact congrFun (shapeCast_self _ _) _
  · refine (Cert.RowGroups.canon_lower (C := 256) _ _ _ _ _ r q (by omega)).trans ?_
    exact congrFun (shapeCast_self _ _) _

/-- Case A, upper group: row r of the state pair after the block's first point is sixteen steps from zero. -/
theorem rows_A_upper (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : cond0_0 i) (hc1 : ¬cond0_1 i) (x0 : Vec Ideal S512x16x128 .f32) (x1 : Vec Ideal S128x1024 .bf16) (x2 : Vec Ideal S256x1024 .bf16) (x3 : Vec Ideal S1x1024 .f32) (x4 : Vec Ideal S256x128 .bf16) (x5 : Vec Ideal S1x128 .f32) (W : Cert.Lstm.Weights)
    (hb : ∀ j : Fin 1024, x3 (ix2 (0 : Fin 1) j) = W.b j)
    (hx1 : ∀ (k : Fin 128) (j : Fin 1024), x1 (ix2 k j) = W.wih k j)
    (hx2 : ∀ (k : Fin 256) (j : Fin 1024), x2 (ix2 k j) = W.whh k j) (r : Fin 256) :
    ((fun q => sout0_A_1 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 (ix2 (⟨256 + r.val, by omega⟩ : Fin 512) q), fun q => sout0_A_2 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 (ix2 (⟨256 + r.val, by omega⟩ : Fin 512) q)) : Cert.Lstm.St)
      = Cert.Lstm.run W (fun k q => x0 (ix3 (⟨256 + r.val, by omega⟩ : Fin 512) (⟨k % 16, Nat.mod_lt _ (by norm_num)⟩ : Fin 16) q)) 16 Cert.Lstm.zero := by
  have hbs : ∀ j : Fin 1024, (k0_pay4 (View.readAt (Elt Ideal) arg5.view (Rect.unit (s := S1x1024) ![0, 0] S1x1024.size inb_S1x1024_S1x1024_0_0).toLoadRect (harg5.unread x3))) (ix2 (0 : Fin 1) j) = W.b j * sc j := fun j => by
    rw [pay4_apply, load_whole arg5 harg5 zero2 inb_S1x1024_S1x1024_0_0 x3, hb]
  have hwi' : ∀ (k : Fin 128) (j : Fin 1024), ((arg12.view.readCov (Val := Elt Ideal) [⟨Rect.unit (s := S128x1024) ![0, 0] S128x1024.size inb_S128x1024_S128x1024_0_0, k0_pay5 (F := Ideal) (View.readAt (Elt Ideal) arg3.view (Rect.unit (s := S128x1024) ![0, 0] S128x1024.size inb_S128x1024_S128x1024_0_0).toLoadRect (harg3.unread x1))⟩] (Rect.unit (s := S128x1024) ![0, 0] S128x1024.size inb_S128x1024_S128x1024_0_0).toLoadRect : FVec Ideal S128x1024 .bf16)) (ix2 k j) = W.wih k j * sc j := fun k j => by
    rw [View.readCov_unit_zero _ zero2 inb_S128x1024_S128x1024_0_0, pay5_apply, load_whole arg3 harg3 zero2 inb_S128x1024_S128x1024_0_0 x1, hx1]
  have hwh' : ∀ (k : Fin 256) (j : Fin 1024), ((arg13.view.readCov (Val := Elt Ideal) [⟨Rect.unit (s := S256x1024) ![0, 0] S256x1024.size inb_S256x1024_S256x1024_0_0, k0_pay6 (F := Ideal) (View.readAt (Elt Ideal) arg4.view (Rect.unit (s := S256x1024) ![0, 0] S256x1024.size inb_S256x1024_S256x1024_0_0).toLoadRect (harg4.unread x2))⟩] (Rect.unit (s := S256x1024) ![0, 0] S256x1024.size inb_S256x1024_S256x1024_0_0).toLoadRect : FVec Ideal S256x1024 .bf16)) (ix2 k j) = W.whh k j * sc j := fun k j => by
    rw [View.readCov_unit_zero _ zero2 inb_S256x1024_S256x1024_0_0, pay6_apply, load_whole arg4 harg4 zero2 inb_S256x1024_S256x1024_0_0 x2, hx2]
  have key := steps_row W (k0_pay4 (View.readAt (Elt Ideal) arg5.view (Rect.unit (s := S1x1024) ![0, 0] S1x1024.size inb_S1x1024_S1x1024_0_0).toLoadRect (harg5.unread x3))) ((arg12.view.readCov (Val := Elt Ideal) [⟨Rect.unit (s := S128x1024) ![0, 0] S128x1024.size inb_S128x1024_S128x1024_0_0, k0_pay5 (F := Ideal) (View.readAt (Elt Ideal) arg3.view (Rect.unit (s := S128x1024) ![0, 0] S128x1024.size inb_S128x1024_S128x1024_0_0).toLoadRect (harg3.unread x1))⟩] (Rect.unit (s := S128x1024) ![0, 0] S128x1024.size inb_S128x1024_S128x1024_0_0).toLoadRect : FVec Ideal S128x1024 .bf16)) ((arg13.view.readCov (Val := Elt Ideal) [⟨Rect.unit (s := S256x1024) ![0, 0] S256x1024.size inb_S256x1024_S256x1024_0_0, k0_pay6 (F := Ideal) (View.readAt (Elt Ideal) arg4.view (Rect.unit (s := S256x1024) ![0, 0] S256x1024.size inb_S256x1024_S256x1024_0_0).toLoadRect (harg4.unread x2))⟩] (Rect.unit (s := S256x1024) ![0, 0] S256x1024.size inb_S256x1024_S256x1024_0_0).toLoadRect : FVec Ideal S256x1024 .bf16)) hbs hwi' hwh'
    (fun k => Cell.xGroup1 (xkRaw (F := Ideal) arg2 harg2 arg9 x0 k)) 16 (((arg10.view.readCov (Val := Elt Ideal) [⟨Rect.unit (s := S512x256) ![0, 0] S512x256.size inb_S512x256_S512x256_0_0, k0_pay7 (F := Ideal)⟩] (Rect.unit (s := S512x256) ![256, 0] S256x256.size inb_S512x256_S256x256_256_0).toLoadRect : FVec Ideal S256x256 .f32)), ((arg11.view.readCov (Val := Elt Ideal) [⟨Rect.unit (s := S512x256) ![0, 0] S512x256.size inb_S512x256_S512x256_0_0, k0_pay8 (F := Ideal)⟩] (Rect.unit (s := S512x256) ![256, 0] S256x256.size inb_S512x256_S256x256_256_0).toLoadRect : FVec Ideal S256x256 .f32))) r
  have hin : ∀ t, t < 16 → (fun q => Cell.xGroup1 (xkRaw (F := Ideal) arg2 harg2 arg9 x0 t) (ix2 r q)) = (fun k q => x0 (ix3 (⟨256 + r.val, by omega⟩ : Fin 512) (⟨k % 16, Nat.mod_lt _ (by norm_num)⟩ : Fin 16) q)) t := fun t ht => funext fun q => by
    rw [xGroup1_apply, xkRaw_apply arg2 harg2 arg9 x0 t ht, pay9_apply]
    have e : (⟨t, ht⟩ : Fin 16) = ⟨t % 16, Nat.mod_lt _ (by norm_num)⟩ := Fin.ext (Nat.mod_eq_of_lt ht).symm
    rw [e]
  have hs : rowSt (((arg10.view.readCov (Val := Elt Ideal) [⟨Rect.unit (s := S512x256) ![0, 0] S512x256.size inb_S512x256_S512x256_0_0, k0_pay7 (F := Ideal)⟩] (Rect.unit (s := S512x256) ![256, 0] S256x256.size inb_S512x256_S256x256_256_0).toLoadRect : FVec Ideal S256x256 .f32)), ((arg11.view.readCov (Val := Elt Ideal) [⟨Rect.unit (s := S512x256) ![0, 0] S512x256.size inb_S512x256_S512x256_0_0, k0_pay8 (F := Ideal)⟩] (Rect.unit (s := S512x256) ![256, 0] S256x256.size inb_S512x256_S256x256_256_0).toLoadRect : FVec Ideal S256x256 .f32))) r = Cert.Lstm.zero := by
    refine Prod.ext (funext fun q => ?_) (funext fun q => ?_)
    · show ((arg10.view.readCov (Val := Elt Ideal) [⟨Rect.unit (s := S512x256) ![0, 0] S512x256.size inb_S512x256_S512x256_0_0, k0_pay7 (F := Ideal)⟩] (Rect.unit (s := S512x256) ![256, 0] S256x256.size inb_S512x256_S256x256_256_0).toLoadRect : FVec Ideal S256x256 .f32)) (ix2 r q) = (0 : EReal)
      rw [load_rows_filled (F := Ideal) arg10 256 inb_S512x256_S512x256_0_0 inb_S512x256_S256x256_256_0 (k0_pay7 (F := Ideal)) r q (by omega)]
      exact pay7_apply _
    · show ((arg11.view.readCov (Val := Elt Ideal) [⟨Rect.unit (s := S512x256) ![0, 0] S512x256.size inb_S512x256_S512x256_0_0, k0_pay8 (F := Ideal)⟩] (Rect.unit (s := S512x256) ![256, 0] S256x256.size inb_S512x256_S256x256_256_0).toLoadRect : FVec Ideal S256x256 .f32)) (ix2 r q) = (0 : EReal)
      rw [load_rows_filled (F := Ideal) arg11 256 inb_S512x256_S512x256_0_0 inb_S512x256_S256x256_256_0 (k0_pay8 (F := Ideal)) r q (by omega)]
      exact pay8_apply _
  rw [Cert.Lstm.run_congr W _ (fun k q => x0 (ix3 (⟨256 + r.val, by omega⟩ : Fin 512) (⟨k % 16, Nat.mod_lt _ (by norm_num)⟩ : Fin 16) q)) 16 hin, hs] at key
  rw [← key, hidden_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5, cellst_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5]
  refine Prod.ext (funext fun q => ?_) (funext fun q => ?_)
  · refine (Cert.RowGroups.canon_upper (C := 256) _ _ _ r q (by omega)).trans ?_
    exact congrFun (shapeCast_self _ _) _
  · refine (Cert.RowGroups.canon_upper (C := 256) _ _ _ r q (by omega)).trans ?_
    exact congrFun (shapeCast_self _ _) _

/-- Case A: the scaled input-projection operand it leaves holds the weights' columns times the column scale. -/
theorem wih_A_apply (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : cond0_0 i) (hc1 : ¬cond0_1 i) (x0 : Vec Ideal S512x16x128 .f32) (x1 : Vec Ideal S128x1024 .bf16) (x2 : Vec Ideal S256x1024 .bf16) (x3 : Vec Ideal S1x1024 .f32) (x4 : Vec Ideal S256x128 .bf16) (x5 : Vec Ideal S1x128 .f32) (W : Cert.Lstm.Weights)
    (hx1 : ∀ (k : Fin 128) (j : Fin 1024), x1 (ix2 k j) = W.wih k j) (k : Fin 128) (j : Fin 1024) :
    sout0_A_3 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 (ix2 k j) = W.wih k j * sc j := by
  rw [wih_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5, View.canon_unit_zero zero2 inb_S128x1024_S128x1024_0_0, pay5_apply,
    load_whole arg3 harg3 zero2 inb_S128x1024_S128x1024_0_0 x1, hx1]

/-- Case A: the scaled hidden-projection operand it leaves holds the weights' columns times the column scale. -/
theorem whh_A_apply (c : Dev nD) (i : grid0.Coords) (arg2 : Memref sig .tc .vmem S512x16x128 .f32) (harg2 : arg2.IsWhole) (arg3 : Memref sig .tc .vmem S128x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S512x128 .f32) (harg8 : arg8.IsWhole) (arg9 : Memref sig .tc .vmem S16x512x128 .bf16) (harg9 : arg9.IsWhole) (arg10 : Memref sig .tc .vmem S512x256 .f32) (harg10 : arg10.IsWhole) (arg11 : Memref sig .tc .vmem S512x256 .f32) (harg11 : arg11.IsWhole) (arg12 : Memref sig .tc .vmem S128x1024 .bf16) (harg12 : arg12.IsWhole) (arg13 : Memref sig .tc .vmem S256x1024 .bf16) (harg13 : arg13.IsWhole) (hc0 : cond0_0 i) (hc1 : ¬cond0_1 i) (x0 : Vec Ideal S512x16x128 .f32) (x1 : Vec Ideal S128x1024 .bf16) (x2 : Vec Ideal S256x1024 .bf16) (x3 : Vec Ideal S1x1024 .f32) (x4 : Vec Ideal S256x128 .bf16) (x5 : Vec Ideal S1x128 .f32) (W : Cert.Lstm.Weights)
    (hx2 : ∀ (k : Fin 256) (j : Fin 1024), x2 (ix2 k j) = W.whh k j) (k : Fin 256) (j : Fin 1024) :
    sout0_A_4 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 (ix2 k j) = W.whh k j * sc j := by
  rw [whh_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5, View.canon_unit_zero zero2 inb_S256x1024_S256x1024_0_0, pay6_apply,
    load_whole arg4 harg4 zero2 inb_S256x1024_S256x1024_0_0 x2, hx2]

end Cert.KernelIdeal.KValue

end
-- ==== Proof.KGeomIn.lean ====
/-
  The kernel program's input blocks at a grid point, read at an index: point t of the 2 × 4 grid is
  batch block t / 4 and time chunk t % 4, so the input's block holds rows 512·(t / 4) … of the batch
  and steps 16·(t % 4) … of the sequence; each weight and bias block is the whole array.
-/
import proofs.«157242_g2000404025908667_pallasbulk_280_33_alg».proof.Proof.Gen.KernelIdeal.Frame
import Idealize.ShloMosaic.Lib.ValueIdx

set_option maxRecDepth 16384

noncomputable section

namespace Cert.KernelIdeal.KGeom

open Cert.KernelIdeal Cert.KernelIdeal.Gen Idealize.ShloMosaic Idealize.ShloMosaic.TcCoe Idealize.ShloMosaic.ValueIdx
open Idealize.SL.Sem

variable {F : FTy → Type} [FloatOps F]
variable (m : (ℓ : Loc nD τ sig) → Buf (Elt F) ℓ)

/-- A grid point's number is below 8. -/
theorem lt8 (t : Fin cfg0.N) : t.val < 8 := lt_of_lt_of_eq t.isLt N_0

/-- The input windows' block indices over the grid: the sequence input moves with (t / 4, t % 4, 0);
    the weights and biases stay at block (0, 0). -/
theorem idx_in : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The sequence input's block at point t: batch rows from 512·(t / 4), steps from 16·(t % 4). -/
theorem iblk0_apply (c : Dev nD) (t : Fin cfg0.N) (b : Fin 512) (k : Fin 16) (q : Fin 128) :
    iblk m c 0 t (ix3 b k q)
      = V m c main_arg0 (ix3 (⟨512 * (t.val / 4) + b.val, by have := lt8 t; omega⟩ : Fin 1024)
          (⟨16 * (t.val % 4) + k.val, by omega⟩ : Fin 64) q) := by
  obtain ⟨e0, e1, e2, -⟩ := idx_in t
  show V m c main_arg0 (((cfg0.win 0).blk t).view.emb (ix3 b k q)) = _
  refine congrArg (V m c main_arg0) ?_
  funext a; apply Fin.ext
  match a with
  | ⟨0, _⟩ => show win0_0.index t (0 : Fin 3) * 512 + 1 * b.val = 512 * (t.val / 4) + b.val; omega
  | ⟨1, _⟩ => show win0_0.index t (1 : Fin 3) * 16 + 1 * k.val = 16 * (t.val % 4) + k.val; omega
  | ⟨2, _⟩ => show win0_0.index t (2 : Fin 3) * 128 + 1 * q.val = q.val; omega

/-- The input-projection weights' block is the whole 128 × 1024 array at every point. -/
theorem iblk1_apply (c : Dev nD) (t : Fin cfg0.N) (k : Fin 128) (j : Fin 1024) :
    iblk m c 1 t (ix2 k j) = V m c main_arg1 (ix2 k j) := by
  obtain ⟨-, -, -, a1, b1, a2, b2, a3, b3, a4, b4, a5, b5⟩ := idx_in t
  show V m c main_arg1 (((cfg0.win 1).blk t).view.emb (ix2 k j)) = _
  refine congrArg (V m c main_arg1) ?_
  funext a; apply Fin.ext
  match a with
  | ⟨0, _⟩ => show win0_1.index t (0 : Fin 2) * 128 + 1 * k.val = k.val; omega
  | ⟨1, _⟩ => show win0_1.index t (1 : Fin 2) * 1024 + 1 * j.val = j.val; omega

/-- The hidden-projection weights' block is the whole 256 × 1024 array at every point. -/
theorem iblk2_apply (c : Dev nD) (t : Fin cfg0.N) (k : Fin 256) (j : Fin 1024) :
    iblk m c 2 t (ix2 k j) = V m c main_arg2 (ix2 k j) := by
  obtain ⟨-, -, -, a1, b1, a2, b2, a3, b3, a4, b4, a5, b5⟩ := idx_in t
  show V m c main_arg2 (((cfg0.win 2).blk t).view.emb (ix2 k j)) = _
  refine congrArg (V m c main_arg2) ?_
  funext a; apply Fin.ext
  match a with
  | ⟨0, _⟩ => show win0_2.index t (0 : Fin 2) * 256 + 1 * k.val = k.val; omega
  | ⟨1, _⟩ => show win0_2.index t (1 : Fin 2) * 1024 + 1 * j.val = j.val; omega

/-- The bias block is the whole 1 × 1024 array at every point. -/
theorem iblk3_apply (c : Dev nD) (t : Fin cfg0.N) (k : Fin 1) (j : Fin 1024) :
    iblk m c 3 t (ix2 k j) = V m c main_arg3 (ix2 k j) := by
  obtain ⟨-, -, -, a1, b1, a2, b2, a3, b3, a4, b4, a5, b5⟩ := idx_in t
  show V m c main_arg3 (((cfg0.win 3).blk t).view.emb (ix2 k j)) = _
  refine congrArg (V m c main_arg3) ?_
  funext a; apply Fin.ext
  match a with
  | ⟨0, _⟩ => show win0_3.index t (0 : Fin 2) * 1 + 1 * k.val = k.val; omega
  | ⟨1, _⟩ => show win0_3.index t (1 : Fin 2) * 1024 + 1 * j.val = j.val; omega

/-- The final layer's weights' block is the whole 256 × 128 array at every point. -/
theorem iblk4_apply (c : Dev nD) (t : Fin cfg0.N) (k : Fin 256) (j : Fin 128) :
    iblk m c 4 t (ix2 k j) = V m c main_arg4 (ix2 k j) := by
  obtain ⟨-, -, -, a1, b1, a2, b2, a3, b3, a4, b4, a5, b5⟩ := idx_in t
  show V m c main_arg4 (((cfg0.win 4).blk t).view.emb (ix2 k j)) = _
  refine congrArg (V m c main_arg4) ?_
  funext a; apply Fin.ext
  match a with
  | ⟨0, _⟩ => show win0_4.index t (0 : Fin 2) * 256 + 1 * k.val = k.val; omega
  | ⟨1, _⟩ => show win0_4.index t (1 : Fin 2) * 128 + 1 * j.val = j.val; omega

/-- The final layer's bias block is the whole 1 × 128 array at every point. -/
theorem iblk5_apply (c : Dev nD) (t : Fin cfg0.N) (k : Fin 1) (j : Fin 128) :
    iblk m c 5 t (ix2 k j) = V m c main_arg5 (ix2 k j) := by
  obtain ⟨-, -, -, a1, b1, a2, b2, a3, b3, a4, b4, a5, b5⟩ := idx_in t
  show V m c main_arg5 (((cfg0.win 5).blk t).view.emb (ix2 k j)) = _
  refine congrArg (V m c main_arg5) ?_
  funext a; apply Fin.ext
  match a with
  | ⟨0, _⟩ => show win0_5.index t (0 : Fin 2) * 1 + 1 * k.val = k.val; omega
  | ⟨1, _⟩ => show win0_5.index t (1 : Fin 2) * 128 + 1 * j.val = j.val; omega

end Cert.KernelIdeal.KGeom

end
-- ==== Proof.SpecArrays.lean ====
/-
  The result array as ONE function of the six argument arrays: entry (n, j) is output column j of the
  recurrence run on sequence n — the 64 rows of the sequence input at batch index n — with the weights
  read entry by entry off the five weight arrays.
-/
import proofs.«157242_g2000404025908667_pallasbulk_280_33_alg».proof.Proof.Spec
import Idealize.ShloMosaic.Lib.ValueIdx

noncomputable section

namespace Cert.Lstm

open Idealize.ShloMosaic Idealize.ShloMosaic.ValueIdx

/-- The weights read off the five weight arrays. -/
def weightsOf (a1 : (⟨2, ![128, 1024]⟩ : Shape).Idx → EReal) (a2 : (⟨2, ![256, 1024]⟩ : Shape).Idx → EReal)
    (a3 : (⟨2, ![1, 1024]⟩ : Shape).Idx → EReal) (a4 : (⟨2, ![256, 128]⟩ : Shape).Idx → EReal)
    (a5 : (⟨2, ![1, 128]⟩ : Shape).Idx → EReal) : Weights :=
  ⟨fun k j => a1 (ix2 k j), fun k j => a2 (ix2 k j), fun j => a3 (ix2 (0 : Fin 1) j),
    fun k j => a4 (ix2 k j), fun j => a5 (ix2 (0 : Fin 1) j)⟩

/-- Sequence `R` of the sequence input: its row at time step `t` (steps counted modulo 64). -/
def seqOf (a0 : (⟨3, ![1024, 64, 128]⟩ : Shape).Idx → EReal) (R : Fin 1024) : ℕ → Fin 128 → EReal :=
  fun t q => a0 (ix3 R (⟨t % 64, Nat.mod_lt _ (by norm_num)⟩ : Fin 64) q)

/-- The result array. -/
def G (a0 : (⟨3, ![1024, 64, 128]⟩ : Shape).Idx → EReal) (a1 : (⟨2, ![128, 1024]⟩ : Shape).Idx → EReal)
    (a2 : (⟨2, ![256, 1024]⟩ : Shape).Idx → EReal) (a3 : (⟨2, ![1, 1024]⟩ : Shape).Idx → EReal)
    (a4 : (⟨2, ![256, 128]⟩ : Shape).Idx → EReal) (a5 : (⟨2, ![1, 128]⟩ : Shape).Idx → EReal) :
    (⟨2, ![1024, 128]⟩ : Shape).Idx → EReal :=
  fun i => out (weightsOf a1 a2 a3 a4 a5) (seqOf a0 (i 0)) (i 1)

theorem G_apply (a0 : (⟨3, ![1024, 64, 128]⟩ : Shape).Idx → EReal) (a1 : (⟨2, ![128, 1024]⟩ : Shape).Idx → EReal)
    (a2 : (⟨2, ![256, 1024]⟩ : Shape).Idx → EReal) (a3 : (⟨2, ![1, 1024]⟩ : Shape).Idx → EReal)
    (a4 : (⟨2, ![256, 128]⟩ : Shape).Idx → EReal) (a5 : (⟨2, ![1, 128]⟩ : Shape).Idx → EReal) (n : Fin 1024) (j : Fin 128) :
    G a0 a1 a2 a3 a4 a5 (ix2 n j) = out (weightsOf a1 a2 a3 a4 a5) (seqOf a0 n) j := rfl

end Cert.Lstm

end
-- ==== Proof.KInv.lean ====
/-
  The carried state after every grid point. The grid is two blocks of 512 sequences by four chunks of
  sixteen time steps; point t works on block t / 4 and chunk t % 4. After point t, row r of either
  256-row group of the (hidden, cell) scratch pair is the recurrence run on that row's sequence for the
  first 16·(t % 4 + 1) steps from the zero state, and the two scaled weight operands hold the weights'
  columns times the column scale. By induction on the point: the first point of a block starts from
  zero and computes the scaled operands; every later point continues from what the point before left,
  and a run of a + 16 steps is a run of a steps followed by 16 more.
-/
import proofs.«157242_g2000404025908667_pallasbulk_280_33_alg».proof.Proof.KRowA
import proofs.«157242_g2000404025908667_pallasbulk_280_33_alg».proof.Proof.KGeomIn
import proofs.«157242_g2000404025908667_pallasbulk_280_33_alg».proof.Proof.SpecArrays

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.CellValue Cert.KernelIdeal.KGeom

variable (m : (ℓ : Loc nD τ sig) → Buf (Elt Ideal) ℓ) (c : Dev nD)

/-- The weights, read off the argument arrays as the region finds them. -/
abbrev Wt : Cert.Lstm.Weights :=
  Cert.Lstm.weightsOf (V m c main_arg1) (V m c main_arg2) (V m c main_arg3) (V m c main_arg4) (V m c main_arg5)

/-- Sequence `R` of the sequence input. -/
abbrev xsAt (R : Fin 1024) : ℕ → Fin 128 → EReal := Cert.Lstm.seqOf (V m c main_arg0) R

/-- Row `rr` of point `T`'s input block at its `k`-th time slab is step 16·(T % 4) + k of sequence 512·(T / 4) + rr. -/
theorem xin (T : Fin cfg0.N) (rr : Fin 512) (h : 512 * (T.val / 4) + rr.val < 1024) (k : ℕ) (hk : k < 16) :
    (fun q => iblk m c 0 T (ix3 rr (⟨k % 16, Nat.mod_lt _ (by norm_num)⟩ : Fin 16) q))
      = xsAt m c ⟨512 * (T.val / 4) + rr.val, h⟩ (16 * (T.val % 4) + k) := by
  funext q
  rw [iblk0_apply]
  show V m c main_arg0 _ = V m c main_arg0 _
  refine congrArg (V m c main_arg0) ?_
  have h4 : T.val % 4 < 4 := Nat.mod_lt _ (by norm_num)
  funext a
  apply Fin.ext
  match a with
  | ⟨0, _⟩ => rfl
  | ⟨1, _⟩ => show 16 * (T.val % 4) + k % 16 = (16 * (T.val % 4) + k) % 64; omega
  | ⟨2, _⟩ => rfl

/-- Sixteen steps on a point's slabs, from a run of the first 16·(T % 4) steps, are the run of the first 16·(T % 4 + 1) steps. -/
theorem step_rows (T : Fin cfg0.N) (rr : Fin 512) (h : 512 * (T.val / 4) + rr.val < 1024) (W : Cert.Lstm.Weights)
    (s after : Cert.Lstm.St)
    (hafter : after = Cert.Lstm.run W (fun k q => iblk m c 0 T (ix3 rr (⟨k % 16, Nat.mod_lt _ (by norm_num)⟩ : Fin 16) q)) 16 s)
    (hs : s = Cert.Lstm.run W (xsAt m c ⟨512 * (T.val / 4) + rr.val, h⟩) (16 * (T.val % 4)) Cert.Lstm.zero) :
    after = Cert.Lstm.run W (xsAt m c ⟨512 * (T.val / 4) + rr.val, h⟩) (16 * (T.val % 4 + 1)) Cert.Lstm.zero := by
  rw [hafter, hs, Nat.mul_add, Nat.mul_one, Cert.Lstm.run_add]
  exact Cert.Lstm.run_congr W _ _ 16 (fun k hk => xin m c T rr h k hk) _

/-- The state after point `t`: both groups' rows are runs of the recurrence, the scaled operands hold the scaled weights. -/
def Inv (t : ℕ) (ht : t < cfg0.N) : Prop :=
  (∀ r : Fin 256,
    ((fun q => (outsAt0 m c t ht).2.1 (ix2 (⟨r.val, by omega⟩ : Fin 512) q),
      fun q => (outsAt0 m c t ht).2.2.1 (ix2 (⟨r.val, by omega⟩ : Fin 512) q)) : Cert.Lstm.St)
      = Cert.Lstm.run (Wt m c) (xsAt m c ⟨512 * (t / 4) + (⟨r.val, by omega⟩ : Fin 512).val, by have := lt_of_lt_of_eq ht N_0; omega⟩)
          (16 * (t % 4 + 1)) Cert.Lstm.zero)
  ∧ (∀ r : Fin 256,
    ((fun q => (outsAt0 m c t ht).2.1 (ix2 (⟨256 + r.val, by omega⟩ : Fin 512) q),
      fun q => (outsAt0 m c t ht).2.2.1 (ix2 (⟨256 + r.val, by omega⟩ : Fin 512) q)) : Cert.Lstm.St)
      = Cert.Lstm.run (Wt m c) (xsAt m c ⟨512 * (t / 4) + (⟨256 + r.val, by omega⟩ : Fin 512).val, by have := lt_of_lt_of_eq ht N_0; omega⟩)
          (16 * (t % 4 + 1)) Cert.Lstm.zero)
  ∧ (∀ (k : Fin 128) (j : Fin 1024), (outsAt0 m c t ht).2.2.2.1 (ix2 k j) = (Wt m c).wih k j * sc j)
  ∧ (∀ (k : Fin 256) (j : Fin 1024), (outsAt0 m c t ht).2.2.2.2 (ix2 k j) = (Wt m c).whh k j * sc j)

set_option maxHeartbeats 4000000 in
/-- The first point of a block. -/
theorem inv_step_A (T : Fin cfg0.N) (h0 : T.val % 4 = 0) (h1 : ¬T.val % 4 = 3) : Inv m c T.val T.isLt := by
  have hN := lt8 T
  have e := outsAt0_A m c T h0 h1
  have e1 : (outsAt0 m c T.val T.isLt).2.1 = sout0_A_1 c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) ((hcond0_0 T).mpr h0) (fun h => h1 ((hcond0_1 T).mp h)) (iblk m c 0 T) (iblk m c 1 T) (iblk m c 2 T) (iblk m c 3 T) (iblk m c 4 T) (iblk m c 5 T) := congrArg (fun p => p.2.1) e
  have e2 : (outsAt0 m c T.val T.isLt).2.2.1 = sout0_A_2 c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) ((hcond0_0 T).mpr h0) (fun h => h1 ((hcond0_1 T).mp h)) (iblk m c 0 T) (iblk m c 1 T) (iblk m c 2 T) (iblk m c 3 T) (iblk m c 4 T) (iblk m c 5 T) := congrArg (fun p => p.2.2.1) e
  have e3 : (outsAt0 m c T.val T.isLt).2.2.2.1 = sout0_A_3 c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) ((hcond0_0 T).mpr h0) (fun h => h1 ((hcond0_1 T).mp h)) (iblk m c 0 T) (iblk m c 1 T) (iblk m c 2 T) (iblk m c 3 T) (iblk m c 4 T) (iblk m c 5 T) := congrArg (fun p => p.2.2.2.1) e
  have e4 : (outsAt0 m c T.val T.isLt).2.2.2.2 = sout0_A_4 c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) ((hcond0_0 T).mpr h0) (fun h => h1 ((hcond0_1 T).mp h)) (iblk m c 0 T) (iblk m c 1 T) (iblk m c 2 T) (iblk m c 3 T) (iblk m c 4 T) (iblk m c 5 T) := congrArg (fun p => p.2.2.2.2) e
  have hb : ∀ j : Fin 1024, iblk m c 3 T (ix2 (0 : Fin 1) j) = (Wt m c).b j := fun j => iblk3_apply m c T 0 j
  have hx1 : ∀ (k : Fin 128) (j : Fin 1024), iblk m c 1 T (ix2 k j) = (Wt m c).wih k j := fun k j => iblk1_apply m c T k j
  have hx2 : ∀ (k : Fin 256) (j : Fin 1024), iblk m c 2 T (ix2 k j) = (Wt m c).whh k j := fun k j => iblk2_apply m c T k j
  refine ⟨fun r => ?_, fun r => ?_, fun k j => ?_, fun k j => ?_⟩
  · rw [e1, e2]
    refine step_rows m c T ⟨r.val, by omega⟩ (by omega) (Wt m c) Cert.Lstm.zero _
      (rows_A_lower c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) ((hcond0_0 T).mpr h0) (fun h => h1 ((hcond0_1 T).mp h)) (iblk m c 0 T) (iblk m c 1 T) (iblk m c 2 T) (iblk m c 3 T) (iblk m c 4 T) (iblk m c 5 T) (Wt m c) hb hx1 hx2 r) ?_
    rw [h0]; rfl
  · rw [e1, e2]
    refine step_rows m c T ⟨256 + r.val, by omega⟩ (by omega) (Wt m c) Cert.Lstm.zero _
      (rows_A_upper c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) ((hcond0_0 T).mpr h0) (fun h => h1 ((hcond0_1 T).mp h)) (iblk m c 0 T) (iblk m c 1 T) (iblk m c 2 T) (iblk m c 3 T) (iblk m c 4 T) (iblk m c 5 T) (Wt m c) hb hx1 hx2 r) ?_
    rw [h0]; rfl
  · rw [e3]; exact wih_A_apply c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) ((hcond0_0 T).mpr h0) (fun h => h1 ((hcond0_1 T).mp h)) (iblk m c 0 T) (iblk m c 1 T) (iblk m c 2 T) (iblk m c 3 T) (iblk m c 4 T) (iblk m c 5 T) (Wt m c) hx1 k j
  · rw [e4]; exact whh_A_apply c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) ((hcond0_0 T).mpr h0) (fun h => h1 ((hcond0_1 T).mp h)) (iblk m c 0 T) (iblk m c 1 T) (iblk m c 2 T) (iblk m c 3 T) (iblk m c 4 T) (iblk m c 5 T) (Wt m c) hx2 k j

set_option maxHeartbeats 4000000 in
/-- From the point before to a point that is neither the first nor the last of its block. -/
theorem inv_step_B (T : Fin cfg0.N) (h0 : ¬T.val % 4 = 0) (h1 : ¬T.val % 4 = 3)
    (ih : Inv m c (T.val - 1) (Nat.lt_of_le_of_lt (Nat.sub_le _ _) T.isLt)) : Inv m c T.val T.isLt := by
  have hN := lt8 T
  obtain ⟨ihL, ihU, ihWi, ihWh⟩ := ih
  have e := outsAt0_B m c T h0 h1
  have e1 : (outsAt0 m c T.val T.isLt).2.1 = sout0_B_1 c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) (fun h => h0 ((hcond0_0 T).mp h)) (fun h => h1 ((hcond0_1 T).mp h)) (iblk m c 0 T) (iblk m c 1 T) (iblk m c 2 T) (iblk m c 3 T) (iblk m c 4 T) (iblk m c 5 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2.1 (outsAt0 m c (T.val - 1) (Nat.lt_of_le_of_lt (Nat.sub_le _ _) T.isLt)).2.2.2.2 := congrArg (fun p => p.2.1) e
  have e2 : (outsAt0 m c T.val T.isLt).2.2.1 = sout0_B_2 c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) (fun h => h0 ((hcond0_0 T).mp h)) (fun h => h1 ((hcond0_1 T).mp h)) (iblk m c 0 T) (iblk m c 1 T) (iblk m c 2 T) (iblk m c 3 T) (iblk m c 4 T) (iblk m c 5 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2.1 (outsAt0 m c (T.val - 1) (Nat.lt_of_le_of_lt (Nat.sub_le _ _) T.isLt)).2.2.2.2 := congrArg (fun p => p.2.2.1) e
  have e3 : (outsAt0 m c T.val T.isLt).2.2.2.1 = (outsAt0 m c (T.val - 1) (Nat.lt_of_le_of_lt (Nat.sub_le _ _) T.isLt)).2.2.2.1 := congrArg (fun p => p.2.2.2.1) e
  have e4 : (outsAt0 m c T.val T.isLt).2.2.2.2 = (outsAt0 m c (T.val - 1) (Nat.lt_of_le_of_lt (Nat.sub_le _ _) T.isLt)).2.2.2.2 := congrArg (fun p => p.2.2.2.2) e
  have hb : ∀ j : Fin 1024, iblk m c 3 T (ix2 (0 : Fin 1) j) = (Wt m c).b j := fun j => iblk3_apply m c T 0 j
  have hdiv : (T.val - 1) / 4 = T.val / 4 := by omega
  have hmod : (T.val - 1) % 4 + 1 = T.val % 4 := by omega
  refine ⟨fun r => ?_, fun r => ?_, fun k j => ?_, fun k j => ?_⟩
  · rw [e1, e2]
    refine step_rows m c T ⟨r.val, by omega⟩ (by omega) (Wt m c) _ _
      (rows_B_lower c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) (fun h => h0 ((hcond0_0 T).mp h)) (fun h => h1 ((hcond0_1 T).mp h)) (iblk m c 0 T) (iblk m c 1 T) (iblk m c 2 T) (iblk m c 3 T) (iblk m c 4 T) (iblk m c 5 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2.1 (outsAt0 m c (T.val - 1) (Nat.lt_of_le_of_lt (Nat.sub_le _ _) T.isLt)).2.2.2.2 (Wt m c) hb ihWi ihWh r) ?_
    refine (ihL r).trans ?_
    rw [hmod]
    exact congrArg (fun R => Cert.Lstm.run (Wt m c) (xsAt m c R) (16 * (T.val % 4)) Cert.Lstm.zero) (Fin.ext (by show 512 * ((T.val - 1) / 4) + r.val = 512 * (T.val / 4) + r.val; rw [hdiv]))
  · rw [e1, e2]
    refine step_rows m c T ⟨256 + r.val, by omega⟩ (by omega) (Wt m c) _ _
      (rows_B_upper c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) (fun h => h0 ((hcond0_0 T).mp h)) (fun h => h1 ((hcond0_1 T).mp h)) (iblk m c 0 T) (iblk m c 1 T) (iblk m c 2 T) (iblk m c 3 T) (iblk m c 4 T) (iblk m c 5 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2.1 (outsAt0 m c (T.val - 1) (Nat.lt_of_le_of_lt (Nat.sub_le _ _) T.isLt)).2.2.2.2 (Wt m c) hb ihWi ihWh r) ?_
    refine (ihU r).trans ?_
    rw [hmod]
    exact congrArg (fun R => Cert.Lstm.run (Wt m c) (xsAt m c R) (16 * (T.val % 4)) Cert.Lstm.zero) (Fin.ext (by show 512 * ((T.val - 1) / 4) + (256 + r.val) = 512 * (T.val / 4) + (256 + r.val); rw [hdiv]))
  · rw [e3]; exact ihWi k j
  · rw [e4]; exact ihWh k j

set_option maxHeartbeats 4000000 in
/-- From the point before to the last point of a block. -/
theorem inv_step_C (T : Fin cfg0.N) (h0 : ¬T.val % 4 = 0) (h1 : T.val % 4 = 3)
    (ih : Inv m c (T.val - 1) (Nat.lt_of_le_of_lt (Nat.sub_le _ _) T.isLt)) : Inv m c T.val T.isLt := by
  have hN := lt8 T
  obtain ⟨ihL, ihU, ihWi, ihWh⟩ := ih
  have e := outsAt0_C m c T h0 h1
  have e1 : (outsAt0 m c T.val T.isLt).2.1 = sout0_C_1 c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) (fun h => h0 ((hcond0_0 T).mp h)) ((hcond0_1 T).mpr h1) (iblk m c 0 T) (iblk m c 1 T) (iblk m c 2 T) (iblk m c 3 T) (iblk m c 4 T) (iblk m c 5 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2.1 (outsAt0 m c (T.val - 1) (Nat.lt_of_le_of_lt (Nat.sub_le _ _) T.isLt)).2.2.2.2 := congrArg (fun p => p.2.1) e
  have e2 : (outsAt0 m c T.val T.isLt).2.2.1 = sout0_C_2 c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) (fun h => h0 ((hcond0_0 T).mp h)) ((hcond0_1 T).mpr h1) (iblk m c 0 T) (iblk m c 1 T) (iblk m c 2 T) (iblk m c 3 T) (iblk m c 4 T) (iblk m c 5 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2.1 (outsAt0 m c (T.val - 1) (Nat.lt_of_le_of_lt (Nat.sub_le _ _) T.isLt)).2.2.2.2 := congrArg (fun p => p.2.2.1) e
  have e3 : (outsAt0 m c T.val T.isLt).2.2.2.1 = (outsAt0 m c (T.val - 1) (Nat.lt_of_le_of_lt (Nat.sub_le _ _) T.isLt)).2.2.2.1 := congrArg (fun p => p.2.2.2.1) e
  have e4 : (outsAt0 m c T.val T.isLt).2.2.2.2 = (outsAt0 m c (T.val - 1) (Nat.lt_of_le_of_lt (Nat.sub_le _ _) T.isLt)).2.2.2.2 := congrArg (fun p => p.2.2.2.2) e
  have hb : ∀ j : Fin 1024, iblk m c 3 T (ix2 (0 : Fin 1) j) = (Wt m c).b j := fun j => iblk3_apply m c T 0 j
  have hdiv : (T.val - 1) / 4 = T.val / 4 := by omega
  have hmod : (T.val - 1) % 4 + 1 = T.val % 4 := by omega
  refine ⟨fun r => ?_, fun r => ?_, fun k j => ?_, fun k j => ?_⟩
  · rw [e1, e2]
    refine step_rows m c T ⟨r.val, by omega⟩ (by omega) (Wt m c) _ _
      (rows_C_lower c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) (fun h => h0 ((hcond0_0 T).mp h)) ((hcond0_1 T).mpr h1) (iblk m c 0 T) (iblk m c 1 T) (iblk m c 2 T) (iblk m c 3 T) (iblk m c 4 T) (iblk m c 5 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2.1 (outsAt0 m c (T.val - 1) (Nat.lt_of_le_of_lt (Nat.sub_le _ _) T.isLt)).2.2.2.2 (Wt m c) hb ihWi ihWh r) ?_
    refine (ihL r).trans ?_
    rw [hmod]
    exact congrArg (fun R => Cert.Lstm.run (Wt m c) (xsAt m c R) (16 * (T.val % 4)) Cert.Lstm.zero) (Fin.ext (by show 512 * ((T.val - 1) / 4) + r.val = 512 * (T.val / 4) + r.val; rw [hdiv]))
  · rw [e1, e2]
    refine step_rows m c T ⟨256 + r.val, by omega⟩ (by omega) (Wt m c) _ _
      (rows_C_upper c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) (fun h => h0 ((hcond0_0 T).mp h)) ((hcond0_1 T).mpr h1) (iblk m c 0 T) (iblk m c 1 T) (iblk m c 2 T) (iblk m c 3 T) (iblk m c 4 T) (iblk m c 5 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2.1 (outsAt0 m c (T.val - 1) (Nat.lt_of_le_of_lt (Nat.sub_le _ _) T.isLt)).2.2.2.2 (Wt m c) hb ihWi ihWh r) ?_
    refine (ihU r).trans ?_
    rw [hmod]
    exact congrArg (fun R => Cert.Lstm.run (Wt m c) (xsAt m c R) (16 * (T.val % 4)) Cert.Lstm.zero) (Fin.ext (by show 512 * ((T.val - 1) / 4) + (256 + r.val) = 512 * (T.val / 4) + (256 + r.val); rw [hdiv]))
  · rw [e3]; exact ihWi k j
  · rw [e4]; exact ihWh k j

/-- The invariant holds after every point. -/
theorem inv : ∀ (t : ℕ) (ht : t < cfg0.N), Inv m c t ht := by
  intro t
  induction t with
  | zero => intro ht; exact inv_step_A m c ⟨0, ht⟩ rfl (by show ¬ 0 % 4 = 3; decide)
  | succ t ih =>
    intro ht
    by_cases h0 : (t + 1) % 4 = 0
    · exact inv_step_A m c ⟨t + 1, ht⟩ h0 (by show ¬ (t + 1) % 4 = 3; omega)
    · by_cases h1 : (t + 1) % 4 = 3
      · exact inv_step_C m c ⟨t + 1, ht⟩ h0 h1 (ih _)
      · exact inv_step_B m c ⟨t + 1, ht⟩ h0 h1 (ih _)

end Cert.KernelIdeal.KValue

end
-- ==== Proof.KGeomOut.lean ====
/-
  The kernel program's output window: its block at point t is rows 512·(t / 4) … 512·(t / 4) + 511
  of the 1024 × 128 result, all 128 columns; it is written back at the last time chunk of each batch
  block (t % 4 = 3), whole; and the two written blocks cover the result.
-/
import proofs.«157242_g2000404025908667_pallasbulk_280_33_alg».proof.Proof.Gen.KernelIdeal.Frame
import Idealize.ShloMosaic.Lib.ValueIdx
import Idealize.ShloMosaic.Lib.Pipeline.Value

set_option maxRecDepth 16384

noncomputable section

namespace Cert.KernelIdeal.KGeom

open Cert.KernelIdeal Cert.KernelIdeal.Gen Idealize.ShloMosaic Idealize.ShloMosaic.TcCoe Idealize.ShloMosaic.ValueIdx
open Idealize.SL.Sem

variable {F : FTy → Type} [FloatOps F]

/-- A grid point's number is below 8. -/
theorem lt8' (t : Fin cfg0.N) : t.val < 8 := lt_of_lt_of_eq t.isLt N_0

/-- The output window's block index over the grid: (t / 4, 0). -/
theorem idx_out : ∀ t : Fin cfg0.N, win0_6.index t (0 : Fin 2) = t.val / 4 ∧ win0_6.index t (1 : Fin 2) = 0 :=
  (by decide +kernel : ∀ t : Fin grid0.N, _)

/-- The output block is written back exactly at the last time chunk of each batch block. -/
theorem flush6 : ∀ t : Fin cfg0.N, (cfg0.win 6).flush t = true ↔ t.val % 4 = 3 := flush0_6

/-- An array read through the output block of point t, at (b, j): the array at row 512·(t / 4) + b. -/
theorem blk6_read (G : S1024x128.Idx → Elt F .f32) (t : Fin cfg0.N) (b : Fin 512) (j : Fin 128) :
    ((cfg0.win 6).blk t).view.read (Elt F) G (ix2 b j)
      = G (ix2 (⟨512 * (t.val / 4) + b.val, by have := lt8' t; omega⟩ : Fin 1024) j) := by
  obtain ⟨e0, e1⟩ := idx_out t
  show G (((cfg0.win 6).blk t).view.emb (ix2 b j)) = _
  refine congrArg G ?_
  funext a; apply Fin.ext
  match a with
  | ⟨0, _⟩ => show win0_6.index t (0 : Fin 2) * 512 + 1 * b.val = 512 * (t.val / 4) + b.val; omega
  | ⟨1, _⟩ => show win0_6.index t (1 : Fin 2) * 128 + 1 * j.val = j.val; omega

/-- The write-back moves the whole block: nothing of it is cut off. -/
theorem cut6 {α : Type} (t : Fin cfg0.N) (X : S512x128.Idx → α) : (cfg0.win 6).cut (grid0.coords t) X = X := rfl

/-- An index of the result is in point t's block iff each coordinate is in the block's range. -/
theorem mem_blk6 (t : Fin cfg0.N) (i : S1024x128.Idx) :
    i ∈ ((cfg0.win 6).blk t).view.set ↔ ∀ a : Fin 2, win0_6.index t a * S512x128.size a ≤ (i a).val ∧ (i a).val < win0_6.index t a * S512x128.size a + S512x128.size a := by
  show i ∈ ((View.whole main_v0).slice (win0_6.rect t)).set ↔ _
  rw [View.set_slice_whole, Rect.mem_set_unit]
  exact Iff.rfl

/-- In rows and columns: row r of the result is in point t's block iff 512·(t / 4) ≤ r < 512·(t / 4) + 512. -/
theorem mem_blk6_iff (t : Fin cfg0.N) (i : S1024x128.Idx) :
    i ∈ ((cfg0.win 6).blk t).view.set ↔ 512 * (t.val / 4) ≤ (i 0).val ∧ (i 0).val < 512 * (t.val / 4) + 512 := by
  obtain ⟨e0, e1⟩ := idx_out t
  rw [mem_blk6]
  constructor
  · intro h
    have b0 : win0_6.index t (0 : Fin 2) * 512 ≤ (i 0).val ∧ (i 0).val < win0_6.index t (0 : Fin 2) * 512 + 512 := h 0
    omega
  · intro h a
    have hi1 : (i 1).val < 128 := (i 1).isLt
    match a with
    | ⟨0, _⟩ => show win0_6.index t (0 : Fin 2) * 512 ≤ (i 0).val ∧ (i 0).val < win0_6.index t (0 : Fin 2) * 512 + 512; omega
    | ⟨1, _⟩ => show win0_6.index t (1 : Fin 2) * 128 ≤ (i 1).val ∧ (i 1).val < win0_6.index t (1 : Fin 2) * 128 + 128; omega

/-- Every index of the result is in the block of a point that writes back: row r by the last chunk of
    batch block r / 512. -/
theorem cover6 (i : S1024x128.Idx) :
    ∃ t : Fin cfg0.N, (cfg0.win 6).flush t = true ∧ i ∈ ((cfg0.win 6).blk t).view.set := by
  have hi0 : (i 0).val < 1024 := (i 0).isLt
  refine ⟨⟨4 * ((i 0).val / 512) + 3, lt_of_lt_of_eq (by omega : 4 * ((i 0).val / 512) + 3 < 8) N_0.symm⟩, (flush6 _).mpr (by show (4 * ((i 0).val / 512) + 3) % 4 = 3; omega), ?_⟩
  rw [mem_blk6_iff]
  show 512 * ((4 * ((i 0).val / 512) + 3) / 4) ≤ (i 0).val ∧ (i 0).val < 512 * ((4 * ((i 0).val / 512) + 3) / 4) + 512
  omega

end Cert.KernelIdeal.KGeom

end
-- ==== Proof.KFinal.lean ====
/-
  The kernel's result array. At the last point of a block (chunk 3) the carried hidden state holds,
  row by row, the recurrence run for all 64 steps, and the output block is the final layer on it: row b
  of the block is the result for sequence 512·(block) + b. Every point that writes the output back is
  such a point, and the two blocks cover the 1024 rows, so after the run the result array is the one
  function of the argument arrays that the specification names.
-/
import proofs.«157242_g2000404025908667_pallasbulk_280_33_alg».proof.Proof.KInv
import proofs.«157242_g2000404025908667_pallasbulk_280_33_alg».proof.Proof.KGeomOut
import proofs.«157242_g2000404025908667_pallasbulk_280_33_alg».proof.Proof.Gen.KernelIdeal.Value

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.CellValue Cert.KernelIdeal.KGeom

variable (m : (ℓ : Loc nD τ sig) → Buf (Elt Ideal) ℓ) (c : Dev nD)

/-- Before a point that is not the first of its block, a lower-group row of the pair is the run of the first 16·(T % 4) steps. -/
theorem before_lower (T : Fin cfg0.N) (h0 : ¬T.val % 4 = 0) (r : Fin 256) (h : 512 * (T.val / 4) + r.val < 1024) :
    ((fun q => (outsAt0 m c (T.val - 1) (Nat.lt_of_le_of_lt (Nat.sub_le _ _) T.isLt)).2.1 (ix2 (⟨r.val, by omega⟩ : Fin 512) q),
      fun q => (outsAt0 m c (T.val - 1) (Nat.lt_of_le_of_lt (Nat.sub_le _ _) T.isLt)).2.2.1 (ix2 (⟨r.val, by omega⟩ : Fin 512) q)) : Cert.Lstm.St)
      = Cert.Lstm.run (Wt m c) (xsAt m c ⟨512 * (T.val / 4) + r.val, h⟩) (16 * (T.val % 4)) Cert.Lstm.zero := by
  have hN := lt8 T
  have hdiv : (T.val - 1) / 4 = T.val / 4 := by omega
  have hmod : (T.val - 1) % 4 + 1 = T.val % 4 := by omega
  refine ((inv m c (T.val - 1) (Nat.lt_of_le_of_lt (Nat.sub_le _ _) T.isLt)).1 r).trans ?_
  rw [hmod]
  exact congrArg (fun R => Cert.Lstm.run (Wt m c) (xsAt m c R) (16 * (T.val % 4)) Cert.Lstm.zero)
    (Fin.ext (by show 512 * ((T.val - 1) / 4) + r.val = 512 * (T.val / 4) + r.val; rw [hdiv]))

/-- The same for an upper-group row. -/
theorem before_upper (T : Fin cfg0.N) (h0 : ¬T.val % 4 = 0) (r : Fin 256) (h : 512 * (T.val / 4) + (256 + r.val) < 1024) :
    ((fun q => (outsAt0 m c (T.val - 1) (Nat.lt_of_le_of_lt (Nat.sub_le _ _) T.isLt)).2.1 (ix2 (⟨256 + r.val, by omega⟩ : Fin 512) q),
      fun q => (outsAt0 m c (T.val - 1) (Nat.lt_of_le_of_lt (Nat.sub_le _ _) T.isLt)).2.2.1 (ix2 (⟨256 + r.val, by omega⟩ : Fin 512) q)) : Cert.Lstm.St)
      = Cert.Lstm.run (Wt m c) (xsAt m c ⟨512 * (T.val / 4) + (256 + r.val), h⟩) (16 * (T.val % 4)) Cert.Lstm.zero := by
  have hN := lt8 T
  have hdiv : (T.val - 1) / 4 = T.val / 4 := by omega
  have hmod : (T.val - 1) % 4 + 1 = T.val % 4 := by omega
  refine ((inv m c (T.val - 1) (Nat.lt_of_le_of_lt (Nat.sub_le _ _) T.isLt)).2.1 r).trans ?_
  rw [hmod]
  exact congrArg (fun R => Cert.Lstm.run (Wt m c) (xsAt m c R) (16 * (T.val % 4)) Cert.Lstm.zero)
    (Fin.ext (by show 512 * ((T.val - 1) / 4) + (256 + r.val) = 512 * (T.val / 4) + (256 + r.val); rw [hdiv]))

/-- At the last point of a block, row b of the output block is the network's result on sequence 512·(T / 4) + b. -/
theorem out_rows (T : Fin cfg0.N) (h0 : ¬T.val % 4 = 0) (h1 : T.val % 4 = 3) (b : Fin 512) (q : Fin 128)
    (h : 512 * (T.val / 4) + b.val < 1024) :
    (outsAt0 m c T.val T.isLt).1 (ix2 b q) = Cert.Lstm.out (Wt m c) (xsAt m c ⟨512 * (T.val / 4) + b.val, h⟩) q := by
  have hN := lt8 T
  obtain ⟨-, -, ihWi, ihWh⟩ := inv m c (T.val - 1) (Nat.lt_of_le_of_lt (Nat.sub_le _ _) T.isLt)
  have e := outsAt0_C m c T h0 h1
  have e0 : (outsAt0 m c T.val T.isLt).1 = out0_C_6 c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) (fun h => h0 ((hcond0_0 T).mp h)) ((hcond0_1 T).mpr h1) (iblk m c 0 T) (iblk m c 1 T) (iblk m c 2 T) (iblk m c 3 T) (iblk m c 4 T) (iblk m c 5 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2.1 (outsAt0 m c (T.val - 1) (Nat.lt_of_le_of_lt (Nat.sub_le _ _) T.isLt)).2.2.2.2 := congrArg (fun p => p.1) e
  have hb : ∀ j : Fin 1024, iblk m c 3 T (ix2 (0 : Fin 1) j) = (Wt m c).b j := fun j => iblk3_apply m c T 0 j
  have hwl : ∀ (k : Fin 256) (j : Fin 128), iblk m c 4 T (ix2 k j) = (Wt m c).wlin k j := fun k j => iblk4_apply m c T k j
  have hbl : ∀ j : Fin 128, iblk m c 5 T (ix2 (0 : Fin 1) j) = (Wt m c).blin j := fun j => iblk5_apply m c T 0 j
  have h64 : 16 * (T.val % 4 + 1) = 64 := by rw [h1]
  rw [e0]
  by_cases hlt : b.val < 256
  · have ho := out_C_lower c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) (fun h => h0 ((hcond0_0 T).mp h)) ((hcond0_1 T).mpr h1) (iblk m c 0 T) (iblk m c 1 T) (iblk m c 2 T) (iblk m c 3 T) (iblk m c 4 T) (iblk m c 5 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2.1 (outsAt0 m c (T.val - 1) (Nat.lt_of_le_of_lt (Nat.sub_le _ _) T.isLt)).2.2.2.2 (Wt m c) hb ihWi ihWh hwl hbl ⟨b.val, hlt⟩ q
    have hr := step_rows m c T ⟨b.val, by omega⟩ h (Wt m c) _ _ rfl (before_lower m c T h0 ⟨b.val, hlt⟩ h)
    rw [h64] at hr
    refine ho.trans ?_
    rw [hr]
    rfl
  · have hge : 256 ≤ b.val := Nat.le_of_not_lt hlt
    have hb' : b.val - 256 < 256 := by omega
    have eb : b = (⟨256 + (⟨b.val - 256, hb'⟩ : Fin 256).val, by omega⟩ : Fin 512) := Fin.ext (by show b.val = 256 + (b.val - 256); omega)
    have h' : 512 * (T.val / 4) + (256 + (⟨b.val - 256, hb'⟩ : Fin 256).val) < 1024 := by show 512 * (T.val / 4) + (256 + (b.val - 256)) < 1024; omega
    have ho := out_C_upper c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) (fun h => h0 ((hcond0_0 T).mp h)) ((hcond0_1 T).mpr h1) (iblk m c 0 T) (iblk m c 1 T) (iblk m c 2 T) (iblk m c 3 T) (iblk m c 4 T) (iblk m c 5 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2.1 (outsAt0 m c (T.val - 1) (Nat.lt_of_le_of_lt (Nat.sub_le _ _) T.isLt)).2.2.2.2 (Wt m c) hb ihWi ihWh hwl hbl ⟨b.val - 256, hb'⟩ q
    have hr := step_rows m c T ⟨256 + (⟨b.val - 256, hb'⟩ : Fin 256).val, by omega⟩ h' (Wt m c) _ _ rfl (before_upper m c T h0 ⟨b.val - 256, hb'⟩ h')
    rw [h64] at hr
    have eR : (⟨512 * (T.val / 4) + b.val, h⟩ : Fin 1024) = ⟨512 * (T.val / 4) + (256 + (⟨b.val - 256, hb'⟩ : Fin 256).val), h'⟩ :=
      Fin.ext (by show 512 * (T.val / 4) + b.val = 512 * (T.val / 4) + (256 + (b.val - 256)); omega)
    rw [eR]
    refine (congrArg (fun bb => out0_C_6 c (grid0.coords T) (ms0_0 T) (hs0_0 T) (ms0_1 T) (hs0_1 T) (ms0_2 T) (hs0_2 T) (ms0_3 T) (hs0_3 T) (ms0_4 T) (hs0_4 T) (ms0_5 T) (hs0_5 T) (ms0_6 T) (hs0_6 T) scM0_0 (Memref.isWhole_whole _) scM0_1 (Memref.isWhole_whole _) scM0_2 (Memref.isWhole_whole _) scM0_3 (Memref.isWhole_whole _) scM0_4 (Memref.isWhole_whole _) (fun h => h0 ((hcond0_0 T).mp h)) ((hcond0_1 T).mpr h1) (iblk m c 0 T) (iblk m c 1 T) (iblk m c 2 T) (iblk m c 3 T) (iblk m c 4 T) (iblk m c 5 T) (outsAt0 m c (T.val - 1) (Nat.lt_of_le_of_lt (Nat.sub_le _ _) T.isLt)).2.1 (outsAt0 m c (T.val - 1) (Nat.lt_of_le_of_lt (Nat.sub_le _ _) T.isLt)).2.2.1 (outsAt0 m c (T.val - 1) (Nat.lt_of_le_of_lt (Nat.sub_le _ _) T.isLt)).2.2.2.1 (outsAt0 m c (T.val - 1) (Nat.lt_of_le_of_lt (Nat.sub_le _ _) T.isLt)).2.2.2.2 (ix2 bb q)) eb).trans (ho.trans ?_)
    rw [hr]
    rfl

/-- What a point that writes the output back writes is its block of the result array. -/
theorem flushed_eq (T : Fin cfg0.N) (hf : (cfg0.win 6).flush T = true) :
    (dats m 0 c).flushed 6 T = ((cfg0.win 6).blk T).view.read (Elt Ideal) (Cert.Lstm.G (V m c main_arg0) (V m c main_arg1) (V m c main_arg2) (V m c main_arg3) (V m c main_arg4) (V m c main_arg5)) := by
  have h1 : T.val % 4 = 3 := (flush6 T).mp hf
  have h0 : ¬T.val % 4 = 0 := by omega
  have hN := lt8 T
  rw [Cert.KernelIdeal.Value.flushed6 m c T]
  show ((outsAt0 m c T.val T.isLt).1 : S512x128.Idx → EReal) = _
  funext y
  obtain ⟨b, q, rfl⟩ : ∃ (b : Fin 512) (q : Fin 128), y = ix2 b q := ⟨y 0, y 1, eq_ix2 y⟩
  rw [blk6_read, out_rows m c T h0 h1 b q (by omega)]
  rfl

/-- The result array after the run. -/
theorem final : (dats m 0 c).arrAt 6 cfg0.N = (Cert.Lstm.G (V m c main_arg0) (V m c main_arg1) (V m c main_arg2) (V m c main_arg3) (V m c main_arg4) (V m c main_arg5)) :=
  (dats m 0 c).arrAt_eq_of_cover 6 (Cert.Lstm.G (V m c main_arg0) (V m c main_arg1) (V m c main_arg2) (V m c main_arg3) (V m c main_arg4) (V m c main_arg5)) (fun T hf => flushed_eq m c T hf) cover6

/-- The kernel's run: it ends with the result array at the specification's function of the arguments, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0)
          = Cert.Lstm.G (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.KValue

end
-- ==== Proof.RCell.lean ====
/-
  One time step of the recurrence as the per-sequence reference kernel spells it, on one sequence:
  the pre-activation is the hoisted input projection's row of that step (input projection + bias)
  plus the hidden projection; the three gates are the logistic function of its first 768 columns;
  the candidate is the hyperbolic tangent of the last 256 columns; the new cell state is
  forget · cell + input · candidate and the new hidden state is output · tanh (new cell state).
  `steps` iterates it along the time steps, `xproj` is the hoisted input projection of the whole
  sequence, and `head` is the final linear layer on the last hidden state.
-/
import proofs.«157242_g2000404025908667_pallasbulk_280_33_alg».proof.Proof.Gen.ReferenceIdeal

noncomputable section

namespace Cert.ReferenceIdeal.Cell

open Idealize.ShloMosaic Idealize.SL.Sem Cert.ReferenceIdeal Cert.ReferenceIdeal.Gen

variable {F : FTy → Type} [FloatOps F]

/-- A pair (hidden state, cell state) of one sequence. -/
abbrev St (F : FTy → Type) [FloatOps F] := FVec F S1x256 .f32 × FVec F S1x256 .f32

/-- The hoisted input projection of one sequence, all 64 steps at once: x · W_ih + bias. -/
def xproj (x : Vec F S1x64x128 .f32) (wi : Vec F S128x1024 .bf16) (b : Vec F S1x1024 .f32) : FVec F S64x1024 .f32 :=
  shapeCast S64x1024
    (addf (matmul dot_S64x128_S128x1024_S64x1024_1_0_0_1_n_n none
        (truncf .bf16 (shapeCast S64x128 x shapeCasts_S1x64x128_S64x128) bitsLt_bf16_f32) wi (constant S64x1024 .f32 0x00000000#32))
      (broadcastTo S64x1024 b broadcasts_S1x1024_S64x1024))
    shapeCasts_S64x1024_S64x1024

/-- The pre-activation of one step: that step's row of the input projection + the hidden projection. -/
def pre (wh : Vec F S256x1024 .bf16) (xp : Vec F S1x1024 .f32) (h : FVec F S1x256 .f32) : FVec F S1x1024 .f32 :=
  addf xp (matmul dot_S1x256_S256x1024_S1x1024_1_0_0_1_n_n none (truncf .bf16 h bitsLt_bf16_f32) wh (constant S1x1024 .f32 0x00000000#32))

/-- The three sigmoid gates from the pre-activation's first 768 columns. -/
def sig (p : FVec F S1x1024 .f32) : FVec F S1x768 .f32 :=
  logistic (extractStridedSlice S1x768 ![0, 0] p slices_S1x1024_o0_0_S1x768)

/-- The new cell state. -/
def cellC (p : FVec F S1x1024 .f32) (c : FVec F S1x256 .f32) : FVec F S1x256 .f32 :=
  addf (mulf (extractStridedSlice S1x256 ![0, 256] (sig p) slices_S1x768_o0_256_S1x256) c)
    (mulf (extractStridedSlice S1x256 ![0, 0] (sig p) slices_S1x768_o0_0_S1x256)
      (tanh (extractStridedSlice S1x256 ![0, 768] p slices_S1x1024_o0_768_S1x256)))

/-- The new hidden state. -/
def cellH (p : FVec F S1x1024 .f32) (c : FVec F S1x256 .f32) : FVec F S1x256 .f32 :=
  mulf (extractStridedSlice S1x256 ![0, 512] (sig p) slices_S1x768_o0_512_S1x256) (tanh (cellC p c))

/-- One time step. -/
def cell (wh : Vec F S256x1024 .bf16) (xp : Vec F S1x1024 .f32) (s : St F) : St F :=
  (cellH (pre wh xp s.1) s.2, cellC (pre wh xp s.1) s.2)

/-- The all-zero initial state. -/
def zeroSt : St F :=
  (broadcast S1x256 (Scalar.ofBits .f32 0x00000000#32), broadcast S1x256 (Scalar.ofBits .f32 0x00000000#32))

/-- `k` time steps, the step-`j` row of the input projection given by `xp j`. -/
def steps (wh : Vec F S256x1024 .bf16) (xp : ℕ → Vec F S1x1024 .f32) : ℕ → St F → St F
  | 0, s => s
  | k + 1, s => cell wh (xp k) (steps wh xp k s)

/-- The final linear layer on the last hidden state, as the 1×1×128 block the kernel stores. -/
def head (wl : Vec F S256x128 .bf16) (bl : Vec F S1x128 .f32) (h : FVec F S1x256 .f32) : FVec F S1x1x128 .f32 :=
  shapeCast S1x1x128
    (addf (matmul dot_S1x256_S256x128_S1x128_1_0_0_1_n_n none (truncf .bf16 h bitsLt_bf16_f32) wl (constant S1x128 .f32 0x00000000#32)) bl)
    shapeCasts_S1x128_S1x1x128

end Cert.ReferenceIdeal.Cell

end
-- ==== Proof.RefValuePiece.lean ====
/-
  What one grid point of the per-sequence program leaves in its output block. The body stores the whole input projection x · W_ih + b (64 rows, one per time
  step) into its scratch, then runs the 64 steps of the recurrence from the zero state, step t
  reading row t of the scratch back, and stores the linear head of the last hidden state as the
  1×1×128 block. The block's one store covers it, so the block IS that payload; the payload is the
  64-fold iterate of `Cell.cell` by unfolding definitions alone, and a row read back from the
  scratch is that row of the projection, because the one store into the scratch covered all of it.
-/
import proofs.«157242_g2000404025908667_pallasbulk_280_33_alg».proof.Proof.Gen.ReferenceIdeal.Frame
import proofs.«157242_g2000404025908667_pallasbulk_280_33_alg».proof.Proof.RCell
import Idealize.ShloMosaic.Lib.Pipeline.Value
import Idealize.ShloMosaic.Lib.ValueIdx

set_option maxRecDepth 16384

noncomputable section

namespace Cert.ReferenceIdeal.RefValue

open Idealize.ShloMosaic Idealize.ShloMosaic.TcCoe Idealize.ShloMosaic.Tactic Idealize.SL.Sem
open Idealize.ShloMosaic.ValueIdx
open Cert.ReferenceIdeal Cert.ReferenceIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Row `t mod 64` of a 64×1024 array lies inside it. -/
theorem inb_row (t : ℕ) : ∀ a, (![t % 64, 0] : Fin 2 → Nat) a + S1x1024.size a ≤ S64x1024.size a :=
  Rect.inb₂ (by have := Nat.mod_lt t (show 0 < 64 by decide); show t % 64 + 1 ≤ 64; omega) (Nat.le_refl 1024)

/-- Row `t` of the input projection `P` as the body reads it back from the scratch it stored `P`
    into whole (the row index taken mod 64, so that the definition is total). -/
def xrow (arg8 : Memref sig .tc .vmem S64x1024 .f32) (P : FVec F S64x1024 .f32) (t : ℕ) : Vec F S1x1024 .f32 :=
  arg8.view.readCov [⟨Rect.unit (s := S64x1024) ![0, 0] S64x1024.size inb_S64x1024_S64x1024_0_0, P⟩]
    (Rect.unit (s := S64x1024) ![t % 64, 0] S1x1024.size (inb_row t)).toLoadRect

/-- Row `t mod 64` of a 64×1024 vector, as a 1×1024 vector. -/
def rowOf (P : FVec F S64x1024 .f32) (t : ℕ) : Vec F S1x1024 .f32 :=
  View.ld P (Rect.unit (s := S64x1024) ![t % 64, 0] S1x1024.size (inb_row t))

/-- Reading a row back from the scratch after the one covering store of `P` reads that row of `P`. -/
theorem xrow_eq (arg8 : Memref sig .tc .vmem S64x1024 .f32) (P : FVec F S64x1024 .f32) (t : ℕ) :
    xrow arg8 P t = rowOf P t := by
  unfold xrow rowOf
  rw [View.readCov_eq_canon_ld _ _ _ (fun y => ⟨_, List.mem_singleton_self _, View.mem_set_unit_zero hz2 inb_S64x1024_S64x1024_0_0 y⟩),
    View.canon_unit_zero hz2]

/-- Entry `j'` of row `t` is entry `(t, j')`. -/
theorem rowOf_apply (P : FVec F S64x1024 .f32) (t : ℕ) (ht : t < 64) (j' : Fin 1024) :
    rowOf P t (ix2 0 j') = P (ix2 ⟨t, ht⟩ j') := by
  unfold rowOf
  show P _ = P _
  congr 1
  funext a
  apply Fin.ext
  match a with
  | ⟨0, _⟩ => show t % 64 + 1 * 0 = t; rw [Nat.mod_eq_of_lt ht]; omega
  | ⟨1, _⟩ => show 0 + 1 * j'.val = j'.val; omega

set_option maxHeartbeats 4000000 in
/-- The output block after the body, as the canonical contents of its one store: the head of the
    hidden state after 64 steps from the zero state, over the loads as the run names them. -/
theorem piece (c : Dev nD) (i : grid0.Coords) (arg1 : Memref sig .tc .vmem S1x64x128 .f32) (harg1 : arg1.IsWhole) (arg2 : Memref sig .tc .vmem S128x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S1x1x128 .f32) (harg7 : arg7.IsWhole) (arg8 : Memref sig .tc .vmem S64x1024 .f32) (harg8 : arg8.IsWhole) (x0 : Vec F S1x64x128 .f32) (x1 : Vec F S128x1024 .bf16) (x2 : Vec F S256x1024 .bf16) (x3 : Vec F S1x1024 .f32) (x4 : Vec F S256x128 .bf16) (x5 : Vec F S1x128 .f32) :
    out0_A_6 c i arg1 harg1 arg2 harg2 arg3 harg3 arg4 harg4 arg5 harg5 arg6 harg6 arg7 harg7 arg8 harg8 x0 x1 x2 x3 x4 x5 = View.canon
      [⟨Rect.unit (s := S1x1x128) ![0, 0, 0] S1x1x128.size inb_S1x1x128_S1x1x128_0_0_0,
          Cell.head (View.readAt (Elt F) arg5.view (Rect.unit (s := S256x128) ![0, 0] S256x128.size inb_S256x128_S256x128_0_0).toLoadRect (harg5.unread x4))
            (View.readAt (Elt F) arg6.view (Rect.unit (s := S1x128) ![0, 0] S1x128.size inb_S1x128_S1x128_0_0).toLoadRect (harg6.unread x5))
            (Cell.steps (View.readAt (Elt F) arg3.view (Rect.unit (s := S256x1024) ![0, 0] S256x1024.size inb_S256x1024_S256x1024_0_0).toLoadRect (harg3.unread x2))
              (xrow arg8 (Cell.xproj (View.readAt (Elt F) arg1.view (Rect.unit (s := S1x64x128) ![0, 0, 0] S1x64x128.size inb_S1x64x128_S1x64x128_0_0_0).toLoadRect (harg1.unread x0))
                (View.readAt (Elt F) arg2.view (Rect.unit (s := S128x1024) ![0, 0] S128x1024.size inb_S128x1024_S128x1024_0_0).toLoadRect (harg2.unread x1))
                (View.readAt (Elt F) arg4.view (Rect.unit (s := S1x1024) ![0, 0] S1x1024.size inb_S1x1024_S1x1024_0_0).toLoadRect (harg4.unread x3))))
              64 Cell.zeroSt).1⟩] := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  sl_kernel_rfl

/-- The output block after the body, in the blocks the body was given: the head of the hidden
    state after the 64 steps of the recurrence from the zero state, step `t` reading row `t` of
    the input projection of the sequence's block. -/
theorem out_eq (c : Dev nD) (i : grid0.Coords) (arg1 : Memref sig .tc .vmem S1x64x128 .f32) (harg1 : arg1.IsWhole) (arg2 : Memref sig .tc .vmem S128x1024 .bf16) (harg2 : arg2.IsWhole) (arg3 : Memref sig .tc .vmem S256x1024 .bf16) (harg3 : arg3.IsWhole) (arg4 : Memref sig .tc .vmem S1x1024 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S1x1x128 .f32) (harg7 : arg7.IsWhole) (arg8 : Memref sig .tc .vmem S64x1024 .f32) (harg8 : arg8.IsWhole) (x0 : Vec F S1x64x128 .f32) (x1 : Vec F S128x1024 .bf16) (x2 : Vec F S256x1024 .bf16) (x3 : Vec F S1x1024 .f32) (x4 : Vec F S256x128 .bf16) (x5 : Vec F S1x128 .f32) :
    out0_A_6 c i arg1 harg1 arg2 harg2 arg3 harg3 arg4 harg4 arg5 harg5 arg6 harg6 arg7 harg7 arg8 harg8 x0 x1 x2 x3 x4 x5
      = Cell.head x4 x5 (Cell.steps x2 (rowOf (Cell.xproj x0 x1 x3)) 64 Cell.zeroSt).1 := by
  rw [piece, View.canon_unit_zero hz3]
  simp only [View.readAt_eq_ld, harg1.read_unread, harg2.read_unread, harg3.read_unread, harg4.read_unread,
    harg5.read_unread, harg6.read_unread, View.ld_unit_zero (S := S1x64x128) hz3, View.ld_unit_zero (S := S128x1024) hz2,
    View.ld_unit_zero (S := S256x1024) hz2, View.ld_unit_zero (S := S1x1024) hz2, View.ld_unit_zero (S := S256x128) hz2,
    View.ld_unit_zero (S := S1x128) hz2]
  rw [show xrow arg8 (Cell.xproj x0 x1 x3) = rowOf (Cell.xproj x0 x1 x3) from funext (xrow_eq arg8 _)]

end Cert.ReferenceIdeal.RefValue

end
-- ==== Proof.RefValueBlocks.lean ====
/-
  From one grid point's block to the whole result. Grid point `t` of the per-sequence program is
  given sequence `t` of the input (its 1×64×128 block) and the five weight arrays whole, and
  writes back block `t` (1×1×128) of a 1024×1×128 array; the 1024 blocks tile that array, so it
  ends holding, at (n, 0, j), entry j of the head of sequence n's last hidden state.
-/
import proofs.«157242_g2000404025908667_pallasbulk_280_33_alg».proof.Proof.RefValuePiece
import Idealize.ShloMosaic.Lib.Pipeline.Value

set_option maxRecDepth 16384

noncomputable section

namespace Cert.ReferenceIdeal.RefValue

open Idealize.ShloMosaic Idealize.ShloMosaic.TcCoe Idealize.ShloMosaic.Tactic Idealize.SL.Sem
open Idealize.ShloMosaic.ValueIdx
open Cert.ReferenceIdeal Cert.ReferenceIdeal.Gen
open Idealize.ShloMosaic.Pipeline (Dat)

variable {F : FTy → Type} [FloatOps F]

/-- The head of the last hidden state of sequence `n`, as the 1×1×128 block the program stores:
    64 steps of the recurrence from the zero state over the rows of that sequence's input projection. -/
def seqOut (x : Vec F S1024x64x128 .f32) (wi : Vec F S128x1024 .bf16) (wh : Vec F S256x1024 .bf16) (b : Vec F S1x1024 .f32) (wl : Vec F S256x128 .bf16) (bl : Vec F S1x128 .f32) (n : Fin 1024) : FVec F S1x1x128 .f32 :=
  Cell.head wl bl (Cell.steps wh (rowOf (Cell.xproj (fun y => x (ix3 n (y 1) (y 2))) wi b)) 64 Cell.zeroSt).1

/-- The array the region writes, 1024×1×128: at (n, 0, j) entry j of sequence n's block. -/
def RG3 (x : Vec F S1024x64x128 .f32) (wi : Vec F S128x1024 .bf16) (wh : Vec F S256x1024 .bf16) (b : Vec F S1x1024 .f32) (wl : Vec F S256x128 .bf16) (bl : Vec F S1x128 .f32) : Vec F S1024x1x128 .f32 :=
  fun i => seqOut x wi wh b wl bl (i 0) (ix3 0 0 (i 2))

/-- An entry of `RG3` from its coordinates. -/
theorem RG3_at (x : Vec F S1024x64x128 .f32) (wi : Vec F S128x1024 .bf16) (wh : Vec F S256x1024 .bf16) (b : Vec F S1x1024 .f32) (wl : Vec F S256x128 .bf16) (bl : Vec F S1x128 .f32) (n : Fin 1024) (y : S1x1x128.Idx) (i : S1024x1x128.Idx)
    (h0 : (i 0).val = n.val) (h2 : (i 2).val = (y 2).val) :
    RG3 x wi wh b wl bl i = seqOut x wi wh b wl bl n y := by
  unfold RG3
  have e0 : i 0 = n := Fin.ext h0
  have e2 : (ix3 0 0 (i 2) : S1x1x128.Idx) = y := by
    funext a
    match a with
    | ⟨0, _⟩ => exact Fin.ext (by have : (y 0).val < 1 := (y 0).isLt; show 0 = (y 0).val; omega)
    | ⟨1, _⟩ => exact Fin.ext (by have : (y 1).val < 1 := (y 1).isLt; show 0 = (y 1).val; omega)
    | ⟨2, _⟩ => exact Fin.ext h2
  rw [e0, e2]

/-- The block's value depends on the six blocks the body was given, nothing else. -/
theorem seq_congr {x0 x0' : Vec F S1x64x128 .f32} {x1 x1' : Vec F S128x1024 .bf16} {x2 x2' : Vec F S256x1024 .bf16}
    {x3 x3' : Vec F S1x1024 .f32} {x4 x4' : Vec F S256x128 .bf16} {x5 x5' : Vec F S1x128 .f32}
    (h0 : x0 = x0') (h1 : x1 = x1') (h2 : x2 = x2') (h3 : x3 = x3') (h4 : x4 = x4') (h5 : x5 = x5') :
    Cell.head x4 x5 (Cell.steps x2 (rowOf (Cell.xproj x0 x1 x3)) 64 Cell.zeroSt).1
      = Cell.head x4' x5' (Cell.steps x2' (rowOf (Cell.xproj x0' x1' x3')) 64 Cell.zeroSt).1 := by
  subst h0 h1 h2 h3 h4 h5; rfl

variable (m : (ℓ : Loc nD τ sig) → Buf (Elt F) ℓ) (ρ : Dev nD → PrngReg)

/-- The printed index maps over the grid: the input sequence's window and the output's move with the
    point along their first axis, every other block index is zero. -/
theorem idx_facts : ∀ t : Fin cfg0.N,
    (win0_0.index t (0 : Fin 3) = t.val ∧ win0_0.index t (1 : Fin 3) = 0 ∧ win0_0.index t (2 : Fin 3) = 0)
    ∧ (win0_6.index t (0 : Fin 3) = t.val ∧ win0_6.index t (1 : Fin 3) = 0 ∧ win0_6.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- The point as a sequence number. -/
abbrev seqOf (t : Fin cfg0.N) : Fin 1024 := Fin.cast N_0 t

/-- Window 0's block at point `t` is sequence `t` of the input. -/
theorem iblk0_eq (c : Dev nD) (t : Fin cfg0.N) :
    (iblk m c 0 t : Vec F S1x64x128 .f32) = fun y => (m ((c : Thread nD τ).loc main_arg0) : Vec F S1024x64x128 .f32) (ix3 (seqOf t) (y 1) (y 2)) := by
  obtain ⟨⟨h0, h1, h2⟩, -⟩ := idx_facts t
  funext y
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 3) * 1 + 1 * (y 0).val = t.val; have : (y 0).val < 1 := (y 0).isLt; rw [h0]; omega
  | ⟨1, _⟩ => show win0_0.index t (1 : Fin 3) * 64 + 1 * (y 1).val = (y 1).val; rw [h1]; omega
  | ⟨2, _⟩ => show win0_0.index t (2 : Fin 3) * 128 + 1 * (y 2).val = (y 2).val; rw [h2]; omega

/-- Window 1's block is its whole array at every point. -/
theorem iblk1_eq (c : Dev nD) (t : Fin cfg0.N) : (iblk m c 1 t : Vec F S128x1024 .bf16) = m ((c : Thread nD τ).loc main_arg1) := by
  obtain ⟨-, -, ⟨h0, h1⟩, -, -, -, -⟩ := idx_facts t
  funext y
  unfold iblk
  rw [View.read_apply]
  show m ((c : Thread nD τ).loc main_arg1) _ = m ((c : Thread nD τ).loc main_arg1) y
  congr 1
  funext a
  apply Fin.ext
  match a with
  | ⟨0, _⟩ => show win0_1.index t (0 : Fin 2) * 128 + 1 * (y 0).val = (y 0).val; rw [h0]; omega
  | ⟨1, _⟩ => show win0_1.index t (1 : Fin 2) * 1024 + 1 * (y 1).val = (y 1).val; rw [h1]; omega

/-- Window 2's block is its whole array at every point. -/
theorem iblk2_eq (c : Dev nD) (t : Fin cfg0.N) : (iblk m c 2 t : Vec F S256x1024 .bf16) = m ((c : Thread nD τ).loc main_arg2) := by
  obtain ⟨-, -, -, ⟨h0, h1⟩, -, -, -⟩ := idx_facts t
  funext y
  unfold iblk
  rw [View.read_apply]
  show m ((c : Thread nD τ).loc main_arg2) _ = m ((c : Thread nD τ).loc main_arg2) y
  congr 1
  funext a
  apply Fin.ext
  match a with
  | ⟨0, _⟩ => show win0_2.index t (0 : Fin 2) * 256 + 1 * (y 0).val = (y 0).val; rw [h0]; omega
  | ⟨1, _⟩ => show win0_2.index t (1 : Fin 2) * 1024 + 1 * (y 1).val = (y 1).val; rw [h1]; omega

/-- Window 3's block is its whole array at every point. -/
theorem iblk3_eq (c : Dev nD) (t : Fin cfg0.N) : (iblk m c 3 t : Vec F S1x1024 .f32) = m ((c : Thread nD τ).loc main_arg3) := by
  obtain ⟨-, -, -, -, ⟨h0, h1⟩, -, -⟩ := idx_facts t
  funext y
  unfold iblk
  rw [View.read_apply]
  show m ((c : Thread nD τ).loc main_arg3) _ = m ((c : Thread nD τ).loc main_arg3) y
  congr 1
  funext a
  apply Fin.ext
  match a with
  | ⟨0, _⟩ => show win0_3.index t (0 : Fin 2) * 1 + 1 * (y 0).val = (y 0).val; rw [h0]; omega
  | ⟨1, _⟩ => show win0_3.index t (1 : Fin 2) * 1024 + 1 * (y 1).val = (y 1).val; rw [h1]; omega

/-- Window 4's block is its whole array at every point. -/
theorem iblk4_eq (c : Dev nD) (t : Fin cfg0.N) : (iblk m c 4 t : Vec F S256x128 .bf16) = m ((c : Thread nD τ).loc main_arg4) := by
  obtain ⟨-, -, -, -, -, ⟨h0, h1⟩, -⟩ := idx_facts t
  funext y
  unfold iblk
  rw [View.read_apply]
  show m ((c : Thread nD τ).loc main_arg4) _ = m ((c : Thread nD τ).loc main_arg4) y
  congr 1
  funext a
  apply Fin.ext
  match a with
  | ⟨0, _⟩ => show win0_4.index t (0 : Fin 2) * 256 + 1 * (y 0).val = (y 0).val; rw [h0]; omega
  | ⟨1, _⟩ => show win0_4.index t (1 : Fin 2) * 128 + 1 * (y 1).val = (y 1).val; rw [h1]; omega

/-- Window 5's block is its whole array at every point. -/
theorem iblk5_eq (c : Dev nD) (t : Fin cfg0.N) : (iblk m c 5 t : Vec F S1x128 .f32) = m ((c : Thread nD τ).loc main_arg5) := by
  obtain ⟨-, -, -, -, -, -, ⟨h0, h1⟩⟩ := idx_facts t
  funext y
  unfold iblk
  rw [View.read_apply]
  show m ((c : Thread nD τ).loc main_arg5) _ = m ((c : Thread nD τ).loc main_arg5) y
  congr 1
  funext a
  apply Fin.ext
  match a with
  | ⟨0, _⟩ => show win0_5.index t (0 : Fin 2) * 1 + 1 * (y 0).val = (y 0).val; rw [h0]; omega
  | ⟨1, _⟩ => show win0_5.index t (1 : Fin 2) * 128 + 1 * (y 1).val = (y 1).val; rw [h1]; omega

/-- What the output's staging buffer holds after the body at point `t`: sequence `t`'s block. -/
theorem outsAt_eq (c : Dev nD) (t : Fin cfg0.N) :
    outsAt0 m c t = seqOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (seqOf t) := by
  unfold outsAt0
  refine (out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t)).trans ?_
  unfold seqOut
  exact seq_congr (iblk0_eq m c t) (iblk1_eq m c t) (iblk2_eq m c t) (iblk3_eq m c t) (iblk4_eq m c t) (iblk5_eq m c t)

/-- What point `t` writes back is block `t` of `RG3` of the argument arrays. -/
theorem flushed_eq (c : Dev nD) (t : Fin cfg0.N) :
    (dats m 0 c).flushed 6 t = ((cfg0.win 6).blk t).view.read (Elt F) (RG3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show (cfg0.win 6).cut (grid0.coords t) ((dats m 0 c).after 6 t) = _
  rw [after0_6, outsAt_eq]
  obtain ⟨-, ⟨h0, h1, h2⟩, -⟩ := idx_facts t
  funext y
  rw [View.read_apply]
  show seqOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (seqOf t) y = RG3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y)
  refine (RG3_at _ _ _ _ _ _ (seqOf t) y _ ?_ ?_).symm
  · show win0_6.index t (0 : Fin 3) * 1 + 1 * (y 0).val = t.val; have : (y 0).val < 1 := (y 0).isLt; rw [h0]; omega
  · show win0_6.index t (2 : Fin 3) * 128 + 1 * (y 2).val = (y 2).val; rw [h2]; omega

/-- An index of the array is in point `t`'s block iff each coordinate is in the block's range on its axis. -/
theorem mem_blk (t : Fin cfg0.N) (i : S1024x1x128.Idx) :
    i ∈ ((cfg0.win 6).blk t).view.set ↔ ∀ a : Fin 3, win0_6.index t a * S1x1x128.size a ≤ (i a).val ∧ (i a).val < win0_6.index t a * S1x1x128.size a + S1x1x128.size a := by
  show i ∈ ((View.whole main_call0_v0).slice (win0_6.rect t)).set ↔ _
  rw [View.set_slice_whole, Rect.mem_set_unit]
  exact Iff.rfl

/-- Every index (n, 0, j) of the array is in point n's block. -/
theorem cover (i : S1024x1x128.Idx) :
    ∃ t : Fin cfg0.N, (cfg0.win 6).flush t = true ∧ i ∈ ((cfg0.win 6).blk t).view.set := by
  refine ⟨Fin.cast N_0.symm (i 0), flush0_6 _, ?_⟩
  rw [mem_blk]
  obtain ⟨-, ⟨h0, h1, h2⟩, -⟩ := idx_facts (Fin.cast N_0.symm (i 0))
  have hv : (Fin.cast N_0.symm (i 0)).val = (i 0).val := rfl
  intro a
  match a with
  | ⟨0, _⟩ => show win0_6.index _ (0 : Fin 3) * 1 ≤ (i 0).val ∧ (i 0).val < win0_6.index _ (0 : Fin 3) * 1 + 1; rw [h0, hv]; omega
  | ⟨1, _⟩ => show win0_6.index _ (1 : Fin 3) * 1 ≤ (i 1).val ∧ (i 1).val < win0_6.index _ (1 : Fin 3) * 1 + 1; have : (i 1).val < 1 := (i 1).isLt; rw [h1]; omega
  | ⟨2, _⟩ => show win0_6.index _ (2 : Fin 3) * 128 ≤ (i 2).val ∧ (i 2).val < win0_6.index _ (2 : Fin 3) * 128 + 128; have : (i 2).val < 128 := (i 2).isLt; rw [h2]; omega

/-- The array the region writes ends holding `RG3` of the argument arrays. -/
theorem final (c : Dev nD) : (dats m 0 c).arrAt 6 cfg0.N = RG3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 (RG3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun t _ => flushed_eq m c t) cover

end Cert.ReferenceIdeal.RefValue

end
-- ==== Proof.RefValue.lean ====
/-
  The per-sequence program's result as ONE function of its six argument arrays. The region leaves
  the 1024×1×128 array of the sequences' head blocks; the one line after the region reshapes it to
  1024×128, which drops the unit axis: entry (n, j) of the result is entry j of the linear head of
  sequence n's hidden state after the 64 steps of the recurrence from the zero state, step t
  reading row t of x_n · W_ih + b.
-/
import proofs.«157242_g2000404025908667_pallasbulk_280_33_alg».proof.Proof.RefValueBlocks
import Idealize.ShloMosaic.Lib.StableHlo.Run

set_option maxRecDepth 16384

noncomputable section

namespace Cert.ReferenceIdeal.RefValue

open Idealize.ShloMosaic Idealize.ShloMosaic.TcCoe Idealize.ShloMosaic.Tactic Idealize.SL.Sem
open Idealize.ShloMosaic.ValueIdx
open Cert.ReferenceIdeal Cert.ReferenceIdeal.Gen
open Idealize.ShloMosaic.Pipeline (Dat)

variable {F : FTy → Type} [FloatOps F]

/-- The result, 1024×128: at (n, j) entry j of the head of sequence n's last hidden state. -/
def RG (x : Vec F S1024x64x128 .f32) (wi : Vec F S128x1024 .bf16) (wh : Vec F S256x1024 .bf16) (b : Vec F S1x1024 .f32) (wl : Vec F S256x128 .bf16) (bl : Vec F S1x128 .f32) : Vec F S1024x128 .f32 :=
  fun i => seqOut x wi wh b wl bl (i 0) (ix3 0 0 (i 1))

/-- Entry (n, j) of the result. -/
theorem RG_apply (x : Vec F S1024x64x128 .f32) (wi : Vec F S128x1024 .bf16) (wh : Vec F S256x1024 .bf16) (b : Vec F S1x1024 .f32) (wl : Vec F S256x128 .bf16) (bl : Vec F S1x128 .f32) (n : Fin 1024) (j : Fin 128) :
    RG x wi wh b wl bl (ix2 n j)
      = Cell.head wl bl (Cell.steps wh (rowOf (Cell.xproj (fun y => x (ix3 n (y 1) (y 2))) wi b)) 64 Cell.zeroSt).1 (ix3 0 0 j) := rfl

/-- Reshaping 1024×1×128 to 1024×128 reads (n, j) at (n, 0, j): the same row-major position. -/
theorem reshape_RG3 (x : Vec F S1024x64x128 .f32) (wi : Vec F S128x1024 .bf16) (wh : Vec F S256x1024 .bf16) (b : Vec F S1x1024 .f32) (wl : Vec F S256x128 .bf16) (bl : Vec F S1x128 .f32) :
    shapeCast S1024x128 (RG3 x wi wh b wl bl) shapeCasts_S1024x1x128_S1024x128 = RG x wi wh b wl bl := by
  funext i
  refine (shapeCast_apply _ _ i (ix3 (i 0) 0 (i 1)) ?_).trans rfl
  rw [Shape.rowMajor_val_three, Shape.rowMajor_val_two]
  show ((i 0).val * 1 + 0) * 128 + (i 1).val = (i 0).val * 128 + (i 1).val
  omega

variable (m : (ℓ : Loc nD τ sig) → Buf (Elt F) ℓ) (ρ : Dev nD → PrngReg)

/-- After the line that follows the region the result buffer holds `RG` of the argument arrays. -/
theorem tail_eq (c : Dev nD) :
    Pipeline.afterTail₀ cfgs (dats m) 0 (V0 m) [hostOps1] c main_v0 = RG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v0) = _
  after_results
  rw [show Pipeline.withArrays (cfgs 0).spec c (V0 m c) (fun w => (dats m 0 c).arrAt w (cfgs 0).N) (Proc.devRef .tc main_call0_v0)
      = RG3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) from (Pipeline.withArrays_arr spec0 launch0.win.arr_inj c _ _ 6).trans (final m c)]
  exact reshape_RG3 _ _ _ _ _ _

/-- The result buffer is unscoped and no window's array. -/
theorem main_v0_rest : main_v0 ∈ Pipeline.restRefs sig (cfgs 0).spec :=
  Pipeline.mem_restRefs_of main_v0 rfl (by decide)

/-- The program runs, ends with its result at `RG` of the argument arrays, and leaves the arguments unchanged. -/
theorem run : θ_run defs (onTc (τ := τ) (main (F := F))) ⟨m, fun _ => 0, ρ⟩ fun r => ∀ c : Dev nD,
      r.2.mem ((c.tc : Thread nD τ).loc main_v0) = RG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v0 main_v0_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩) (run_main m ρ)

end Cert.ReferenceIdeal.RefValue

end
-- ==== Proof.RCellValueOps.lean ====
/-
  The vector operations the per-sequence step is built from, read at one element over the extended
  reals: a row-by-matrix product into a zero accumulator is the sum of products over the contracted
  coordinate, and a cut along the columns reads the source column shifted by the cut's offset.
-/
import proofs.«157242_g2000404025908667_pallasbulk_280_33_alg».proof.Proof.RCell
import Idealize.ShloMosaic.Lib.ValueLayout
import Idealize.ShloMosaic.PureOps.Ideal.Laws

noncomputable section

namespace Cert.ReferenceIdeal.CellValue

open Idealize.ShloMosaic Idealize.ShloMosaic.ValueIdx

/-- An m×k by k×n matrix product (contracting the left operand's columns with the right operand's
    rows) into the zero accumulator, at entry (a, b): the sum over c of A(a, c) · B(c, b). -/
theorem matmul_zero_ix2 {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.ReferenceIdeal.CellValue

end
-- ==== Proof.RCellValueXproj.lean ====
/-
  The hoisted input projection of the per-sequence program at (step t, column j), over the extended
  reals: the sum over k of (input at (t, k)) · (weight at (k, j)), plus the bias at j.
-/
import proofs.«157242_g2000404025908667_pallasbulk_280_33_alg».proof.Proof.RCellValueOps
import proofs.«157242_g2000404025908667_pallasbulk_280_33_alg».proof.Proof.Spec

noncomputable section

namespace Cert.ReferenceIdeal.CellValue

open Idealize.ShloMosaic Idealize.ShloMosaic.ValueIdx Cert.ReferenceIdeal Cert.ReferenceIdeal.Gen

/-- Row t, column j of the input projection. -/
theorem xproj_apply (x : Vec Ideal S1x64x128 .f32) (wi : Vec Ideal S128x1024 .bf16) (b : Vec Ideal S1x1024 .f32)
    (t : Fin 64) (j : Fin 1024) :
    Cell.xproj x wi b (ix2 t j)
      = (∑ k : Fin 128, x (ix3 (0 : Fin 1) t k) * wi (ix2 k j)) + b (ix2 (0 : Fin 1) j) := by
  unfold Cell.xproj
  rw [shapeCast_self, addf_apply, broadcastTo_1b_ab_apply]
  refine congrArg (· + b (ix2 (0 : Fin 1) j)) ?_
  refine (matmul_zero_ix2 Facts₀.dot_S64x128_S128x1024_S64x1024_1_0_0_1_n_n_wf none
    (truncf .bf16 (shapeCast S64x128 x Facts₀.shapeCasts_S1x64x128_S64x128) Facts₀.bitsLt_bf16_f32) wi t j).trans ?_
  refine Finset.sum_congr rfl fun k _ => ?_
  rw [truncf_apply, shapeCast_1ab_ab_apply]

/-- With the weights and the inputs named entry by entry, row t of the input projection is the
    recurrence's input projection of step t's input row, plus the bias. -/
theorem xproj_eq (W : Lstm.Weights) (xs : ℕ → Fin 128 → EReal)
    (x : Vec Ideal S1x64x128 .f32) (wi : Vec Ideal S128x1024 .bf16) (b : Vec Ideal S1x1024 .f32)
    (hx : ∀ (t : Fin 64) k, x (ix3 (0 : Fin 1) t k) = xs t.val k)
    (hwi : ∀ k j, wi (ix2 k j) = W.wih k j) (hb : ∀ j, b (ix2 (0 : Fin 1) j) = W.b j)
    (t : Fin 64) (j : Fin 1024) :
    Cell.xproj x wi b (ix2 t j) = (∑ k, xs t.val k * W.wih k j) + W.b j := by
  rw [xproj_apply, hb j]
  exact congrArg (· + W.b j) (Finset.sum_congr rfl fun k _ => by rw [hx t k, hwi k j])

end Cert.ReferenceIdeal.CellValue

end
-- ==== Proof.RCellValueStep.lean ====
/-
  One time step of the per-sequence program, element by element over the extended reals, is the
  step of the recurrence: the pre-activation at column j is (input projection + bias) + hidden
  projection, the gates read the column blocks 0, 1, 2 (logistic) and 3 (hyperbolic tangent), and the
  new cell and hidden states are the recurrence's.
-/
import proofs.«157242_g2000404025908667_pallasbulk_280_33_alg».proof.Proof.RCellValueOps
import proofs.«157242_g2000404025908667_pallasbulk_280_33_alg».proof.Proof.Spec

noncomputable section

namespace Cert.ReferenceIdeal.CellValue

open Idealize.ShloMosaic Idealize.ShloMosaic.ValueIdx Cert.ReferenceIdeal Cert.ReferenceIdeal.Gen

/-- The pre-activation at column j: the input-projection row's entry plus the hidden projection's. -/
theorem pre_apply (wh : Vec Ideal S256x1024 .bf16) (xp : Vec Ideal S1x1024 .f32) (h : FVec Ideal S1x256 .f32)
    (j : Fin 1024) :
    Cell.pre wh xp h (ix2 (0 : Fin 1) j) = xp (ix2 (0 : Fin 1) j) + ∑ k : Fin 256, h (ix2 (0 : Fin 1) k) * wh (ix2 k j) := by
  unfold Cell.pre
  rw [addf_apply]
  exact congrArg (xp (ix2 (0 : Fin 1) j) + ·)
    (matmul_zero_ix2 Facts₀.dot_S1x256_S256x1024_S1x1024_1_0_0_1_n_n_wf none (truncf .bf16 h Facts₀.bitsLt_bf16_f32) wh 0 j)

/-- A sigmoid gate's column k (below 768) is the logistic function of the pre-activation's column k. -/
theorem sig_apply (p : FVec Ideal S1x1024 .f32) (k : Fin 768) (k' : Fin 1024) (hk : k'.val = k.val) :
    Cell.sig p (ix2 (0 : Fin 1) k) = Ideal.logistic (p (ix2 (0 : Fin 1) k')) := by
  unfold Cell.sig
  show Ideal.logistic (extractStridedSlice S1x768 ![0, 0] p _ (ix2 (0 : Fin 1) k)) = _
  rw [slice2_axis1_apply 0 p _ 0 k k' (by rw [hk, Nat.zero_add])]

/-- The new cell state at column j: forget gate · old cell state + input gate · candidate. -/
theorem cellC_apply (p : FVec Ideal S1x1024 .f32) (c : FVec Ideal S1x256 .f32) (j : Fin 256) :
    Cell.cellC p c (ix2 (0 : Fin 1) j)
      = Ideal.logistic (p (ix2 (0 : Fin 1) (Lstm.gate 1 j))) * c (ix2 (0 : Fin 1) j)
        + Ideal.logistic (p (ix2 (0 : Fin 1) (Lstm.gate 0 j))) * Ideal.tanh (p (ix2 (0 : Fin 1) (Lstm.gate 3 j))) := by
  unfold Cell.cellC
  show extractStridedSlice S1x256 ![0, 256] (Cell.sig p) _ (ix2 (0 : Fin 1) j) * c (ix2 (0 : Fin 1) j)
      + extractStridedSlice S1x256 ![0, 0] (Cell.sig p) _ (ix2 (0 : Fin 1) j)
        * Ideal.tanh (extractStridedSlice S1x256 ![0, 768] p _ (ix2 (0 : Fin 1) j)) = _
  rw [slice2_axis1_apply 256 (Cell.sig p) _ 0 j ⟨256 + j.val, by omega⟩ rfl,
    slice2_axis1_apply 0 (Cell.sig p) _ 0 j ⟨j.val, by omega⟩ (Nat.zero_add _).symm,
    slice2_axis1_apply 768 p _ 0 j (Lstm.gate 3 j) (by show 256 * 3 + j.val = 768 + j.val; omega),
    sig_apply p _ (Lstm.gate 1 j) (by show 256 * 1 + j.val = 256 + j.val; omega),
    sig_apply p _ (Lstm.gate 0 j) (by show 256 * 0 + j.val = j.val; omega)]

/-- The new hidden state at column j: output gate · tanh (new cell state). -/
theorem cellH_apply (p : FVec Ideal S1x1024 .f32) (c : FVec Ideal S1x256 .f32) (j : Fin 256) :
    Cell.cellH p c (ix2 (0 : Fin 1) j)
      = Ideal.logistic (p (ix2 (0 : Fin 1) (Lstm.gate 2 j))) * Ideal.tanh (Cell.cellC p c (ix2 (0 : Fin 1) j)) := by
  unfold Cell.cellH
  show extractStridedSlice S1x256 ![0, 512] (Cell.sig p) _ (ix2 (0 : Fin 1) j)
      * Ideal.tanh (Cell.cellC p c (ix2 (0 : Fin 1) j)) = _
  rw [slice2_axis1_apply 512 (Cell.sig p) _ 0 j ⟨512 + j.val, by omega⟩ rfl,
    sig_apply p _ (Lstm.gate 2 j) (by show 256 * 2 + j.val = 512 + j.val; omega)]

section Step

variable (W : Lstm.Weights) (wh : Vec Ideal S256x1024 .bf16) (hwh : ∀ k j, wh (ix2 k j) = W.whh k j)
  (xp : Vec Ideal S1x1024 .f32) (x : Fin 128 → EReal)
  (hxp : ∀ j, xp (ix2 (0 : Fin 1) j) = (∑ k, x k * W.wih k j) + W.b j)

include hwh hxp

/-- The program's pre-activation is the recurrence's, column by column. -/
theorem pre_eq (h : FVec Ideal S1x256 .f32) (j : Fin 1024) :
    Cell.pre wh xp h (ix2 (0 : Fin 1) j) = Lstm.pre W x (fun q => h (ix2 (0 : Fin 1) q)) j := by
  rw [pre_apply, hxp j]
  unfold Lstm.pre
  exact congrArg (_ + ·) (Finset.sum_congr rfl fun k _ => by rw [hwh k j])

/-- The program's new cell state is the recurrence's. -/
theorem cell_snd (s : Cell.St Ideal) (j : Fin 256) :
    (Cell.cell wh xp s).2 (ix2 (0 : Fin 1) j)
      = Lstm.cellC W x (fun q => s.1 (ix2 (0 : Fin 1) q)) (fun q => s.2 (ix2 (0 : Fin 1) q)) j := by
  show Cell.cellC (Cell.pre wh xp s.1) s.2 (ix2 (0 : Fin 1) j) = _
  rw [cellC_apply]
  unfold Lstm.cellC
  simp only [pre_eq W wh hwh xp x hxp]

/-- The program's new hidden state is the recurrence's. -/
theorem cell_fst (s : Cell.St Ideal) (j : Fin 256) :
    (Cell.cell wh xp s).1 (ix2 (0 : Fin 1) j)
      = Lstm.cellH W x (fun q => s.1 (ix2 (0 : Fin 1) q)) (fun q => s.2 (ix2 (0 : Fin 1) q)) j := by
  show Cell.cellH (Cell.pre wh xp s.1) s.2 (ix2 (0 : Fin 1) j) = _
  rw [cellH_apply]
  unfold Lstm.cellH
  rw [show Cell.cellC (Cell.pre wh xp s.1) s.2 (ix2 (0 : Fin 1) j)
      = Lstm.cellC W x (fun q => s.1 (ix2 (0 : Fin 1) q)) (fun q => s.2 (ix2 (0 : Fin 1) q)) j from
    cell_snd W wh hwh xp x hxp s j]
  simp only [pre_eq W wh hwh xp x hxp]

end Step

end Cert.ReferenceIdeal.CellValue

end
-- ==== Proof.RCellValueRun.lean ====
/-
  Iterating the per-sequence step: the program's state after k steps, read as the pair of rows
  (hidden state, cell state) over the extended reals, is the recurrence run for k steps; the all-zero
  initial state is the recurrence's zero state.
-/
import proofs.«157242_g2000404025908667_pallasbulk_280_33_alg».proof.Proof.RCellValueStep

noncomputable section

namespace Cert.ReferenceIdeal.CellValue

open Idealize.ShloMosaic Idealize.ShloMosaic.ValueIdx Cert.ReferenceIdeal Cert.ReferenceIdeal.Gen

/-- A program state's one row, as the recurrence's state. -/
def rowSt (s : Cell.St Ideal) : Lstm.St :=
  (fun q => s.1 (ix2 (0 : Fin 1) q), fun q => s.2 (ix2 (0 : Fin 1) q))

/-- One step of the program is one step of the recurrence on the rows. -/
theorem cell_row (W : Lstm.Weights) (wh : Vec Ideal S256x1024 .bf16) (hwh : ∀ k j, wh (ix2 k j) = W.whh k j)
    (xp : Vec Ideal S1x1024 .f32) (x : Fin 128 → EReal)
    (hxp : ∀ j, xp (ix2 (0 : Fin 1) j) = (∑ k, x k * W.wih k j) + W.b j) (s : Cell.St Ideal) :
    rowSt (Cell.cell wh xp s) = Lstm.cell W x (rowSt s) :=
  Prod.ext (funext fun j => cell_fst W wh hwh xp x hxp s j) (funext fun j => cell_snd W wh hwh xp x hxp s j)

/-- k steps of the program are k steps of the recurrence on the rows, as long as each step's
    input-projection row is the projection of that step's input row plus the bias. -/
theorem steps_row (W : Lstm.Weights) (wh : Vec Ideal S256x1024 .bf16) (hwh : ∀ k j, wh (ix2 k j) = W.whh k j)
    (xp : ℕ → Vec Ideal S1x1024 .f32) (xs : ℕ → Fin 128 → EReal) (n : ℕ)
    (hxp : ∀ t, t < n → ∀ j, xp t (ix2 (0 : Fin 1) j) = (∑ k, xs t k * W.wih k j) + W.b j) (s : Cell.St Ideal) :
    ∀ k ≤ n, rowSt (Cell.steps wh xp k s) = Lstm.run W xs k (rowSt s) := by
  intro k
  induction k with
  | zero => intro _; rfl
  | succ k ih =>
    intro hk
    show rowSt (Cell.cell wh (xp k) (Cell.steps wh xp k s)) = Lstm.cell W (xs k) (Lstm.run W xs k (rowSt s))
    rw [cell_row W wh hwh (xp k) (xs k) (hxp k (by omega)), ih (by omega)]

/-- The all-zero initial state is the recurrence's zero state. -/
theorem rowSt_zeroSt : rowSt (Cell.zeroSt (F := Ideal)) = Lstm.zero :=
  Prod.ext (funext fun _ => Ideal.ofBits_zero_f32) (funext fun _ => Ideal.ofBits_zero_f32)

end Cert.ReferenceIdeal.CellValue

end
-- ==== Proof.RCellValueHead.lean ====
/-
  The final linear layer of the per-sequence program at output column j, over the extended reals: the
  sum over k of (hidden state at k) · (weight at (k, j)), plus the bias at j.
-/
import proofs.«157242_g2000404025908667_pallasbulk_280_33_alg».proof.Proof.RCellValueOps
import proofs.«157242_g2000404025908667_pallasbulk_280_33_alg».proof.Proof.Spec

noncomputable section

namespace Cert.ReferenceIdeal.CellValue

open Idealize.ShloMosaic Idealize.ShloMosaic.ValueIdx Cert.ReferenceIdeal Cert.ReferenceIdeal.Gen

/-- The stored 1×1×128 block at column j is the linear layer's output at j. -/
theorem head_apply (W : Lstm.Weights) (wl : Vec Ideal S256x128 .bf16) (bl : Vec Ideal S1x128 .f32)
    (hwl : ∀ k j, wl (ix2 k j) = W.wlin k j) (hbl : ∀ j, bl (ix2 (0 : Fin 1) j) = W.blin j)
    (h : FVec Ideal S1x256 .f32) (j : Fin 128) :
    Cell.head wl bl h (ix3 (0 : Fin 1) (0 : Fin 1) j) = Lstm.headOut W (fun q => h (ix2 (0 : Fin 1) q)) j := by
  unfold Cell.head
  rw [shapeCast_ab_1ab_apply, addf_apply, hbl j]
  unfold Lstm.headOut
  refine congrArg (· + W.blin j) ?_
  refine (matmul_zero_ix2 Facts₀.dot_S1x256_S256x128_S1x128_1_0_0_1_n_n_wf none
    (truncf .bf16 h Facts₀.bitsLt_bf16_f32) wl 0 j).trans ?_
  exact Finset.sum_congr rfl fun k _ => by rw [hwl k j]; rfl

end Cert.ReferenceIdeal.CellValue

end
-- ==== Proof.RCellValueOut.lean ====
/-
  The per-sequence program end to end over the extended reals: 64 steps from the all-zero state, then
  the final linear layer on the last hidden state, is the network's output on that sequence.
-/
import proofs.«157242_g2000404025908667_pallasbulk_280_33_alg».proof.Proof.RCellValueRun
import proofs.«157242_g2000404025908667_pallasbulk_280_33_alg».proof.Proof.RCellValueHead

noncomputable section

namespace Cert.ReferenceIdeal.CellValue

open Idealize.ShloMosaic Idealize.ShloMosaic.ValueIdx Cert.ReferenceIdeal Cert.ReferenceIdeal.Gen

/-- The stored block at column j is the network's output at j. -/
theorem ref_out (W : Lstm.Weights) (xs : ℕ → Fin 128 → EReal)
    (wh : Vec Ideal S256x1024 .bf16) (wl : Vec Ideal S256x128 .bf16) (bl : Vec Ideal S1x128 .f32)
    (xp : ℕ → Vec Ideal S1x1024 .f32)
    (hwh : ∀ k j, wh (ix2 k j) = W.whh k j) (hwl : ∀ k j, wl (ix2 k j) = W.wlin k j)
    (hbl : ∀ j, bl (ix2 (0 : Fin 1) j) = W.blin j)
    (hxp : ∀ t, t < 64 → ∀ j, xp t (ix2 (0 : Fin 1) j) = (∑ k, xs t k * W.wih k j) + W.b j) (j : Fin 128) :
    Cell.head wl bl (Cell.steps wh xp 64 Cell.zeroSt).1 (ix3 (0 : Fin 1) (0 : Fin 1) j) = Lstm.out W xs j := by
  rw [head_apply W wl bl hwl hbl]
  unfold Lstm.out
  have hrun := steps_row W wh hwh xp xs 64 hxp Cell.zeroSt 64 (Nat.le_refl _)
  rw [rowSt_zeroSt] at hrun
  rw [← hrun]
  rfl

end Cert.ReferenceIdeal.CellValue

end
-- ==== Proof.RefGlueRow.lean ====
/-
  One sequence of the per-sequence program is one run of the recurrence. With the weights read entry
  by entry off the five weight arrays and the inputs of step t read off row t of sequence n of the
  sequence input, row t of the hoisted input projection is the recurrence's input projection of step
  t plus the bias; so the final layer on the hidden state after the 64 steps from the zero state is, at
  column j, the network's output on sequence n at column j.
-/
import proofs.«157242_g2000404025908667_pallasbulk_280_33_alg».proof.Proof.RefValuePiece
import proofs.«157242_g2000404025908667_pallasbulk_280_33_alg».proof.Proof.RCellValueXproj
import proofs.«157242_g2000404025908667_pallasbulk_280_33_alg».proof.Proof.RCellValueOut
import proofs.«157242_g2000404025908667_pallasbulk_280_33_alg».proof.Proof.SpecArrays

noncomputable section

namespace Cert.ReferenceIdeal.RefGlue

open Idealize.ShloMosaic Idealize.ShloMosaic.ValueIdx Cert.ReferenceIdeal Cert.ReferenceIdeal.Gen

/-- The block of sequence n of the sequence input, as the 1×64×128 block one grid point is given. -/
def seqBlock (x : Vec Ideal S1024x64x128 .f32) (n : Fin 1024) : Vec Ideal S1x64x128 .f32 :=
  fun y => x (ix3 n (y 1) (y 2))

/-- Entry (0, t, k) of sequence n's block is the recurrence's input of step t at k. -/
theorem seqBlock_apply (x : Vec Ideal S1024x64x128 .f32) (n : Fin 1024) (t : Fin 64) (k : Fin 128) :
    seqBlock x n (ix3 (0 : Fin 1) t k) = Cert.Lstm.seqOf x n t.val k := by
  show x (ix3 n t k) = x (ix3 n ⟨t.val % 64, _⟩ k)
  congr 2
  exact Fin.ext (Nat.mod_eq_of_lt t.isLt).symm

/-- The head of sequence n's last hidden state at column j is the result array's entry (n, j). -/
theorem seq_out (x : Vec Ideal S1024x64x128 .f32) (wi : Vec Ideal S128x1024 .bf16) (wh : Vec Ideal S256x1024 .bf16)
    (b : Vec Ideal S1x1024 .f32) (wl : Vec Ideal S256x128 .bf16) (bl : Vec Ideal S1x128 .f32) (n : Fin 1024) (j : Fin 128) :
    Cell.head wl bl (Cell.steps wh (RefValue.rowOf (Cell.xproj (seqBlock x n) wi b)) 64 Cell.zeroSt).1
        (ix3 (0 : Fin 1) (0 : Fin 1) j)
      = Cert.Lstm.G x wi wh b wl bl (ix2 n j) := by
  rw [Cert.Lstm.G_apply]
  refine CellValue.ref_out (Cert.Lstm.weightsOf wi wh b wl bl) (Cert.Lstm.seqOf x n) wh wl bl _
    (fun _ _ => rfl) (fun _ _ => rfl) (fun _ => rfl) (fun t ht j' => ?_) j
  rw [RefValue.rowOf_apply _ t ht j']
  exact CellValue.xproj_eq (Cert.Lstm.weightsOf wi wh b wl bl) (Cert.Lstm.seqOf x n) (seqBlock x n) wi b
    (fun t' k => seqBlock_apply x n t' k) (fun _ _ => rfl) (fun _ => rfl) ⟨t, ht⟩ j'

end Cert.ReferenceIdeal.RefGlue

end
-- ==== Proof.RefGlue.lean ====
/-
  The per-sequence program's result array is the result array of the recurrence: entry (n, j) of the
  former is the head of sequence n's last hidden state at column j, which is the network's output on
  sequence n at column j.
-/
import proofs.«157242_g2000404025908667_pallasbulk_280_33_alg».proof.Proof.RefValue
import proofs.«157242_g2000404025908667_pallasbulk_280_33_alg».proof.Proof.RefGlueRow

noncomputable section

namespace Cert.ReferenceIdeal.RefGlue

open Idealize.ShloMosaic Idealize.ShloMosaic.ValueIdx Cert.ReferenceIdeal Cert.ReferenceIdeal.Gen

/-- The two result arrays are equal, entry by entry. -/
theorem RG_eq_G (x : Vec Ideal S1024x64x128 .f32) (wi : Vec Ideal S128x1024 .bf16) (wh : Vec Ideal S256x1024 .bf16)
    (b : Vec Ideal S1x1024 .f32) (wl : Vec Ideal S256x128 .bf16) (bl : Vec Ideal S1x128 .f32) :
    RefValue.RG x wi wh b wl bl = Cert.Lstm.G x wi wh b wl bl := by
  funext i
  obtain ⟨n, j, rfl⟩ : ∃ (n : Fin 1024) (j : Fin 128), i = ix2 n j := ⟨i 0, i 1, eq_ix2 i⟩
  rw [RefValue.RG_apply]
  exact seq_out x wi wh b wl bl n j

end Cert.ReferenceIdeal.RefGlue

end
-- ==== Proof.lean ====
/-
  Both programs compute one recurrence of 64 time steps per sequence — at each step the
  pre-activation (x · W_ih + b) + h · W_hh, three logistic gates and a tanh candidate, the new cell
  state forget · c + input · candidate, the new hidden state output · tanh c — followed by a final
  linear layer on the last hidden state. The batched kernel walks blocks of 512 sequences in chunks of
  sixteen steps, carries the hidden and cell state in scratch between chunks, pre-multiplies the three
  gates' columns of both weight matrices and of the bias by one half and spells each gate as
  tanh(p) / 2 + 1 / 2; the per-sequence kernel walks one sequence at a time through all 64 steps with
  the input projection hoisted and spells each gate as the logistic function. Over the extended reals
  the two spellings agree: multiplying by the nonnegative real one half distributes over the sums, and
  tanh(p / 2) / 2 + 1 / 2 is the logistic function of p at every extended real. So both result arrays
  are the same function of the six argument arrays (Cert.Lstm.G): the batched kernel's by an invariant
  over its eight grid points, the per-sequence kernel's block by block. The three frames are the
  programs' runs with the results dropped; no operation was rewritten by the idealization, so that
  conjunct is trivial.
-/
import proofs.«157242_g2000404025908667_pallasbulk_280_33_alg».proof.Defs
import proofs.«157242_g2000404025908667_pallasbulk_280_33_alg».proof.Proof.Gen.Kernel
import proofs.«157242_g2000404025908667_pallasbulk_280_33_alg».proof.Proof.Gen.Kernel.Skeleton
import proofs.«157242_g2000404025908667_pallasbulk_280_33_alg».proof.Proof.Gen.Kernel.Launch
import proofs.«157242_g2000404025908667_pallasbulk_280_33_alg».proof.Proof.Gen.Kernel.Points
import proofs.«157242_g2000404025908667_pallasbulk_280_33_alg».proof.Proof.Gen.Kernel.Frame
import proofs.«157242_g2000404025908667_pallasbulk_280_33_alg».proof.Proof.Gen.KernelIdeal
import proofs.«157242_g2000404025908667_pallasbulk_280_33_alg».proof.Proof.Gen.KernelIdeal.Skeleton
import proofs.«157242_g2000404025908667_pallasbulk_280_33_alg».proof.Proof.Gen.KernelIdeal.Launch
import proofs.«157242_g2000404025908667_pallasbulk_280_33_alg».proof.Proof.Gen.KernelIdeal.Points
import proofs.«157242_g2000404025908667_pallasbulk_280_33_alg».proof.Proof.Gen.KernelIdeal.Frame
import proofs.«157242_g2000404025908667_pallasbulk_280_33_alg».proof.Proof.Gen.ReferenceIdeal
import proofs.«157242_g2000404025908667_pallasbulk_280_33_alg».proof.Proof.Gen.ReferenceIdeal.Skeleton
import proofs.«157242_g2000404025908667_pallasbulk_280_33_alg».proof.Proof.Gen.ReferenceIdeal.Launch
import proofs.«157242_g2000404025908667_pallasbulk_280_33_alg».proof.Proof.Gen.ReferenceIdeal.Points
import proofs.«157242_g2000404025908667_pallasbulk_280_33_alg».proof.Proof.Gen.ReferenceIdeal.Frame
import proofs.«157242_g2000404025908667_pallasbulk_280_33_alg».proof.Proof.Gen.Pre_finite_inputs
import proofs.«157242_g2000404025908667_pallasbulk_280_33_alg».proof.Proof.Gen.KernelIdeal.Value
import proofs.«157242_g2000404025908667_pallasbulk_280_33_alg».proof.Proof.KFinal
import proofs.«157242_g2000404025908667_pallasbulk_280_33_alg».proof.Proof.RefGlue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RefValue.run (F := Ideal) m ρ)

/-- From memories agreeing on the arguments both idealized programs end with the result array at the
    recurrence's function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Lstm.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [Cert.ReferenceIdeal.RefGlue.RG_eq_G, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
